-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S1024x256 : Shape := ⟨2, ![1024, 256]⟩
abbrev S1024 : Shape := ⟨1, ![1024]⟩
abbrev S1024x1 : Shape := ⟨2, ![1024, 1]⟩
abbrev S8192x256 : Shape := ⟨2, ![8192, 256]⟩
abbrev S8192x1 : Shape := ⟨2, ![8192, 1]⟩
abbrev S1024x1024 : Shape := ⟨2, ![1024, 1024]⟩
abbrev S1x1024 : Shape := ⟨2, ![1, 1024]⟩
abbrev S8192 : Shape := ⟨1, ![8192]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S8192x256, .bf16⟩
  | .hbm, ⟨5, _⟩ => ⟨S8192x1, .f32⟩
  | .hbm, ⟨6, _⟩ => ⟨S8192x1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S8192x256, .bf16⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_scratch0 : Ref sig .tc := ⟨.vmem, 15, rfl⟩
abbrev cc2_scratch1 : Ref sig .tc := ⟨.vmem, 16, rfl⟩
abbrev cc2_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c7_i32 : BitVec 32 := 7#32
  let v63 : BitVec 1 := Scalar.cmpi .eq arg1 c7_i32
  let v64 : BitVec 32 := Scalar.extui v63
  let c0_i32_23 : BitVec 32 := 0#32
  let v65 : BitVec 1 := Scalar.cmpi .ne v64 c0_i32_23
  v65

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  concatenates_S4096x256_S4096x256_S8192x256_d0 : Shape.Concatenates [S4096x256, S4096x256] S8192x256 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  reduces_S1024x1024_S1024 : S1024x1024.Reduces [1] S1024
  broadcasts_S1024x1_S1024x1024 : S1024x1.Broadcasts S1024x1024
  iota_S1024x1_d0_w32 : S1024x1.Iotas .tc 32 [0]
  iota_S1x1024_d1_w32 : S1x1024.Iotas .tc 32 [1]
  broadcasts_S1x1024_S1024x1024 : S1x1024.Broadcasts S1024x1024
  shapeCasts_S8192x1_S8192 : S8192x1.ShapeCasts S8192
  reducesTo_S8192_S_d0 : S8192.ReducesTo [0] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .bf16 = 32 ∨ (Rect.block (s := S4096x256) S1024x256.size (cc1_transform_1 i) (hinb1_1 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .bf16 = 32 ∨ (Rect.block (s := S8192x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S1024x1.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S8192, .i32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S8192x1, .i32⟩
  | .hbm, ⟨54, _⟩ => ⟨S_, .i32⟩
  | .hbm, ⟨55, _⟩ => ⟨S8192x1, .i32⟩
  | .hbm, ⟨56, _⟩ => ⟨S8192x1, .i1⟩
  | .hbm, ⟨57, _⟩ => ⟨S_, .i32⟩
  | .hbm, ⟨58, _⟩ => ⟨S8192x1, .i32⟩
  | .hbm, ⟨59, _⟩ => ⟨S8192x1, .i32⟩
  | .hbm, ⟨60, _⟩ => ⟨S8192x1, .i32⟩
  | .hbm, ⟨61, _⟩ => ⟨S8192x1x1, .i32⟩
  | .hbm, ⟨62, _⟩ => ⟨S1, .i32⟩
  | .hbm, ⟨63, _⟩ => ⟨S_, .i32⟩
  | .hbm, ⟨64, _⟩ => ⟨S8192x1x1, .i32⟩
  | .hbm, ⟨65, _⟩ => ⟨S8192x1x1, .i1⟩
  | .hbm, ⟨66, _⟩ => ⟨S1x1x1, .i32⟩
  | .hbm, ⟨67, _⟩ => ⟨S8192x1x1, .i32⟩
  | .hbm, ⟨68, _⟩ => ⟨S8192x1x1, .i1⟩
  | .hbm, ⟨69, _⟩ => ⟨S8192x1x1, .i1⟩
  | .hbm, ⟨70, _⟩ => ⟨S_, .i1⟩
  | .hbm, ⟨71, _⟩ => ⟨S8192x1, .i1⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_call0_cst_0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_cst_1 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_v28 : Ref sig .tc := ⟨.hbm, 52, rfl⟩
abbrev main_v29 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v30 : Ref sig .tc := ⟨.hbm, 75, rfl⟩
abbrev main_cst_6 : Ref sig .tc := ⟨.hbm, 76, rfl⟩
abbrev main_v31 : Ref sig .tc := ⟨.hbm, 77, rfl⟩
abbrev main_cst_7 : Ref sig .tc := ⟨.hbm, 78, rfl⟩
abbrev main_v32 : Ref sig .tc := ⟨.hbm, 79, rfl⟩
abbrev main_v33 : Ref sig .tc := ⟨.hbm, 80, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S8192x256_S8192x8192_1_1_0_0_n_n_wf : DotDims.WF S8192x256 S8192x256 S8192x8192 [1] [1] [0] [0] [] []
  gather_S8192x8192_S8192x1x1_S8192x1_n_1_0_0_1_2_11_wf : GatherDims.WF S8192x8192 S8192x1x1 S8192x1 [] [1] [0] [1] [0] 2 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.K.Norm0.lean ====
/- The row-normalisation kernel of custom_call 0 as a pipeline body: the blocks its two windows hold, the
   contents its one store leaves in the output window's buffer, the pipeline's proof data at the buffer
   contents `V` the region is entered with, and the obligation that the body, run at any grid point on the
   current staging buffers, takes the proof data's "before" to its "after".

   The kernel reads a whole 1024x256 block `x` of f32 and stores, over the whole 1024x256 bf16 output block,
   each row of `x` divided by `max (sqrt (sum of the row's squares)) eps` and rounded to bf16. It also
   loads the output block before storing; the loaded value is not used. -/
import proofs.«119733_j80255758893848_2_alg».proof.Proof.Gen.Kernel.Launch
import proofs.«119733_j80255758893848_2_alg».proof.Proof.Gen.Kernel.Skeleton
import proofs.«119733_j80255758893848_2_alg».proof.Proof.Gen.Kernel.Points
import Idealize.ShloMosaic.Lib.Pipeline.FrameBody
import Idealize.ShloMosaic.Lib.Tactic

-- the cover of the block is checked by evaluation over its 1024 rows
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The 1024x256 block of window `w`'s array that grid point `t` addresses, as the array stands in `V`:
    rows `1024 * t … 1024 * t + 1023` of the 4096x256 array. -/
def rowsBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What one run of the kernel stores -/

/-- Both of the kernel's loads and its store address the whole 1024x256 block: offset (0, 0), full extent. -/
abbrev allRows0 : Rect S1024x256 := Rect.unit (s := S1024x256) ![0, 0] S1024x256.size inb_S1024x256_S1024x256_0_0

/-- The output block after one run on the input block `x`: the single store writes, over all of it, each row of
    `x` over `max (sqrt (sum of its squares)) eps`, rounded to bf16 (`k0_pay1`). -/
def normed0 (x0 : Vec F S1024x256 .f32) : Vec F S1024x256 .bf16 :=
  View.canon [⟨allRows0, k0_pay1 (View.ld x0 allRows0)⟩]

/-- The store's rectangle is the whole block, so every index of the block lies in it. -/
theorem allRows0_covers (pay : Vec F S1024x256 .bf16) (y : S1024x256.Idx) :
    ∃ pc ∈ ([⟨allRows0, pay⟩] : List (View.Piece (Elt F) S1024x256 .bf16)), y ∈ pc.1.set :=
  View.cover_of_tiled [⟨allRows0, pay⟩] S1024x256.size (by rfl) y

/-! ## The kernel's triple -/

set_option maxHeartbeats 1000000 in
/-- One run of the kernel on a whole source memref reading `x` and a whole destination memref reading `y`
    leaves the source as it was and the destination at `normed0 x`, whatever `y` was. -/
theorem normalize_runs0 (c : Dev nD) (E : Set ℕ) (i : grid0.Coords)
    (src : Memref sig .tc .vmem S1024x256 .f32) (hsrc : src.IsWhole)
    (dst : Memref sig .tc .vmem S1024x256 .bf16) (hdst : dst.IsWhole)
    (x : Vec F S1024x256 .f32) (y : Vec F S1024x256 .bf16) (K : PUnit → sProp 𝕄) :
    iprop(owns (c : Thread nD τ) src fullShare x ∗ owns (c : Thread nD τ) dst fullShare y
        ∗ (iprop(owns (c : Thread nD τ) src fullShare x ∗ owns (c : Thread nD τ) dst fullShare (normed0 x)) -∗ K ⟨⟩))
      ⊢ wp frame (wpE (defs₀ (F := F)) Variants.none c none) E (cc0__normalize_kernel i src hsrc dst hdst) K := by
  rw [cc0__normalize_kernel_eq_skeleton]
  unfold cc0__normalize_kernel_skel owns
  iintro ⟨⟨%fx, %hx, Hsrc⟩, ⟨%fy, %hy, Hdst⟩, Hk⟩
  subst hx
  -- the two loads read, the store overwrites the destination with the payload of what the first load read
  sl_exec
  sl_step
  iapply Hk
  isplitl [Hsrc]
  · -- the source buffer was only read
    iexists fx
    isplitr
    · ipureintro; rfl
    · iexact Hsrc
  · -- the destination holds the one write over whatever it held; the write covers the block
    iexists _
    isplitr
    · ipureintro
      exact View.read_writes_eq_canon dst.view fy _ (allRows0_covers _)
    · iexact Hdst

/-! ## The pipeline's proof data -/

/-- Proof data for the pipeline of custom_call 0 on core `c`, entered at buffer contents `V`. The two windowed
    arrays start as `V` has them. After the body at point `t` the input window's buffer still holds the
    point's block of rows, and the output window's buffer holds those rows normalised. The invariant is the
    one of a body that touches nothing but its windows (the core's other scoped buffers and its generator
    register, each at some contents); every share is full and the core owes no tally. -/
def normDat0 (c : Dev nD) : Dat τ (Elt F) Unit ℕ (UR sig nD τ) ℕ cfg0 c where
  A w := V c (Pipeline.arrRef spec0 w)
  after w t := match w with
    | ⟨0, _⟩ => rowsBlock0 V c 0 t
    | ⟨1, _⟩ => normed0 (rowsBlock0 V c 0 t)
  Φ _ := Pipeline.ΦA spec0 c
  q _ := fullShare
  owed _ := 0

/-- The arrays of the proof data are those of `V`. -/
theorem normDat0_arr (c : Dev nD) (w : Fin cfg0.W) : (normDat0 V c).A w = V c (Pipeline.arrRef spec0 w) := by
  dsimp only [normDat0]

/-- The body leaves the input window's buffer at the block it found there. -/
theorem normDat0_keeps_in (c : Dev nD) (t : Fin cfg0.N) : (normDat0 V c).after 0 t = rowsBlock0 V c 0 t := by
  dsimp only [normDat0]

/-- The body leaves the output window's buffer at the normalised rows of the input block. -/
theorem normDat0_leaves_out (c : Dev nD) (t : Fin cfg0.N) :
    (normDat0 V c).after 1 t = normed0 (rowsBlock0 V c 0 t) := by
  dsimp only [normDat0]

/-- The input window is fetched at every one of the four points and its blocks are never cut, so when the body
    runs at `t` the window's current buffer holds exactly the block of rows that `t` addresses, whatever the
    buffer held before the fetch. -/
theorem normDat0_finds_in (c : Dev nD) (t : Fin cfg0.N) (d) :
    (normDat0 V c).before 0 t d = rowsBlock0 V c 0 t := by
  rw [Dat.before_fetched (normDat0 V c) 0 t (fetch0_0 t) d]
  unfold Dat.fetched Dat.blockOf rowsBlock0
  rw [normDat0_arr]
  rfl

/-! ## The body obligation -/

set_option maxHeartbeats 1000000 in
/-- At every grid point the body, handed the invariant, the core's tallies and the two windows' current buffers
    as the pipeline has them, returns the same invariant and tallies with the input buffer unchanged and the
    output buffer at the normalised rows. -/
theorem norm_obligation0 (c : Dev nD) :
    BodyObligation (normDat0 (F := F) V c) (defs₀ (F := F)) Variants.none () Set.univ := by
  intro t
  rw [bigSep_W0, bigSep_W0]
  -- no window is set aside and none is idle at any point, so each window's conjunct is the plain one; the
  -- invariant and the tallies do not depend on the point
  change iprop((normDat0 V c).Φ t.castSucc ∗ (normDat0 V c).owesAt () t.castSucc
        ∗ (∃ d, owns (c : Thread nD τ) (st0_0 t) fullShare ((normDat0 V c).before 0 t d))
        ∗ (∃ d, owns (c : Thread nD τ) (st0_1 t) fullShare ((normDat0 V c).before 1 t d)))
      ⊢ wp frame (wpE (defs₀ (F := F)) Variants.none c none) Set.univ (bodyAt0 t) fun _ =>
        iprop((normDat0 V c).Φ t.castSucc ∗ (normDat0 V c).owesAt () t.castSucc
          ∗ owns (c : Thread nD τ) (st0_0 t) fullShare ((normDat0 V c).after 0 t)
          ∗ owns (c : Thread nD τ) (st0_1 t) fullShare ((normDat0 V c).after 1 t))
  simp only [normDat0_finds_in, normDat0_keeps_in, normDat0_leaves_out]
  iintro ⟨Hinv, Howed, ⟨%d0, Hin⟩, ⟨%d1, Hout⟩⟩
  -- run the kernel on the input buffer at its block and the output buffer at whatever it holds
  iapply (normalize_runs0 c Set.univ (grid0.coords t) _ _ _ _ (rowsBlock0 V c 0 t) ((normDat0 V c).before 1 t d1) _)
  isplitl [Hin]
  · iexact Hin
  isplitl [Hout]
  · iexact Hout
  -- the invariant and the tallies were not touched
  iintro ⟨Hin, Hout⟩
  isplitl [Hinv]
  · iexact Hinv
  isplitl [Howed]
  · iexact Howed
  isplitl [Hin]
  · iexact Hin
  · iexact Hout

end Cert.Kernel.Hand

end
-- ==== Proof.K.Norm1.lean ====
/- The row-normalisation kernel of custom_call 1 as a pipeline body: the blocks its two windows hold, the
   contents its one store leaves in the output window's buffer, the pipeline's proof data at the buffer
   contents `V` the region is entered with, and the obligation that the body, run at any grid point on the
   current staging buffers, takes the proof data's "before" to its "after".

   The kernel reads a whole 1024x256 block `x` of f32 and stores, over the whole 1024x256 bf16 output block,
   each row of `x` divided by `max (sqrt (sum of the row's squares)) eps` and rounded to bf16. It also
   loads the output block before storing; the loaded value is not used. -/
import proofs.«119733_j80255758893848_2_alg».proof.Proof.Gen.Kernel.Launch
import proofs.«119733_j80255758893848_2_alg».proof.Proof.Gen.Kernel.Skeleton
import proofs.«119733_j80255758893848_2_alg».proof.Proof.Gen.Kernel.Points
import Idealize.ShloMosaic.Lib.Pipeline.FrameBody
import Idealize.ShloMosaic.Lib.Tactic

-- the cover of the block is checked by evaluation over its 1024 rows
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The 1024x256 block of window `w`'s array that grid point `t` addresses, as the array stands in `V`:
    rows `1024 * t … 1024 * t + 1023` of the 4096x256 array. -/
def rowsBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What one run of the kernel stores -/

/-- Both of the kernel's loads and its store address the whole 1024x256 block: offset (0, 0), full extent. -/
abbrev allRows1 : Rect S1024x256 := Rect.unit (s := S1024x256) ![0, 0] S1024x256.size inb_S1024x256_S1024x256_0_0

/-- The output block after one run on the input block `x`: the single store writes, over all of it, each row of
    `x` over `max (sqrt (sum of its squares)) eps`, rounded to bf16 (`k1_pay1`). -/
def normed1 (x0 : Vec F S1024x256 .f32) : Vec F S1024x256 .bf16 :=
  View.canon [⟨allRows1, k1_pay1 (View.ld x0 allRows1)⟩]

/-- The store's rectangle is the whole block, so every index of the block lies in it. -/
theorem allRows1_covers (pay : Vec F S1024x256 .bf16) (y : S1024x256.Idx) :
    ∃ pc ∈ ([⟨allRows1, pay⟩] : List (View.Piece (Elt F) S1024x256 .bf16)), y ∈ pc.1.set :=
  View.cover_of_tiled [⟨allRows1, pay⟩] S1024x256.size (by rfl) y

/-! ## The kernel's triple -/

set_option maxHeartbeats 1000000 in
/-- One run of the kernel on a whole source memref reading `x` and a whole destination memref reading `y`
    leaves the source as it was and the destination at `normed1 x`, whatever `y` was. -/
theorem normalize_runs1 (c : Dev nD) (E : Set ℕ) (i : grid1.Coords)
    (src : Memref sig .tc .vmem S1024x256 .f32) (hsrc : src.IsWhole)
    (dst : Memref sig .tc .vmem S1024x256 .bf16) (hdst : dst.IsWhole)
    (x : Vec F S1024x256 .f32) (y : Vec F S1024x256 .bf16) (K : PUnit → sProp 𝕄) :
    iprop(owns (c : Thread nD τ) src fullShare x ∗ owns (c : Thread nD τ) dst fullShare y
        ∗ (iprop(owns (c : Thread nD τ) src fullShare x ∗ owns (c : Thread nD τ) dst fullShare (normed1 x)) -∗ K ⟨⟩))
      ⊢ wp frame (wpE (defs₀ (F := F)) Variants.none c none) E (cc1__normalize_kernel i src hsrc dst hdst) K := by
  rw [cc1__normalize_kernel_eq_skeleton]
  unfold cc1__normalize_kernel_skel owns
  iintro ⟨⟨%fx, %hx, Hsrc⟩, ⟨%fy, %hy, Hdst⟩, Hk⟩
  subst hx
  -- the two loads read, the store overwrites the destination with the payload of what the first load read
  sl_exec
  sl_step
  iapply Hk
  isplitl [Hsrc]
  · -- the source buffer was only read
    iexists fx
    isplitr
    · ipureintro; rfl
    · iexact Hsrc
  · -- the destination holds the one write over whatever it held; the write covers the block
    iexists _
    isplitr
    · ipureintro
      exact View.read_writes_eq_canon dst.view fy _ (allRows1_covers _)
    · iexact Hdst

/-! ## The pipeline's proof data -/

/-- Proof data for the pipeline of custom_call 1 on core `c`, entered at buffer contents `V`. The two windowed
    arrays start as `V` has them. After the body at point `t` the input window's buffer still holds the
    point's block of rows, and the output window's buffer holds those rows normalised. The invariant is the
    one of a body that touches nothing but its windows (the core's other scoped buffers and its generator
    register, each at some contents); every share is full and the core owes no tally. -/
def normDat1 (c : Dev nD) : Dat τ (Elt F) Unit ℕ (UR sig nD τ) ℕ cfg1 c where
  A w := V c (Pipeline.arrRef spec1 w)
  after w t := match w with
    | ⟨0, _⟩ => rowsBlock1 V c 0 t
    | ⟨1, _⟩ => normed1 (rowsBlock1 V c 0 t)
  Φ _ := Pipeline.ΦA spec1 c
  q _ := fullShare
  owed _ := 0

/-- The arrays of the proof data are those of `V`. -/
theorem normDat1_arr (c : Dev nD) (w : Fin cfg1.W) : (normDat1 V c).A w = V c (Pipeline.arrRef spec1 w) := by
  dsimp only [normDat1]

/-- The body leaves the input window's buffer at the block it found there. -/
theorem normDat1_keeps_in (c : Dev nD) (t : Fin cfg1.N) : (normDat1 V c).after 0 t = rowsBlock1 V c 0 t := by
  dsimp only [normDat1]

/-- The body leaves the output window's buffer at the normalised rows of the input block. -/
theorem normDat1_leaves_out (c : Dev nD) (t : Fin cfg1.N) :
    (normDat1 V c).after 1 t = normed1 (rowsBlock1 V c 0 t) := by
  dsimp only [normDat1]

/-- The input window is fetched at every one of the four points and its blocks are never cut, so when the body
    runs at `t` the window's current buffer holds exactly the block of rows that `t` addresses, whatever the
    buffer held before the fetch. -/
theorem normDat1_finds_in (c : Dev nD) (t : Fin cfg1.N) (d) :
    (normDat1 V c).before 0 t d = rowsBlock1 V c 0 t := by
  rw [Dat.before_fetched (normDat1 V c) 0 t (fetch1_0 t) d]
  unfold Dat.fetched Dat.blockOf rowsBlock1
  rw [normDat1_arr]
  rfl

/-! ## The body obligation -/

set_option maxHeartbeats 1000000 in
/-- At every grid point the body, handed the invariant, the core's tallies and the two windows' current buffers
    as the pipeline has them, returns the same invariant and tallies with the input buffer unchanged and the
    output buffer at the normalised rows. -/
theorem norm_obligation1 (c : Dev nD) :
    BodyObligation (normDat1 (F := F) V c) (defs₀ (F := F)) Variants.none () Set.univ := by
  intro t
  rw [bigSep_W1, bigSep_W1]
  -- no window is set aside and none is idle at any point, so each window's conjunct is the plain one; the
  -- invariant and the tallies do not depend on the point
  change iprop((normDat1 V c).Φ t.castSucc ∗ (normDat1 V c).owesAt () t.castSucc
        ∗ (∃ d, owns (c : Thread nD τ) (st1_0 t) fullShare ((normDat1 V c).before 0 t d))
        ∗ (∃ d, owns (c : Thread nD τ) (st1_1 t) fullShare ((normDat1 V c).before 1 t d)))
      ⊢ wp frame (wpE (defs₀ (F := F)) Variants.none c none) Set.univ (bodyAt1 t) fun _ =>
        iprop((normDat1 V c).Φ t.castSucc ∗ (normDat1 V c).owesAt () t.castSucc
          ∗ owns (c : Thread nD τ) (st1_0 t) fullShare ((normDat1 V c).after 0 t)
          ∗ owns (c : Thread nD τ) (st1_1 t) fullShare ((normDat1 V c).after 1 t))
  simp only [normDat1_finds_in, normDat1_keeps_in, normDat1_leaves_out]
  iintro ⟨Hinv, Howed, ⟨%d0, Hin⟩, ⟨%d1, Hout⟩⟩
  -- run the kernel on the input buffer at its block and the output buffer at whatever it holds
  iapply (normalize_runs1 c Set.univ (grid1.coords t) _ _ _ _ (rowsBlock1 V c 0 t) ((normDat1 V c).before 1 t d1) _)
  isplitl [Hin]
  · iexact Hin
  isplitl [Hout]
  · iexact Hout
  -- the invariant and the tallies were not touched
  iintro ⟨Hin, Hout⟩
  isplitl [Hinv]
  · iexact Hinv
  isplitl [Howed]
  · iexact Howed
  isplitl [Hin]
  · iexact Hin
  · iexact Hout

end Cert.Kernel.Hand

end
-- ==== Proof.K.LseBody.lean ====
/-
  The streaming kernel's body run once, in each of its three situations (first, middle, last column block of a row
  block), on whole staging and scratch buffers: what each buffer holds afterwards, as the body's arithmetic of what the
  buffers held before.
-/
import proofs.«119733_j80255758893848_2_alg».proof.Proof.Gen.Kernel.Launch
import proofs.«119733_j80255758893848_2_alg».proof.Proof.Gen.Kernel.Skeleton
import proofs.«119733_j80255758893848_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The streaming kernel's body, one column block of one row block

A row block is 1024 rows of the normalised array (the queries); a column block is 1024 rows of the same array
(the keys), a slice of the resident whole array at row offset 1024 times the second grid coordinate. Three columns
of 1024 numbers are carried from one column block to the next: the running maximum of a row's logits, the running sum
of their exponentials rescaled to that maximum, and the logit at the row's label column so far. -/

/-- The first column block of a row block: the grid's second coordinate is zero. -/
abbrev atFirst (i : grid2.Coords) : Prop :=
  (Scalar.cmpi .ne (Scalar.extui (Scalar.cmpi .eq (BitVec.ofNat 32 (i 1).val) 0#32)) 0#32) = 1#1
/-- The last column block of a row block. -/
abbrev atLast (i : grid2.Coords) : Prop := k2_cond2 i = 1#1

/-- The whole query block, the whole column, and the key rows of column block i inside the resident array. -/
abbrev allQ : Rect S1024x256 := Rect.unit (s := S1024x256) ![0, 0] S1024x256.size inb_S1024x256_S1024x256_0_0
abbrev allC : Rect S1024x1 := Rect.unit (s := S1024x1) ![0, 0] S1024x1.size inb_S1024x1_S1024x1_0_0
abbrev keyRows (i : grid2.Coords) : Rect S8192x256 := Rect.unit (s := S8192x256) (k2_off1 i) S1024x256.size (k2_off1_inb i)

theorem zeroQ : (![0, 0] : Fin S1024x256.rank → Nat) = fun _ => 0 := by funext a; fin_cases a <;> rfl
theorem zeroC : (![0, 0] : Fin S1024x1.rank → Nat) = fun _ => 0 := by funext a; fin_cases a <;> rfl

/-- The key rows of column block i. -/
def keyBlock (i : grid2.Coords) (xk : Vec F S8192x256 .bf16) : Vec F S1024x256 .bf16 := View.ld xk (keyRows i)

/-- The running maximum after the block: the old one against each row's maximum over the block's doubled inner products. -/
def maxAfter (i : grid2.Coords) (xq : Vec F S1024x256 .bf16) (xk : Vec F S8192x256 .bf16) (m0 : Vec F S1024x1 .f32) : Vec F S1024x1 .f32 :=
  k2_pay8 xq (keyBlock i xk) m0

/-- The running sum after the block: the old one times exp(old maximum - new maximum), plus the block's
    exponentials of logit - new maximum. -/
def sumAfter (i : grid2.Coords) (xq : Vec F S1024x256 .bf16) (xk : Vec F S8192x256 .bf16) (m0 l0 : Vec F S1024x1 .f32) : Vec F S1024x1 .f32 :=
  k2_pay9 xq (keyBlock i xk) m0 l0

/-- The label logit after the block: the old one plus the block's logits where the column is the row's label (zero elsewhere). -/
def labAfter (i : grid2.Coords) (xq : Vec F S1024x256 .bf16) (xk : Vec F S8192x256 .bf16) (t0 : Vec F S1024x1 .f32) : Vec F S1024x1 .f32 :=
  k2_pay1 (Scalar.muli (BitVec.ofNat 32 (i 1).val) 1024#32) (k2_pay6 xq (keyBlock i xk))
    (iota .tc S1024x1 32 [0] iota_S1024x1_d0_w32) (k2_pay10 i) t0

/-- A piece list whose head is the whole column covers the column. -/
theorem headC_covers (p : Vec F S1024x1 .f32) (L : List (View.Piece (Elt F) S1024x1 .f32)) (y : S1024x1.Idx) :
    ∃ pc ∈ ((⟨allC, p⟩ : View.Piece (Elt F) S1024x1 .f32) :: L), y ∈ pc.1.set :=
  ⟨_, List.mem_cons_self, View.mem_set_unit_zero (S := S1024x1) zeroC inb_S1024x1_S1024x1_0_0 y⟩

set_option maxHeartbeats 4000000 in
/-- A middle column block: the three carried columns move on; the queries, the keys and both result columns are left as they were. -/
theorem body_mid (c : Dev nD) (i : grid2.Coords)
    (q : Memref sig .tc .vmem S1024x256 .bf16) (hq : q.IsWhole) (k : Memref sig .tc .vmem S8192x256 .bf16) (hk : k.IsWhole)
    (ol : Memref sig .tc .vmem S1024x1 .f32) (hol : ol.IsWhole) (ot : Memref sig .tc .vmem S1024x1 .f32) (hot : ot.IsWhole)
    (sm : Memref sig .tc .vmem S1024x1 .f32) (hsm : sm.IsWhole) (sl : Memref sig .tc .vmem S1024x1 .f32) (hsl : sl.IsWhole)
    (st : Memref sig .tc .vmem S1024x1 .f32) (hst : st.IsWhole)
    (hf : ¬atFirst i) (hl : ¬atLast i)
    (xq : Vec F S1024x256 .bf16) (xk : Vec F S8192x256 .bf16) (xl xt m0 l0 t0 : Vec F S1024x1 .f32)
    (E : Set ℕ) (K : PUnit → sProp 𝕄) :
    iprop(owns (c : Thread nD τ) q fullShare xq ∗ owns (c : Thread nD τ) k fullShare xk
        ∗ owns (c : Thread nD τ) ol fullShare xl ∗ owns (c : Thread nD τ) ot fullShare xt
        ∗ owns (c : Thread nD τ) sm fullShare m0 ∗ owns (c : Thread nD τ) sl fullShare l0 ∗ owns (c : Thread nD τ) st fullShare t0
        ∗ (iprop(owns (c : Thread nD τ) q fullShare xq ∗ owns (c : Thread nD τ) k fullShare xk
            ∗ owns (c : Thread nD τ) ol fullShare (xl) ∗ owns (c : Thread nD τ) ot fullShare (xt)
            ∗ owns (c : Thread nD τ) sm fullShare (maxAfter i xq xk (m0))
            ∗ owns (c : Thread nD τ) sl fullShare (sumAfter i xq xk (m0) (l0))
            ∗ owns (c : Thread nD τ) st fullShare (labAfter i xq xk (t0))) -∗ K ⟨⟩))
      ⊢ wp frame (wpE (defs₀ (F := F)) Variants.none c none) E (cc2__lse_kernel i q hq k hk ol hol ot hot sm hsm sl hsl st hst) K := by
  sl_unfold [cc2__lse_kernel]
  unfold owns
  iintro ⟨⟨%fq, %hfq, Hq⟩, ⟨%fk, %hfk, Hk⟩, ⟨%fl, %hfl, Hl⟩, ⟨%ft, %hft, Ht⟩, ⟨%fm, %hfm, Hm⟩, ⟨%fs, %hfs, Hs⟩, ⟨%fu, %hfu, Hu⟩, HK⟩
  obtain rfl := hq.eq_unread hfq; obtain rfl := hk.eq_unread hfk
  obtain rfl := hol.eq_unread hfl; obtain rfl := hot.eq_unread hft
  obtain rfl := hsm.eq_unread hfm; obtain rfl := hsl.eq_unread hfs; obtain rfl := hst.eq_unread hfu
  sl_exec (disch := first | exact hf | exact hl)
  sl_step
  iapply HK
  isplitl [Hq]
  · iexists _; isplitr; · ipureintro; exact hq.read_unread _
    iexact Hq
  isplitl [Hk]
  · iexists _; isplitr; · ipureintro; exact hk.read_unread _
    iexact Hk
  isplitl [Hl]
  · iexists _; isplitr
    swap; · iexact Hl
    ipureintro
    exact hol.read_unread _
  isplitl [Ht]
  · iexists _; isplitr
    swap; · iexact Ht
    ipureintro
    exact hot.read_unread _
  isplitl [Hm]
  · iexists _; isplitr
    swap; · iexact Hm
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hs]
  · iexists _; isplitr
    swap; · iexact Hs
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  · iexists _; isplitr
    swap; · iexact Hu
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl

set_option maxHeartbeats 4000000 in
/-- The first column block: the carried columns start from minus infinity, zero and zero, whatever they held, then move on as in a middle block. -/
theorem body_first (c : Dev nD) (i : grid2.Coords)
    (q : Memref sig .tc .vmem S1024x256 .bf16) (hq : q.IsWhole) (k : Memref sig .tc .vmem S8192x256 .bf16) (hk : k.IsWhole)
    (ol : Memref sig .tc .vmem S1024x1 .f32) (hol : ol.IsWhole) (ot : Memref sig .tc .vmem S1024x1 .f32) (hot : ot.IsWhole)
    (sm : Memref sig .tc .vmem S1024x1 .f32) (hsm : sm.IsWhole) (sl : Memref sig .tc .vmem S1024x1 .f32) (hsl : sl.IsWhole)
    (st : Memref sig .tc .vmem S1024x1 .f32) (hst : st.IsWhole)
    (hf : atFirst i) (hl : ¬atLast i)
    (xq : Vec F S1024x256 .bf16) (xk : Vec F S8192x256 .bf16) (xl xt m0 l0 t0 : Vec F S1024x1 .f32)
    (E : Set ℕ) (K : PUnit → sProp 𝕄) :
    iprop(owns (c : Thread nD τ) q fullShare xq ∗ owns (c : Thread nD τ) k fullShare xk
        ∗ owns (c : Thread nD τ) ol fullShare xl ∗ owns (c : Thread nD τ) ot fullShare xt
        ∗ owns (c : Thread nD τ) sm fullShare m0 ∗ owns (c : Thread nD τ) sl fullShare l0 ∗ owns (c : Thread nD τ) st fullShare t0
        ∗ (iprop(owns (c : Thread nD τ) q fullShare xq ∗ owns (c : Thread nD τ) k fullShare xk
            ∗ owns (c : Thread nD τ) ol fullShare (xl) ∗ owns (c : Thread nD τ) ot fullShare (xt)
            ∗ owns (c : Thread nD τ) sm fullShare (maxAfter i xq xk (k2_pay3))
            ∗ owns (c : Thread nD τ) sl fullShare (sumAfter i xq xk (k2_pay3) (k2_pay4))
            ∗ owns (c : Thread nD τ) st fullShare (labAfter i xq xk (k2_pay5))) -∗ K ⟨⟩))
      ⊢ wp frame (wpE (defs₀ (F := F)) Variants.none c none) E (cc2__lse_kernel i q hq k hk ol hol ot hot sm hsm sl hsl st hst) K := by
  sl_unfold [cc2__lse_kernel]
  unfold owns
  iintro ⟨⟨%fq, %hfq, Hq⟩, ⟨%fk, %hfk, Hk⟩, ⟨%fl, %hfl, Hl⟩, ⟨%ft, %hft, Ht⟩, ⟨%fm, %hfm, Hm⟩, ⟨%fs, %hfs, Hs⟩, ⟨%fu, %hfu, Hu⟩, HK⟩
  obtain rfl := hq.eq_unread hfq; obtain rfl := hk.eq_unread hfk
  obtain rfl := hol.eq_unread hfl; obtain rfl := hot.eq_unread hft
  obtain rfl := hsm.eq_unread hfm; obtain rfl := hsl.eq_unread hfs; obtain rfl := hst.eq_unread hfu
  sl_exec (disch := first | exact hf | exact hl)
  sl_step
  iapply HK
  isplitl [Hq]
  · iexists _; isplitr; · ipureintro; exact hq.read_unread _
    iexact Hq
  isplitl [Hk]
  · iexists _; isplitr; · ipureintro; exact hk.read_unread _
    iexact Hk
  isplitl [Hl]
  · iexists _; isplitr
    swap; · iexact Hl
    ipureintro
    exact hol.read_unread _
  isplitl [Ht]
  · iexists _; isplitr
    swap; · iexact Ht
    ipureintro
    exact hot.read_unread _
  isplitl [Hm]
  · iexists _; isplitr
    swap; · iexact Hm
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hs]
  · iexists _; isplitr
    swap; · iexact Hs
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  · iexists _; isplitr
    swap; · iexact Hu
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl

set_option maxHeartbeats 4000000 in
/-- The last column block: the carried columns move on, then the first result column takes maximum + log(sum) and the second the label logit. -/
theorem body_last (c : Dev nD) (i : grid2.Coords)
    (q : Memref sig .tc .vmem S1024x256 .bf16) (hq : q.IsWhole) (k : Memref sig .tc .vmem S8192x256 .bf16) (hk : k.IsWhole)
    (ol : Memref sig .tc .vmem S1024x1 .f32) (hol : ol.IsWhole) (ot : Memref sig .tc .vmem S1024x1 .f32) (hot : ot.IsWhole)
    (sm : Memref sig .tc .vmem S1024x1 .f32) (hsm : sm.IsWhole) (sl : Memref sig .tc .vmem S1024x1 .f32) (hsl : sl.IsWhole)
    (st : Memref sig .tc .vmem S1024x1 .f32) (hst : st.IsWhole)
    (hf : ¬atFirst i) (hl : atLast i)
    (xq : Vec F S1024x256 .bf16) (xk : Vec F S8192x256 .bf16) (xl xt m0 l0 t0 : Vec F S1024x1 .f32)
    (E : Set ℕ) (K : PUnit → sProp 𝕄) :
    iprop(owns (c : Thread nD τ) q fullShare xq ∗ owns (c : Thread nD τ) k fullShare xk
        ∗ owns (c : Thread nD τ) ol fullShare xl ∗ owns (c : Thread nD τ) ot fullShare xt
        ∗ owns (c : Thread nD τ) sm fullShare m0 ∗ owns (c : Thread nD τ) sl fullShare l0 ∗ owns (c : Thread nD τ) st fullShare t0
        ∗ (iprop(owns (c : Thread nD τ) q fullShare xq ∗ owns (c : Thread nD τ) k fullShare xk
            ∗ owns (c : Thread nD τ) ol fullShare (k2_pay2 (maxAfter i xq xk m0) (sumAfter i xq xk m0 l0)) ∗ owns (c : Thread nD τ) ot fullShare (labAfter i xq xk t0)
            ∗ owns (c : Thread nD τ) sm fullShare (maxAfter i xq xk (m0))
            ∗ owns (c : Thread nD τ) sl fullShare (sumAfter i xq xk (m0) (l0))
            ∗ owns (c : Thread nD τ) st fullShare (labAfter i xq xk (t0))) -∗ K ⟨⟩))
      ⊢ wp frame (wpE (defs₀ (F := F)) Variants.none c none) E (cc2__lse_kernel i q hq k hk ol hol ot hot sm hsm sl hsl st hst) K := by
  sl_unfold [cc2__lse_kernel]
  unfold owns
  iintro ⟨⟨%fq, %hfq, Hq⟩, ⟨%fk, %hfk, Hk⟩, ⟨%fl, %hfl, Hl⟩, ⟨%ft, %hft, Ht⟩, ⟨%fm, %hfm, Hm⟩, ⟨%fs, %hfs, Hs⟩, ⟨%fu, %hfu, Hu⟩, HK⟩
  obtain rfl := hq.eq_unread hfq; obtain rfl := hk.eq_unread hfk
  obtain rfl := hol.eq_unread hfl; obtain rfl := hot.eq_unread hft
  obtain rfl := hsm.eq_unread hfm; obtain rfl := hsl.eq_unread hfs; obtain rfl := hst.eq_unread hfu
  sl_exec (disch := first | exact hf | exact hl)
  sl_step
  iapply HK
  isplitl [Hq]
  · iexists _; isplitr; · ipureintro; exact hq.read_unread _
    iexact Hq
  isplitl [Hk]
  · iexists _; isplitr; · ipureintro; exact hk.read_unread _
    iexact Hk
  isplitl [Hl]
  · iexists _; isplitr
    swap; · iexact Hl
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Ht]
  · iexists _; isplitr
    swap; · iexact Ht
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hm]
  · iexists _; isplitr
    swap; · iexact Hm
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hs]
  · iexists _; isplitr
    swap; · iexact Hs
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  · iexists _; isplitr
    swap; · iexact Hu
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl

end Cert.Kernel.Hand

end
-- ==== Proof.K.LseDat.lean ====
/-
  The streaming kernel's pipeline: which blocks its windows hold at a grid point, what the three carried columns hold
  after each point (by recursion along a row block's eight column blocks), what the two result columns are given at
  a row block's last point, the invariant that carries the columns from point to point, and the obligation that the
  body, run at any point on the current buffers, moves all of this one point on.
-/
import proofs.«119733_j80255758893848_2_alg».proof.Proof.K.LseBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where a point sits in its row block (decided over the 64 points) -/

theorem first_iff : ∀ t : Fin cfg2.N, atFirst (grid2.coords t) ↔ t.val % 8 = 0 :=
  (by decide +kernel : ∀ t : Fin grid2.N, atFirst (grid2.coords t) ↔ t.val % 8 = 0)
theorem last_iff : ∀ t : Fin cfg2.N, atLast (grid2.coords t) ↔ t.val % 8 = 7 :=
  (by decide +kernel : ∀ t : Fin grid2.N, atLast (grid2.coords t) ↔ t.val % 8 = 7)
/-- The two input windows are handed to the body at every point. -/
theorem queries_live : ∀ t : Fin cfg2.N, cfg2.idle 0 (grid2.coords t) = false := by decide +kernel
theorem keys_live : ∀ t : Fin cfg2.N, cfg2.idle 1 (grid2.coords t) = false := by decide +kernel
/-- The two result windows are touched, and written back, at a row block's last point only. -/
theorem lse_idle : ∀ t : Fin cfg2.N, ¬t.val % 8 = 7 → cfg2.idle 2 (grid2.coords t) = true := by decide +kernel
theorem lse_unflushed : ∀ t : Fin cfg2.N, ¬t.val % 8 = 7 → (cfg2.win 2).flush t = false := by decide +kernel
theorem lse_live : ∀ t : Fin cfg2.N, t.val % 8 = 7 → cfg2.idle 2 (grid2.coords t) = false := by decide +kernel
theorem lab_idle : ∀ t : Fin cfg2.N, ¬t.val % 8 = 7 → cfg2.idle 3 (grid2.coords t) = true := by decide +kernel
theorem lab_unflushed : ∀ t : Fin cfg2.N, ¬t.val % 8 = 7 → (cfg2.win 3).flush t = false := by decide +kernel
theorem lab_live : ∀ t : Fin cfg2.N, t.val % 8 = 7 → cfg2.idle 3 (grid2.coords t) = false := by decide +kernel

/-! ## The blocks and the carried columns -/

/-- Window w's block at point t, read off its array as the region finds it: for the queries the 1024 rows of the
    point's row block, for the keys the whole array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three columns after the body at point t, from what they held before it. -/
def colsFrom (c : Dev nD) (t : Fin cfg2.N) (m l u : Vec F S1024x1 .f32) : Vec F S1024x1 .f32 × Vec F S1024x1 .f32 × Vec F S1024x1 .f32 :=
  (maxAfter (grid2.coords t) (blk2 V c 0 t) (blk2 V c 1 t) m,
   sumAfter (grid2.coords t) (blk2 V c 0 t) (blk2 V c 1 t) m l,
   labAfter (grid2.coords t) (blk2 V c 0 t) (blk2 V c 1 t) u)

/-- THE RECURRENCE: the three columns after the body at position n. At a row block's first point they restart from
    minus infinity, zero, zero; elsewhere they continue from the point before. -/
def colsAt (c : Dev nD) : (n : ℕ) → n < cfg2.N → Vec F S1024x1 .f32 × Vec F S1024x1 .f32 × Vec F S1024x1 .f32
  | 0, hn => colsFrom V c ⟨0, hn⟩ k2_pay3 k2_pay4 k2_pay5
  | n + 1, hn =>
    if (n + 1) % 8 = 0 then colsFrom V c ⟨n + 1, hn⟩ k2_pay3 k2_pay4 k2_pay5
    else colsFrom V c ⟨n + 1, hn⟩ (colsAt c n (Nat.lt_of_succ_lt hn)).1 (colsAt c n (Nat.lt_of_succ_lt hn)).2.1 (colsAt c n (Nat.lt_of_succ_lt hn)).2.2

theorem colsAt_first (c : Dev nD) (t : Fin cfg2.N) (h : t.val % 8 = 0) :
    colsAt V c t.val t.isLt = colsFrom V c t k2_pay3 k2_pay4 k2_pay5 := by
  obtain ⟨n, hn⟩ := t
  cases n with
  | zero => rfl
  | succ n => exact (if_pos h).trans rfl

theorem colsAt_next (c : Dev nD) (t : Fin cfg2.N) (h : ¬t.val % 8 = 0) :
    colsAt V c t.val t.isLt = colsFrom V c t (colsAt V c (t.val - 1) (Nat.lt_of_le_of_lt (Nat.sub_le _ _) t.isLt)).1
      (colsAt V c (t.val - 1) (Nat.lt_of_le_of_lt (Nat.sub_le _ _) t.isLt)).2.1 (colsAt V c (t.val - 1) (Nat.lt_of_le_of_lt (Nat.sub_le _ _) t.isLt)).2.2 := by
  obtain ⟨n, hn⟩ := t
  cases n with
  | zero => exact absurd (Nat.zero_mod _) h
  | succ n => exact (if_neg h).trans rfl

/-! ## The invariant: the scoped buffers no window stages, the three scratch columns among them -/

abbrev scM : Memref sig .tc .vmem S1024x1 .f32 := Memref.whole cc2_scratch0
abbrev scL : Memref sig .tc .vmem S1024x1 .f32 := Memref.whole cc2_scratch1
abbrev scT : Memref sig .tc .vmem S1024x1 .f32 := Memref.whole cc2_scratch2

/-- The other two calls' staging buffers, each at anything, beside what is said of the three scratch columns. -/
abbrev scoped2 (c : Dev nD) (P0 P1 P2 : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ P0 ∗ P1 ∗ P2)

/-- Before the first point every scratch column holds anything. -/
theorem entryInv_eq (c : Dev nD) :
    (Pipeline.ΦA spec2 c : sProp 𝕄)
      = iprop(scoped2 c iprop(∃ d, owns (c : Thread nD τ) scM fullShare d) iprop(∃ d, owns (c : Thread nD τ) scL fullShare d) iprop(∃ d, owns (c : Thread nD τ) scT fullShare d)
          ∗ (∃ r, prngReg c r)) := by
  unfold Pipeline.ΦA; rw [scopedRest2_eq]; simp only [scM, scL, scT, owns_whole]; try rfl

/-- The invariant before position n: before the first point the entry one; afterwards the three scratch columns at
    what the point before left. -/
def colsInv (c : Dev nD) : (n : ℕ) → n ≤ cfg2.N → sProp 𝕄
  | 0, _ => Pipeline.ΦA spec2 c
  | n + 1, hn => iprop(scoped2 c (owns (c : Thread nD τ) scM fullShare (colsAt V c n hn).1) (owns (c : Thread nD τ) scL fullShare (colsAt V c n hn).2.1)
      (owns (c : Thread nD τ) scT fullShare (colsAt V c n hn).2.2) ∗ (∃ r, prngReg c r))

theorem colsInv_zero (c : Dev nD) (n : ℕ) (h : n ≤ cfg2.N) (hz : n = 0) : colsInv V c n h = Pipeline.ΦA spec2 c := by
  subst hz; rfl

theorem colsInv_succ (c : Dev nD) (n : ℕ) (hn : n < cfg2.N) :
    colsInv V c (n + 1) hn = iprop(scoped2 c (owns (c : Thread nD τ) scM fullShare (colsAt V c n hn).1) (owns (c : Thread nD τ) scL fullShare (colsAt V c n hn).2.1)
      (owns (c : Thread nD τ) scT fullShare (colsAt V c n hn).2.2) ∗ (∃ r, prngReg c r)) := rfl

theorem colsInv_pos (c : Dev nD) (n : ℕ) (h : n ≤ cfg2.N) (hz : n ≠ 0) :
    colsInv V c n h = iprop(scoped2 c (owns (c : Thread nD τ) scM fullShare (colsAt V c (n - 1) (by omega)).1) (owns (c : Thread nD τ) scL fullShare (colsAt V c (n - 1) (by omega)).2.1)
      (owns (c : Thread nD τ) scT fullShare (colsAt V c (n - 1) (by omega)).2.2) ∗ (∃ r, prngReg c r)) := by
  cases n with
  | zero => exact absurd rfl hz
  | succ n => rfl

/-- Whatever is known of the scratch columns may be forgotten. -/
theorem colsInv_forget (c : Dev nD) (n : ℕ) (h : n ≤ cfg2.N) : colsInv V c n h ⊢ Pipeline.ΦA spec2 c := by
  cases n with
  | zero => exact .rfl
  | succ n =>
    rw [colsInv_succ, entryInv_eq]
    iintro ⟨⟨B1, B2, B3, B4, B5, B6, B7, B8, HM, HL, HT⟩, Hg⟩
    isplitr [Hg]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [HM]; · iexists _; iexact HM
      isplitl [HL]; · iexists _; iexact HL
      iexists _; iexact HT
    iexact Hg

/-! ## The proof data -/

/-- The proof data of the streaming pipeline on core c, entered at the buffer contents V: the arrays as found; after
    the body at point t the queries' and the keys' buffers at their blocks, the first result column at maximum + log(sum)
    of the carried columns there and the second at the carried label logit (both consulted at a row block's last
    point only); the invariant the carried columns; the two input windows read ONE array, the queries at its left half share and the keys at its right. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay2 (colsAt V c t.val t.isLt).1 (colsAt V c t.val t.isLt).2.1
    | ⟨3, _⟩ => (colsAt V c t.val t.isLt).2.2
  Φ t := colsInv V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem dat2_arr (c : Dev nD) (w : Fin cfg2.W) : (dat2 V c).A w = V c (Pipeline.arrRef spec2 w) := by
  dsimp only [dat2]
theorem dat2_keeps_queries (c : Dev nD) (t : Fin cfg2.N) : (dat2 V c).after 0 t = blk2 V c 0 t := by dsimp only [dat2]
theorem dat2_keeps_keys (c : Dev nD) (t : Fin cfg2.N) : (dat2 V c).after 1 t = blk2 V c 1 t := by dsimp only [dat2]
theorem dat2_leaves_lse (c : Dev nD) (t : Fin cfg2.N) :
    (dat2 V c).after 2 t = k2_pay2 (colsAt V c t.val t.isLt).1 (colsAt V c t.val t.isLt).2.1 := by dsimp only [dat2]
theorem dat2_leaves_lab (c : Dev nD) (t : Fin cfg2.N) : (dat2 V c).after 3 t = (colsAt V c t.val t.isLt).2.2 := by dsimp only [dat2]

theorem dat2_inv_at (c : Dev nD) (t : Fin cfg2.N) :
    (dat2 V c).Φ t.castSucc = colsInv V c t.val (Nat.le_of_lt t.isLt) := by
  dsimp only [dat2]; simp only [Fin.coe_castSucc]

/-- An input window's current buffer holds its block at every point, fetched there or not: where it is not fetched
    the block index has not moved. -/
theorem dat2_finds_queries (c : Dev nD) (t : Fin cfg2.N) (d) : (dat2 V c).before 0 t d = blk2 V c 0 t :=
  ((dat2 V c).before_in_eq_fetched 0 rfl (fun _ => rfl) (fun _ _ _ => rfl)
    (fun t => by rw [dat2_keeps_queries]; unfold Dat.blockOf blk2; rw [dat2_arr]; try rfl) t d).trans
    (by unfold Dat.fetched Dat.blockOf blk2; rw [dat2_arr]; try rfl)
theorem dat2_finds_keys (c : Dev nD) (t : Fin cfg2.N) (d) : (dat2 V c).before 1 t d = blk2 V c 1 t :=
  ((dat2 V c).before_in_eq_fetched 1 rfl (fun _ => rfl) (fun _ _ _ => rfl)
    (fun t => by rw [dat2_keeps_keys]; unfold Dat.blockOf blk2; rw [dat2_arr]; try rfl) t d).trans
    (by unfold Dat.fetched Dat.blockOf blk2; rw [dat2_arr]; try rfl)

/-! ## The body obligation -/

set_option maxHeartbeats 8000000 in
/-- The body at any point. The queries' and keys' buffers hold their blocks; the point's place in its row block says
    which of the three runs applies; the invariant hands over the three scratch columns at what the point before left
    (at anything at a row block's first point) and takes them back at this point's; the result columns' buffers are
    handed back untouched except at a row block's last point, where they receive maximum + log(sum) and the label
    logit; the core owes nothing throughout. -/
theorem lse_step (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) fun _ =>
        iprop((dat2 V c).Φ t.succ ∗ (dat2 V c).owesAt () t.succ
          ∗ (dat2 V c).leavesExact 0 t ∗ (dat2 V c).leavesExact 1 t ∗ (dat2 V c).leavesExact 2 t ∗ (dat2 V c).leavesExact 3 t) := by
  unfold bodyAt2
  simp only [dat2_finds_queries, dat2_finds_keys]
  rw [show (dat2 V c).owesAt () t.succ = (dat2 V c).owesAt () t.castSucc from rfl]
  rw [show (dat2 V c).Φ t.succ = colsInv V c (t.val + 1) t.isLt from rfl, colsInv_succ]
  rw [show (dat2 V c).leavesExact 0 t = owns (c : Thread nD τ) (st2_0 t) fullShare ((dat2 V c).after 0 t) from by
    unfold Dat.leavesExact; rw [queries_live t], dat2_keeps_queries]
  rw [show (dat2 V c).leavesExact 1 t = owns (c : Thread nD τ) (st2_1 t) fullShare ((dat2 V c).after 1 t) from by
    unfold Dat.leavesExact; rw [keys_live t], dat2_keeps_keys]
  rw [dat2_inv_at]
  have hN : t.val < 64 := lt_of_lt_of_eq t.isLt (show cfg2.N = 64 from N_2)
  by_cases h7 : t.val % 8 = 7
  · have h0 : ¬t.val % 8 = 0 := by omega
    have hz : t.val ≠ 0 := by omega
    rw [show (dat2 V c).leavesExact 2 t = owns (c : Thread nD τ) (st2_2 t) fullShare ((dat2 V c).after 2 t) from by
      unfold Dat.leavesExact; rw [lse_live t h7], dat2_leaves_lse]
    rw [show (dat2 V c).leavesExact 3 t = owns (c : Thread nD τ) (st2_3 t) fullShare ((dat2 V c).after 3 t) from by
      unfold Dat.leavesExact; rw [lab_live t h7], dat2_leaves_lab]
    rw [colsAt_next V c t h0, colsInv_pos V c _ _ hz]
    unfold colsFrom; dsimp only
    iintro ⟨⟨⟨B1, B2, B3, B4, B5, B6, B7, B8, HM, HL, HT⟩, Hg⟩, Ho, ⟨%d0, H0⟩, ⟨%d1, H1⟩, ⟨%d2, H2⟩, ⟨%d3, H3⟩⟩
    iapply (body_last c (grid2.coords t) _ _ _ _ _ _ _ _ _ _ _ _ _ _ (fun h => h0 ((first_iff t).mp h)) ((last_iff t).mpr h7) (blk2 V c 0 t) (blk2 V c 1 t) _ _ _ _ _ Set.univ _)
    isplitl [H0]; · iexact H0
    isplitl [H1]; · iexact H1
    isplitl [H2]; · iexact H2
    isplitl [H3]; · iexact H3
    isplitl [HM]; · iexact HM
    isplitl [HL]; · iexact HL
    isplitl [HT]; · iexact HT
    iintro ⟨H0, H1, H2, H3, HM, HL, HT⟩
    isplitl [B1 B2 B3 B4 B5 B6 B7 B8 HM HL HT Hg]
    · isplitr [Hg]
      · isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [HM]; · iexact HM
        isplitl [HL]; · iexact HL
        iexact HT
      iexact Hg
    isplitl [Ho]; · iexact Ho
    isplitl [H0]; · iexact H0
    isplitl [H1]; · iexact H1
    isplitl [H2]; · iexact H2
    iexact H3
  · rw [Dat.leavesExact_idle (dat2 V c) 2 t (lse_idle t h7) (lse_unflushed t h7)]
    rw [Dat.leavesExact_idle (dat2 V c) 3 t (lab_idle t h7) (lab_unflushed t h7)]
    by_cases h0 : t.val % 8 = 0
    · rw [colsAt_first V c t h0]
      unfold colsFrom; dsimp only
      by_cases hz : t.val = 0
      · rw [colsInv_zero V c _ _ hz, entryInv_eq]
        iintro ⟨⟨⟨B1, B2, B3, B4, B5, B6, B7, B8, ⟨%dm, HM⟩, ⟨%dl, HL⟩, ⟨%dt, HT⟩⟩, Hg⟩, Ho, ⟨%d0, H0⟩, ⟨%d1, H1⟩, ⟨%d2, H2⟩, ⟨%d3, H3⟩⟩
        iapply (body_first c (grid2.coords t) _ _ _ _ _ _ _ _ _ _ _ _ _ _ ((first_iff t).mpr h0) (fun h => h7 ((last_iff t).mp h)) (blk2 V c 0 t) (blk2 V c 1 t) _ _ _ _ _ Set.univ _)
        isplitl [H0]; · iexact H0
        isplitl [H1]; · iexact H1
        isplitl [H2]; · iexact H2
        isplitl [H3]; · iexact H3
        isplitl [HM]; · iexact HM
        isplitl [HL]; · iexact HL
        isplitl [HT]; · iexact HT
        iintro ⟨H0, H1, H2, H3, HM, HL, HT⟩
        isplitl [B1 B2 B3 B4 B5 B6 B7 B8 HM HL HT Hg]
        · isplitr [Hg]
          · isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [HM]; · iexact HM
            isplitl [HL]; · iexact HL
            iexact HT
          iexact Hg
        isplitl [Ho]; · iexact Ho
        isplitl [H0]; · iexact H0
        isplitl [H1]; · iexact H1
        isplitl [H2]; · iexists _; iexact H2
        iexists _; iexact H3
      · rw [colsInv_pos V c _ _ hz]
        iintro ⟨⟨⟨B1, B2, B3, B4, B5, B6, B7, B8, HM, HL, HT⟩, Hg⟩, Ho, ⟨%d0, H0⟩, ⟨%d1, H1⟩, ⟨%d2, H2⟩, ⟨%d3, H3⟩⟩
        iapply (body_first c (grid2.coords t) _ _ _ _ _ _ _ _ _ _ _ _ _ _ ((first_iff t).mpr h0) (fun h => h7 ((last_iff t).mp h)) (blk2 V c 0 t) (blk2 V c 1 t) _ _ _ _ _ Set.univ _)
        isplitl [H0]; · iexact H0
        isplitl [H1]; · iexact H1
        isplitl [H2]; · iexact H2
        isplitl [H3]; · iexact H3
        isplitl [HM]; · iexact HM
        isplitl [HL]; · iexact HL
        isplitl [HT]; · iexact HT
        iintro ⟨H0, H1, H2, H3, HM, HL, HT⟩
        isplitl [B1 B2 B3 B4 B5 B6 B7 B8 HM HL HT Hg]
        · isplitr [Hg]
          · isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [HM]; · iexact HM
            isplitl [HL]; · iexact HL
            iexact HT
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [colsAt_next V c t h0, colsInv_pos V c _ _ hz]
      unfold colsFrom; dsimp only
      iintro ⟨⟨⟨B1, B2, B3, B4, B5, B6, B7, B8, HM, HL, HT⟩, Hg⟩, Ho, ⟨%d0, H0⟩, ⟨%d1, H1⟩, ⟨%d2, H2⟩, ⟨%d3, H3⟩⟩
      iapply (body_mid c (grid2.coords t) _ _ _ _ _ _ _ _ _ _ _ _ _ _ (fun h => h0 ((first_iff t).mp h)) (fun h => h7 ((last_iff t).mp h)) (blk2 V c 0 t) (blk2 V c 1 t) _ _ _ _ _ Set.univ _)
      isplitl [H0]; · iexact H0
      isplitl [H1]; · iexact H1
      isplitl [H2]; · iexact H2
      isplitl [H3]; · iexact H3
      isplitl [HM]; · iexact HM
      isplitl [HL]; · iexact HL
      isplitl [HT]; · iexact HT
      iintro ⟨H0, H1, H2, H3, HM, HL, HT⟩
      isplitl [B1 B2 B3 B4 B5 B6 B7 B8 HM HL HT Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HM]; · iexact HM
          isplitl [HL]; · iexact HL
          iexact HT
        iexact Hg
      isplitl [Ho]; · iexact Ho
      isplitl [H0]; · iexact H0
      isplitl [H1]; · iexact H1
      isplitl [H2]; · iexists _; iexact H2
      iexists _; iexact H3

/-- The obligation the pipeline's rule asks, at every point. -/
theorem lse_obligation (c : Dev nD) : BodyObligation (dat2 (F := F) V c) (defs₀ (F := F)) Variants.none () Set.univ := fun t => by
  rw [bigSep_W2, bigSep_W2]
  exact lse_step V c t

/-- What the launch hands the region is the invariant before the first point. -/
theorem lse_inv_in (c : Dev nD) : Pipeline.ΦA spec2 c ⊢ (dat2 V c).Φ 0 := by
  rw [show (dat2 V c).Φ 0 = colsInv V c 0 (Nat.zero_le _) from rfl, colsInv_zero V c 0 _ rfl]
  try exact Idealize.SL.BI.Entails.refl _

/-- After the last point the invariant gives the launch's back: what the scratch columns hold is forgotten. -/
theorem lse_inv_out (c : Dev nD) : (dat2 V c).Φ (Fin.last cfg2.N) ⊢ Pipeline.ΦA spec2 c := by
  rw [show (dat2 V c).Φ (Fin.last cfg2.N) = colsInv V c (Fin.last cfg2.N).val (Nat.le_of_lt_succ (Fin.last cfg2.N).isLt) from rfl]
  exact colsInv_forget V c _ _

end Cert.Kernel.Hand

end
-- ==== Proof.K.Program.lean ====
/-
  The whole program as its five segments — the two normalisation calls, the concatenation of their results, the
  streaming call, the final sum and quotient — with what every unscoped buffer holds between segments, each call's
  proof data at the contents it is entered with, and each call as a region entered from "every unscoped buffer at
  the contents so far" and left at the contents its write-backs give.
-/
import proofs.«119733_j80255758893848_2_alg».proof.Proof.K.Norm0
import proofs.«119733_j80255758893848_2_alg».proof.Proof.K.Norm1
import proofs.«119733_j80255758893848_2_alg».proof.Proof.K.LseDat
import proofs.«119733_j80255758893848_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the unscoped buffers hold between segments -/

/-- A valuation of every device buffer read at the TensorCore's references: what a call's proof data take. -/
abbrev atTc (W : Dev nD → Valuation τ sig (Elt F)) : (c : Dev nD) → (b : Ref sig .tc) → Buf (Elt F) ((c : Thread nD τ).loc b) :=
  fun c b => W c b

/-- At launch. -/
abbrev atLaunch : Dev nD → Valuation τ sig (Elt F) := fun c b => m (c, b)
/-- After the first normalisation call: its output array at what its four write-backs leave, the rest as before. -/
def afterNorm0 (c : Dev nD) : Valuation τ sig (Elt F) :=
  Pipeline.withArrays spec0 c (atLaunch m c) fun w => (normDat0 (atTc (atLaunch m)) c).arrAt w cfg0.N
/-- After the second. -/
def afterNorm1 (c : Dev nD) : Valuation τ sig (Elt F) :=
  Pipeline.withArrays spec1 c (afterNorm0 m c) fun w => (normDat1 (atTc (afterNorm0 m)) c).arrAt w cfg1.N
/-- After the concatenation of the two normalised arrays. -/
abbrev afterConcat : Dev nD → Valuation τ sig (Elt F) := fun c => StableHlo.after hostOps2 (afterNorm1 m c)
/-- After the streaming call: its two result columns at what its write-backs leave, the rest as before. -/
def afterLse (c : Dev nD) : Valuation τ sig (Elt F) :=
  Function.update (Function.update (afterConcat m c) main_v3_0 ((dat2 (atTc (afterConcat m)) c).arrAt 2 cfg2.N))
    main_v3_1 ((dat2 (atTc (afterConcat m)) c).arrAt 3 cfg2.N)
/-- After the final reshapes, difference, sum and quotient. -/
abbrev atEnd : Dev nD → Valuation τ sig (Elt F) := fun c => StableHlo.after hostOps3 (afterLse m c)

theorem afterNorm0_arr (c : Dev nD) (w : Fin cfg0.W) :
    afterNorm0 m c (Proc.devRef .tc (Pipeline.arrRef spec0 w)) = (normDat0 (atTc (atLaunch m)) c).arrAt w cfg0.N := by
  unfold afterNorm0; exact Pipeline.withArrays_arr spec0 launch0.win.arr_inj c _ _ w
theorem afterNorm0_else (c : Dev nD) (b : Ref sig .tc) (hb : ∀ w, Pipeline.arrRef spec0 w ≠ b) :
    afterNorm0 m c (Proc.devRef .tc b) = atLaunch m c (Proc.devRef .tc b) := by
  unfold afterNorm0; exact Pipeline.withArrays_of_ne spec0 c _ _ b hb
theorem afterNorm1_arr (c : Dev nD) (w : Fin cfg1.W) :
    afterNorm1 m c (Proc.devRef .tc (Pipeline.arrRef spec1 w)) = (normDat1 (atTc (afterNorm0 m)) c).arrAt w cfg1.N := by
  unfold afterNorm1; exact Pipeline.withArrays_arr spec1 launch1.win.arr_inj c _ _ w
theorem afterNorm1_else (c : Dev nD) (b : Ref sig .tc) (hb : ∀ w, Pipeline.arrRef spec1 w ≠ b) :
    afterNorm1 m c (Proc.devRef .tc b) = afterNorm0 m c (Proc.devRef .tc b) := by
  unfold afterNorm1; exact Pipeline.withArrays_of_ne spec1 c _ _ b hb

/-! ## The proof data family and what rides beside the buffers -/

/-- Each call's proof data at the contents it is entered with. -/
def pdats : (p : Fin 3) → (c : Dev nD) → Dat τ (Elt F) Unit ℕ (UR sig nD τ) ℕ (Pipeline.pin (pcfgs (F := F)) adm p) c
  | ⟨0, _⟩ => fun c => normDat0 (atTc (atLaunch m)) c
  | ⟨1, _⟩ => fun c => normDat1 (atTc (afterNorm0 m)) c
  | ⟨2, _⟩ => fun c => dat2 (atTc (afterConcat m)) c

abbrev noVariants : Variants := Variants.none
/-- No core owes another anything: no level is assigned. -/
abbrev noLevels : GSem nD τ sig → Finset Unit := fun _ => ∅
abbrev levelZero : GSem nD τ sig → Unit → ℕ := fun _ _ => 0

/-- Beside the buffers, through every segment: the generator register at some state, and the core owing nothing. -/
abbrev riding (c : Dev nD) : sProp 𝕄 :=
  iprop((∃ r, prngReg c r) ∗ ∃ W, owes (c : Thread nD τ) (0 : CellTallies nD τ sig Unit) W)

/-- A core that owes nothing, as a pipeline's first point sees it, for proof data that owe nothing. -/
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩
  iexists W
  isplitr
  · ipureintro; exact fun _ _ => Or.inl trivial
  iexact HO
/-- And back, after its last point. -/
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩
  iexists W
  iexact HO

/-- No call prefetches a table. -/
theorem no_tables (p : Fin 3) (c : Dev nD) (q) (pf) :
    (Pipeline.prefHeld (Ix := Unit) (Name := ℕ) (U := UR sig nD τ) (Lvl := ℕ) (Val := Elt F) (pcfgs (F := F) p).pre c q pf : sProp 𝕄) = BI.emp := by
  unfold Pipeline.prefHeld; rw [show (Finset.univ : Finset (Fin 0)) = ∅ from rfl, BI.bigSep_empty]

-- a library lemma stated over the pinned configuration meets the printed one only when unification may unfold
-- plain definitions in a metavariable's type
set_option backward.isDefEq.respectTransparency.types false in
/-- Normalisation call 0 as a region: entered with every unscoped buffer at the contents so far, its two arrays
    taken out of them and put back with the output at its write-backs' contents; the generator register passes through
    the call's invariant; nothing is owed. -/
def normRegion0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (norm_obligation0 (atTc (atLaunch m)) c).loose
  hwaits := Pipeline.hwaits_of_owed_zero _ _ _ _ noLevels levelZero 0 fun _ _ => rfl
  pre c := iprop(StableHlo.held (c : Thread nD τ) (Pipeline.ucRefs τ sig) (atLaunch m c) ∗ riding c)
  post c := iprop(StableHlo.held (c : Thread nD τ) (Pipeline.ucRefs τ sig) (afterNorm0 m c) ∗ riding c)
  X c := iprop(∃ r, prngReg c r)
  Y c := iprop(∃ r, prngReg c r)
  Z c := Pipeline.unscopedRest (Ix := Unit) (Name := ℕ) (U := UR sig nD τ) (Lvl := ℕ) spec0 c (atTc (atLaunch m) c)
  hentry c := by
    rw [Pipeline.ownSems0_none, no_tables]
    have take := Pipeline.arrays_of_unscopedBufs (p := 0) (pcfgs (F := F)) adm (pdats m) launch0.win launch0.arr_whole c
      ((pdats m 0 c).share_full fun _ => rfl) (atTc (atLaunch m) c) fun _ => rfl
    rw [Pipeline.unscopedBufs_held] at take
    iintro ⟨⟨Hbufs, Hgen, Howes⟩, -, -⟩
    ihave Hsplit := take $$ Hbufs
    icases Hsplit with ⟨Harr, Hrest⟩
    imodintro
    isplitl [Harr]; · iexact Harr
    isplitr; · iempintro
    isplitl [Howes]; · iapply (owes_in (pdats m 0 c) 0 rfl rfl); iexact Howes
    isplitl [Hgen]; · iexact Hgen
    iexact Hrest
  hin c := by
    rw [no_tables, show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have put := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (atLaunch m) c) (atTc (afterNorm0 m) c) ((pdats m 0 c).arrAt · cfg0.N)
      (fun w => (afterNorm0_arr m c w).symm)
      (fun b hb => afterNorm0_else m c b fun w e => hb (Finset.mem_image.mpr ⟨w, Finset.mem_univ _, e⟩))
    rw [Pipeline.unscopedBufs_held] at put
    iintro ⟨Harr, Howes, Hgen, Hrest⟩
    imodintro
    isplitl [Harr Hrest]
    · iapply put
      isplitl [Harr]; · iexact Harr
      iexact Hrest
    isplitl [Hgen]; · iexact Hgen
    iapply (owes_out (pdats m 0 c) _ rfl); iexact Howes

-- a library lemma stated over the pinned configuration meets the printed one only when unification may unfold
-- plain definitions in a metavariable's type
set_option backward.isDefEq.respectTransparency.types false in
/-- Normalisation call 1 as a region: entered with every unscoped buffer at the contents so far, its two arrays
    taken out of them and put back with the output at its write-backs' contents; the generator register passes through
    the call's invariant; nothing is owed. -/
def normRegion1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (norm_obligation1 (atTc (afterNorm0 m)) c).loose
  hwaits := Pipeline.hwaits_of_owed_zero _ _ _ _ noLevels levelZero 1 fun _ _ => rfl
  pre c := iprop(StableHlo.held (c : Thread nD τ) (Pipeline.ucRefs τ sig) (afterNorm0 m c) ∗ riding c)
  post c := iprop(StableHlo.held (c : Thread nD τ) (Pipeline.ucRefs τ sig) (afterNorm1 m c) ∗ riding c)
  X c := iprop(∃ r, prngReg c r)
  Y c := iprop(∃ r, prngReg c r)
  Z c := Pipeline.unscopedRest (Ix := Unit) (Name := ℕ) (U := UR sig nD τ) (Lvl := ℕ) spec1 c (atTc (afterNorm0 m) c)
  hentry c := by
    rw [Pipeline.ownSems0_none, no_tables]
    have take := Pipeline.arrays_of_unscopedBufs (p := 1) (pcfgs (F := F)) adm (pdats m) launch1.win launch1.arr_whole c
      ((pdats m 1 c).share_full fun _ => rfl) (atTc (afterNorm0 m) c) fun _ => rfl
    rw [Pipeline.unscopedBufs_held] at take
    iintro ⟨⟨Hbufs, Hgen, Howes⟩, -, -⟩
    ihave Hsplit := take $$ Hbufs
    icases Hsplit with ⟨Harr, Hrest⟩
    imodintro
    isplitl [Harr]; · iexact Harr
    isplitr; · iempintro
    isplitl [Howes]; · iapply (owes_in (pdats m 1 c) 0 rfl rfl); iexact Howes
    isplitl [Hgen]; · iexact Hgen
    iexact Hrest
  hin c := by
    rw [no_tables, show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    have put := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (afterNorm0 m) c) (atTc (afterNorm1 m) c) ((pdats m 1 c).arrAt · cfg1.N)
      (fun w => (afterNorm1_arr m c w).symm)
      (fun b hb => afterNorm1_else m c b fun w e => hb (Finset.mem_image.mpr ⟨w, Finset.mem_univ _, e⟩))
    rw [Pipeline.unscopedBufs_held] at put
    iintro ⟨Harr, Howes, Hgen, Hrest⟩
    imodintro
    isplitl [Harr Hrest]
    · iapply put
      isplitl [Harr]; · iexact Harr
      iexact Hrest
    isplitl [Hgen]; · iexact Hgen
    iapply (owes_out (pdats m 1 c) _ rfl); iexact Howes

/-! ## The streaming call as a region: one array behind two windows -/

/-- The distinct buffers behind the streaming call's four windows, one by one. -/
theorem lse_buffers_listed (c : Dev nD) (W : (b : Ref sig .tc) → Buf (Elt F) ((c : Thread nD τ).loc b)) :
    (Pipeline.arrBufs (Ix := Unit) (Name := ℕ) (U := UR sig nD τ) (Lvl := ℕ) (cfgs (2 : Fin 3)).spec c W : sProp 𝕄)
      = iprop((((c : Thread nD τ).loc main_v2) ↦{fullShare} W main_v2) ∗ (((c : Thread nD τ).loc main_v3_0) ↦{fullShare} W main_v3_0)
          ∗ (((c : Thread nD τ).loc main_v3_1) ↦{fullShare} W main_v3_1)) := by
  unfold Pipeline.arrBufs
  exact bigSep_eq_bigSepL_of_eq [main_v2, main_v3_0, main_v3_1] (by decide) (by decide) _

/-- The four windows' arrays as the pipeline holds them: the normalised array twice, at the left half share for the
    queries and the right half for the keys; each result column whole. -/
theorem lse_arrays_open (V : (c : Dev nD) → (b : Ref sig .tc) → Buf (Elt F) ((c : Thread nD τ).loc b)) (c : Dev nD)
    (Fa : (w : Fin cfg2.W) → Buf (Elt F) ((cfg2.win w).arr.view.loc (c : Thread nD τ))) :
    ((dat2 V c).arrays Fa : sProp 𝕄)
      = iprop((((c : Thread nD τ).loc main_v2) ↦{fullShare.left} Fa 0) ∗ (((c : Thread nD τ).loc main_v2) ↦{fullShare.right} Fa 1)
          ∗ (((c : Thread nD τ).loc main_v3_0) ↦{fullShare} Fa 2) ∗ (((c : Thread nD τ).loc main_v3_1) ↦{fullShare} Fa 3)) := by
  unfold Dat.arrays
  rw [bigSep_W2, (arr_whole2 0).set_eq_univ, (arr_whole2 2).set_eq_univ, (arr_whole2 3).set_eq_univ]
  rfl

theorem afterLse_lse (c : Dev nD) : afterLse m c (Proc.devRef .tc main_v3_0) = (dat2 (atTc (afterConcat m)) c).arrAt 2 cfg2.N := by
  unfold afterLse
  rw [Function.update_of_ne (StableHlo.devRef_ne_of_ne (by decide) : (Proc.devRef .tc main_v3_0 : DevRef τ sig) ≠ Proc.devRef .tc main_v3_1), Function.update_self]
theorem afterLse_lab (c : Dev nD) : afterLse m c (Proc.devRef .tc main_v3_1) = (dat2 (atTc (afterConcat m)) c).arrAt 3 cfg2.N := by
  unfold afterLse
  rw [Function.update_self]
theorem afterLse_else (c : Dev nD) (b : Ref sig .tc) (h0 : b ≠ main_v3_0) (h1 : b ≠ main_v3_1) :
    afterLse m c (Proc.devRef .tc b) = afterConcat m c (Proc.devRef .tc b) := by
  unfold afterLse
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]

/-- The buffers that are no array of the streaming call hold after it what they held before. -/
theorem lse_rest_same (c : Dev nD) :
    (Pipeline.unscopedRest (Ix := Unit) (Name := ℕ) (U := UR sig nD τ) (Lvl := ℕ) (cfgs (2 : Fin 3)).spec c (atTc (afterLse m) c) : sProp 𝕄)
      = Pipeline.unscopedRest spec2 c (atTc (afterConcat m) c) := by
  unfold Pipeline.unscopedRest
  refine bigSep_congr fun b hb => ?_
  have hb' := (Finset.mem_sdiff.mp hb).2
  rw [show atTc (afterLse m) c b = atTc (afterConcat m) c b from afterLse_else m c b
    (fun e => hb' (Finset.mem_image.mpr ⟨2, Finset.mem_univ _, e ▸ rfl⟩)) (fun e => hb' (Finset.mem_image.mpr ⟨3, Finset.mem_univ _, e ▸ rfl⟩))]

-- a library lemma stated over the pinned configuration meets the printed one only when unification may unfold
-- plain definitions in a metavariable's type
set_option backward.isDefEq.respectTransparency.types false in
/-- The streaming call as a region. On entry the normalised array is split into its two half shares, one per input
    window; on exit the halves, both still at the array's contents, are joined again, and the two result columns are
    at what the write-backs of the row blocks' last points leave. -/
def lseRegion : Pipeline.RegionSeg (pcfgs (F := F)) adm (pdats m) () defs₀ noVariants noLevels levelZero 2 where
  win := winFacts₀2
  block_pos := block_pos2
  stage_whole := stage_whole2
  K := PEmpty
  osem k := k.elim
  ho := Pipeline.OwnSemFacts.none _
  hbody c := (lse_obligation (atTc (afterConcat m)) c).loose
  hwaits := Pipeline.hwaits_of_owed_zero _ _ _ _ noLevels levelZero 2 fun _ _ => rfl
  pre c := iprop(StableHlo.held (c : Thread nD τ) (Pipeline.ucRefs τ sig) (afterConcat m c) ∗ riding c)
  post c := iprop(StableHlo.held (c : Thread nD τ) (Pipeline.ucRefs τ sig) (afterLse m c) ∗ riding c)
  X c := iprop(∃ r, prngReg c r)
  Y c := iprop(∃ r, prngReg c r)
  Z c := Pipeline.unscopedRest (Ix := Unit) (Name := ℕ) (U := UR sig nD τ) (Lvl := ℕ) spec2 c (atTc (afterConcat m) c)
  hentry c := by
    rw [Pipeline.ownSems0_none, no_tables, ← Pipeline.unscopedBufs_held,
      Pipeline.unscopedBufs_split₀ (Ix := Unit) (Name := ℕ) (U := UR sig nD τ) (Lvl := ℕ) cfgs (2 : Fin 3) winFacts₀2.arr_unscoped c (atTc (afterConcat m) c),
      lse_buffers_listed, show (pdats m 2 c).arrays ((pdats m 2 c).arrAt · 0) = (dat2 (atTc (afterConcat m)) c).arrays ((dat2 (atTc (afterConcat m)) c).arrAt · 0) from rfl,
      lse_arrays_open]
    iintro ⟨⟨⟨⟨Hreps, Hlse, Hlab⟩, Hrest⟩, Hgen, Howes⟩, -, -⟩
    ihave Hhalves := (pointsTo_share (PosShare.mem_left_op_right fullShare)).1 $$ Hreps
    icases Hhalves with ⟨Hq, Hk⟩
    imodintro
    isplitl [Hq Hk Hlse Hlab]
    · isplitl [Hq]; · iexact Hq
      isplitl [Hk]; · iexact Hk
      isplitl [Hlse]; · iexact Hlse
      iexact Hlab
    isplitr; · iempintro
    isplitl [Howes]; · iapply (owes_in (pdats m 2 c) 0 rfl rfl); iexact Howes
    isplitl [Hgen]; · iexact Hgen
    iexact Hrest
  hin c := by
    rw [no_tables]
    refine BIBase.Entails.trans ?_ (lse_inv_in (atTc (afterConcat m)) c)
    unfold Pipeline.ΦA
    iintro ⟨Hgen, -, Hscoped⟩
    isplitl [Hscoped]; · iexact Hscoped
    iexact Hgen
  hout c := by
    rw [Pipeline.ownSems0_none]
    refine (lse_inv_out (atTc (afterConcat m)) c).trans ?_
    unfold Pipeline.ΦA
    iintro ⟨Hscoped, Hgen⟩
    isplitl [Hgen]; · iexact Hgen
    isplitr; · iempintro
    iexact Hscoped
  hexit c := by
    rw [show (pdats m 2 c).arrays ((pdats m 2 c).arrAt · (Pipeline.pin (pcfgs (F := F)) adm 2).N)
        = (dat2 (atTc (afterConcat m)) c).arrays ((dat2 (atTc (afterConcat m)) c).arrAt · cfg2.N) from rfl,
      lse_arrays_open, ← Pipeline.unscopedBufs_held,
      Pipeline.unscopedBufs_split₀ (Ix := Unit) (Name := ℕ) (U := UR sig nD τ) (Lvl := ℕ) cfgs (2 : Fin 3) winFacts₀2.arr_unscoped c (atTc (afterLse m) c),
      lse_buffers_listed, lse_rest_same,
      show atTc (afterLse m) c main_v3_0 = (dat2 (atTc (afterConcat m)) c).arrAt 2 cfg2.N from afterLse_lse m c,
      show atTc (afterLse m) c main_v3_1 = (dat2 (atTc (afterConcat m)) c).arrAt 3 cfg2.N from afterLse_lab m c,
      show atTc (afterLse m) c main_v2 = atTc (afterConcat m) c main_v2 from afterLse_else m c main_v2 (by decide) (by decide),
      (dat2 (atTc (afterConcat m)) c).arrAt_in 0 rfl cfg2.N, (dat2 (atTc (afterConcat m)) c).arrAt_in 1 rfl cfg2.N,
      dat2_arr, dat2_arr]
    iintro ⟨⟨Hq, Hk, Hlse, Hlab⟩, Howes, Hgen, Hrest⟩
    ihave Hreps := (pointsTo_share (PosShare.mem_left_op_right fullShare)).2 $$ [Hq Hk]
    · isplitl [Hq]; · iexact Hq
      iexact Hk
    imodintro
    isplitl [Hreps Hlse Hlab Hrest]
    · isplitl [Hreps Hlse Hlab]
      · isplitl [Hreps]; · iexact Hreps
        isplitl [Hlse]; · iexact Hlse
        iexact Hlab
      iexact Hrest
    isplitl [Hgen]; · iexact Hgen
    iapply (owes_out (pdats m 2 c) _ rfl); iexact Howes

/-! ## The run -/

variable (ρ : Dev nD → PrngReg)

/-- A stretch of host operations as a segment over every unscoped buffer, the generator register and the core's
    tallies riding along. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- The program's five segments, in order. -/
abbrev segments : List (Pipeline.Seg (pcfgs (F := F)) adm (pdats m) () defs₀ noVariants noLevels levelZero) :=
  [ .region (normRegion0 m), .region (normRegion1 m),
    .host (hostStretch hostOps2 hostOps2_sub hostOps2_fresh (afterNorm1 m)),
    .region (lseRegion m),
    .host (hostStretch hostOps3 hostOps3_sub hostOps3_fresh (afterLse m)) ]

/-- The printed program is the run of the five segments. -/
theorem main_is_segments (c : Dev nD) : main (F := F) c = Pipeline.Seg.run (segments m) :=
  (main_chain c).trans (by chain_rfl)

theorem unscoped_mem (b : Ref sig .tc) (h : ¬(Proc.devRef .tc b : DevRef τ sig).isScoped) :
    Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- From any memory with zero counters every weakly fair execution of the program terminates, nothing faulting, and
    every final state has every unscoped buffer at the contents the five segments leave. -/
theorem run_all : θ_run defs (onTc (τ := τ) (main (F := F))) ⟨m, fun _ => 0, ρ⟩
    (fun r => ∀ c : Dev nD, ∀ b ∈ Pipeline.ucRefs τ sig, r.2.mem ((c : Thread nD τ).1, b) = atEnd m c b) :=
  Pipeline.θ_run_regions_kit (pcfgs (F := F)) adm (pdats m) () cellOf_inj emb₁ defs₀ noVariants noLevels levelZero m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hlaunch
      imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      have nothing : (BI.emp : sProp 𝕄) ⊢ bigSep Finset.univ (fun _ : Dev nD => (BI.emp : sProp 𝕄)) := by rw [BI.bigSep_emp_const]
      iapply nothing
      iempintro)
    (T₀ := fun c => iprop(StableHlo.held (c : Thread nD τ) (Pipeline.ucRefs τ sig) (atLaunch m c) ∗ riding c))
    (Tₙ := fun c => iprop(StableHlo.held (c : Thread nD τ) (Pipeline.ucRefs τ sig) (atEnd m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (atEnd m c) ∗ riding c)
        ⊢ iprop(iprop(StableHlo.held (c : Thread nD τ) (Pipeline.ucRefs τ sig) (atEnd m c) ∗ ∃ r, prngReg c r)
            ∗ ∃ W, owes (c : Thread nD τ) (0 : CellTallies nD τ sig Unit) W)
      iintro ⟨Hbufs, Hgen, Howes⟩
      isplitr [Howes]
      · isplitl [Hbufs]; · iexact Hbufs
        iexact Hgen
      iexact Howes⟩)
    (hinit := by
      refine Pipeline.initEach noLevels levelZero fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem ((c : Thread nD τ).1, b) = atEnd m c b)
    (hfin := fun c s' => by
      iintro ⟨⟨Hbufs, -⟩, Hstate⟩
      unfold StableHlo.held
      imodintro
      iapply (pointsTo_read_all (Pipeline.ucRefs τ sig) (fun b => ((c : Thread nD τ).1, b)) (atEnd m c) s')
      isplitl [Hbufs]; · iexact Hbufs
      iexact Hstate)
    (hQ := fun s h c => h c)

/-! ## The arguments end as launched; the result ends at the last segment's contents -/

/-- No host stretch writes the first argument and no call may change it: it is the first call's INPUT array. -/
theorem atEnd_keeps_arg0 (c : Dev nD) : atEnd m c (Proc.devRef .tc main_arg0) = m ((c : Thread nD τ).loc main_arg0) :=
  calc atEnd m c (Proc.devRef .tc main_arg0)
    _ = afterLse m c (Proc.devRef .tc main_arg0) := StableHlo.after_of_writes_sub hostOps3 _ hostOps3_writes (by decide)
    _ = afterConcat m c (Proc.devRef .tc main_arg0) := afterLse_else m c main_arg0 (by decide) (by decide)
    _ = afterNorm1 m c (Proc.devRef .tc main_arg0) := StableHlo.after_of_writes_sub hostOps2 _ hostOps2_writes (by decide)
    _ = afterNorm0 m c (Proc.devRef .tc main_arg0) := afterNorm1_else m c main_arg0 (by decide)
    _ = (normDat0 (atTc (atLaunch m)) c).arrAt 0 cfg0.N := afterNorm0_arr m c 0
    _ = m ((c : Thread nD τ).loc main_arg0) :=
        ((normDat0 (atTc (atLaunch m)) c).arrAt_in 0 rfl _).trans (normDat0_arr (atTc (atLaunch m)) c 0)

/-- Likewise the second argument: the second call's input array. -/
theorem atEnd_keeps_arg1 (c : Dev nD) : atEnd m c (Proc.devRef .tc main_arg1) = m ((c : Thread nD τ).loc main_arg1) :=
  calc atEnd m c (Proc.devRef .tc main_arg1)
    _ = afterLse m c (Proc.devRef .tc main_arg1) := StableHlo.after_of_writes_sub hostOps3 _ hostOps3_writes (by decide)
    _ = afterConcat m c (Proc.devRef .tc main_arg1) := afterLse_else m c main_arg1 (by decide) (by decide)
    _ = afterNorm1 m c (Proc.devRef .tc main_arg1) := StableHlo.after_of_writes_sub hostOps2 _ hostOps2_writes (by decide)
    _ = (normDat1 (atTc (afterNorm0 m)) c).arrAt 0 cfg1.N := afterNorm1_arr m c 0
    _ = afterNorm0 m c (Proc.devRef .tc main_arg1) :=
        ((normDat1 (atTc (afterNorm0 m)) c).arrAt_in 0 rfl _).trans (normDat1_arr (atTc (afterNorm0 m)) c 0)
    _ = m ((c : Thread nD τ).loc main_arg1) := afterNorm0_else m c main_arg1 (by decide)

/-- THE FRAME, at any instance: the program runs to the end, nothing faults, both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (unscoped_mem main_arg0 (by decide))).trans (atEnd_keeps_arg0 m c),
     (h c _ (unscoped_mem main_arg1 (by decide))).trans (atEnd_keeps_arg1 m c)⟩) (run_all m ρ)

/-- The same run with the result buffer read too. -/
theorem run_result : θ_run defs (onTc (τ := τ) (main (F := F))) ⟨m, fun _ => 0, ρ⟩ (fun r => ∀ c : Dev nD,
      r.2.mem ((c.tc : Thread nD τ).loc main_v8) = atEnd m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (unscoped_mem main_v8 (by decide)),
     (h c _ (unscoped_mem main_arg0 (by decide))).trans (atEnd_keeps_arg0 m c),
     (h c _ (unscoped_mem main_arg1 (by decide))).trans (atEnd_keeps_arg1 m c)⟩) (run_all m ρ)

end Cert.Kernel.Hand

end
-- ==== Proof.KI.Norm0.lean ====
/- The row-normalisation kernel of custom_call 0 as a pipeline body: the blocks its two windows hold, the
   contents its one store leaves in the output window's buffer, the pipeline's proof data at the buffer
   contents `V` the region is entered with, and the obligation that the body, run at any grid point on the
   current staging buffers, takes the proof data's "before" to its "after".

   The kernel reads a whole 1024x256 block `x` of f32 and stores, over the whole 1024x256 bf16 output block,
   each row of `x` divided by `max (sqrt (sum of the row's squares)) eps` and rounded to bf16. It also
   loads the output block before storing; the loaded value is not used. -/
import proofs.«119733_j80255758893848_2_alg».proof.Proof.Gen.KernelIdeal.Launch
import proofs.«119733_j80255758893848_2_alg».proof.Proof.Gen.KernelIdeal.Skeleton
import proofs.«119733_j80255758893848_2_alg».proof.Proof.Gen.KernelIdeal.Points
import Idealize.ShloMosaic.Lib.Pipeline.FrameBody
import Idealize.ShloMosaic.Lib.Tactic

-- the cover of the block is checked by evaluation over its 1024 rows
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The 1024x256 block of window `w`'s array that grid point `t` addresses, as the array stands in `V`:
    rows `1024 * t … 1024 * t + 1023` of the 4096x256 array. -/
def rowsBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What one run of the kernel stores -/

/-- Both of the kernel's loads and its store address the whole 1024x256 block: offset (0, 0), full extent. -/
abbrev allRows0 : Rect S1024x256 := Rect.unit (s := S1024x256) ![0, 0] S1024x256.size inb_S1024x256_S1024x256_0_0

/-- The output block after one run on the input block `x`: the single store writes, over all of it, each row of
    `x` over `max (sqrt (sum of its squares)) eps`, rounded to bf16 (`k0_pay1`). -/
def normed0 (x0 : Vec F S1024x256 .f32) : Vec F S1024x256 .bf16 :=
  View.canon [⟨allRows0, k0_pay1 (View.ld x0 allRows0)⟩]

/-- The store's rectangle is the whole block, so every index of the block lies in it. -/
theorem allRows0_covers (pay : Vec F S1024x256 .bf16) (y : S1024x256.Idx) :
    ∃ pc ∈ ([⟨allRows0, pay⟩] : List (View.Piece (Elt F) S1024x256 .bf16)), y ∈ pc.1.set :=
  View.cover_of_tiled [⟨allRows0, pay⟩] S1024x256.size (by rfl) y

/-! ## The kernel's triple -/

set_option maxHeartbeats 1000000 in
/-- One run of the kernel on a whole source memref reading `x` and a whole destination memref reading `y`
    leaves the source as it was and the destination at `normed0 x`, whatever `y` was. -/
theorem normalize_runs0 (c : Dev nD) (E : Set ℕ) (i : grid0.Coords)
    (src : Memref sig .tc .vmem S1024x256 .f32) (hsrc : src.IsWhole)
    (dst : Memref sig .tc .vmem S1024x256 .bf16) (hdst : dst.IsWhole)
    (x : Vec F S1024x256 .f32) (y : Vec F S1024x256 .bf16) (K : PUnit → sProp 𝕄) :
    iprop(owns (c : Thread nD τ) src fullShare x ∗ owns (c : Thread nD τ) dst fullShare y
        ∗ (iprop(owns (c : Thread nD τ) src fullShare x ∗ owns (c : Thread nD τ) dst fullShare (normed0 x)) -∗ K ⟨⟩))
      ⊢ wp frame (wpE (defs₀ (F := F)) Variants.none c none) E (cc0__normalize_kernel i src hsrc dst hdst) K := by
  rw [cc0__normalize_kernel_eq_skeleton]
  unfold cc0__normalize_kernel_skel owns
  iintro ⟨⟨%fx, %hx, Hsrc⟩, ⟨%fy, %hy, Hdst⟩, Hk⟩
  subst hx
  -- the two loads read, the store overwrites the destination with the payload of what the first load read
  sl_exec
  sl_step
  iapply Hk
  isplitl [Hsrc]
  · -- the source buffer was only read
    iexists fx
    isplitr
    · ipureintro; rfl
    · iexact Hsrc
  · -- the destination holds the one write over whatever it held; the write covers the block
    iexists _
    isplitr
    · ipureintro
      exact View.read_writes_eq_canon dst.view fy _ (allRows0_covers _)
    · iexact Hdst

/-! ## The pipeline's proof data -/

/-- Proof data for the pipeline of custom_call 0 on core `c`, entered at buffer contents `V`. The two windowed
    arrays start as `V` has them. After the body at point `t` the input window's buffer still holds the
    point's block of rows, and the output window's buffer holds those rows normalised. The invariant is the
    one of a body that touches nothing but its windows (the core's other scoped buffers and its generator
    register, each at some contents); every share is full and the core owes no tally. -/
def normDat0 (c : Dev nD) : Dat τ (Elt F) Unit ℕ (UR sig nD τ) ℕ cfg0 c where
  A w := V c (Pipeline.arrRef spec0 w)
  after w t := match w with
    | ⟨0, _⟩ => rowsBlock0 V c 0 t
    | ⟨1, _⟩ => normed0 (rowsBlock0 V c 0 t)
  Φ _ := Pipeline.ΦA spec0 c
  q _ := fullShare
  owed _ := 0

/-- The arrays of the proof data are those of `V`. -/
theorem normDat0_arr (c : Dev nD) (w : Fin cfg0.W) : (normDat0 V c).A w = V c (Pipeline.arrRef spec0 w) := by
  dsimp only [normDat0]

/-- The body leaves the input window's buffer at the block it found there. -/
theorem normDat0_keeps_in (c : Dev nD) (t : Fin cfg0.N) : (normDat0 V c).after 0 t = rowsBlock0 V c 0 t := by
  dsimp only [normDat0]

/-- The body leaves the output window's buffer at the normalised rows of the input block. -/
theorem normDat0_leaves_out (c : Dev nD) (t : Fin cfg0.N) :
    (normDat0 V c).after 1 t = normed0 (rowsBlock0 V c 0 t) := by
  dsimp only [normDat0]

/-- The input window is fetched at every one of the four points and its blocks are never cut, so when the body
    runs at `t` the window's current buffer holds exactly the block of rows that `t` addresses, whatever the
    buffer held before the fetch. -/
theorem normDat0_finds_in (c : Dev nD) (t : Fin cfg0.N) (d) :
    (normDat0 V c).before 0 t d = rowsBlock0 V c 0 t := by
  rw [Dat.before_fetched (normDat0 V c) 0 t (fetch0_0 t) d]
  unfold Dat.fetched Dat.blockOf rowsBlock0
  rw [normDat0_arr]
  rfl

/-! ## The body obligation -/

set_option maxHeartbeats 1000000 in
/-- At every grid point the body, handed the invariant, the core's tallies and the two windows' current buffers
    as the pipeline has them, returns the same invariant and tallies with the input buffer unchanged and the
    output buffer at the normalised rows. -/
theorem norm_obligation0 (c : Dev nD) :
    BodyObligation (normDat0 (F := F) V c) (defs₀ (F := F)) Variants.none () Set.univ := by
  intro t
  rw [bigSep_W0, bigSep_W0]
  -- no window is set aside and none is idle at any point, so each window's conjunct is the plain one; the
  -- invariant and the tallies do not depend on the point
  change iprop((normDat0 V c).Φ t.castSucc ∗ (normDat0 V c).owesAt () t.castSucc
        ∗ (∃ d, owns (c : Thread nD τ) (st0_0 t) fullShare ((normDat0 V c).before 0 t d))
        ∗ (∃ d, owns (c : Thread nD τ) (st0_1 t) fullShare ((normDat0 V c).before 1 t d)))
      ⊢ wp frame (wpE (defs₀ (F := F)) Variants.none c none) Set.univ (bodyAt0 t) fun _ =>
        iprop((normDat0 V c).Φ t.castSucc ∗ (normDat0 V c).owesAt () t.castSucc
          ∗ owns (c : Thread nD τ) (st0_0 t) fullShare ((normDat0 V c).after 0 t)
          ∗ owns (c : Thread nD τ) (st0_1 t) fullShare ((normDat0 V c).after 1 t))
  simp only [normDat0_finds_in, normDat0_keeps_in, normDat0_leaves_out]
  iintro ⟨Hinv, Howed, ⟨%d0, Hin⟩, ⟨%d1, Hout⟩⟩
  -- run the kernel on the input buffer at its block and the output buffer at whatever it holds
  iapply (normalize_runs0 c Set.univ (grid0.coords t) _ _ _ _ (rowsBlock0 V c 0 t) ((normDat0 V c).before 1 t d1) _)
  isplitl [Hin]
  · iexact Hin
  isplitl [Hout]
  · iexact Hout
  -- the invariant and the tallies were not touched
  iintro ⟨Hin, Hout⟩
  isplitl [Hinv]
  · iexact Hinv
  isplitl [Howed]
  · iexact Howed
  isplitl [Hin]
  · iexact Hin
  · iexact Hout

end Cert.KernelIdeal.Hand

end
-- ==== Proof.KI.Norm1.lean ====
/- The row-normalisation kernel of custom_call 1 as a pipeline body: the blocks its two windows hold, the
   contents its one store leaves in the output window's buffer, the pipeline's proof data at the buffer
   contents `V` the region is entered with, and the obligation that the body, run at any grid point on the
   current staging buffers, takes the proof data's "before" to its "after".

   The kernel reads a whole 1024x256 block `x` of f32 and stores, over the whole 1024x256 bf16 output block,
   each row of `x` divided by `max (sqrt (sum of the row's squares)) eps` and rounded to bf16. It also
   loads the output block before storing; the loaded value is not used. -/
import proofs.«119733_j80255758893848_2_alg».proof.Proof.Gen.KernelIdeal.Launch
import proofs.«119733_j80255758893848_2_alg».proof.Proof.Gen.KernelIdeal.Skeleton
import proofs.«119733_j80255758893848_2_alg».proof.Proof.Gen.KernelIdeal.Points
import Idealize.ShloMosaic.Lib.Pipeline.FrameBody
import Idealize.ShloMosaic.Lib.Tactic

-- the cover of the block is checked by evaluation over its 1024 rows
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The 1024x256 block of window `w`'s array that grid point `t` addresses, as the array stands in `V`:
    rows `1024 * t … 1024 * t + 1023` of the 4096x256 array. -/
def rowsBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What one run of the kernel stores -/

/-- Both of the kernel's loads and its store address the whole 1024x256 block: offset (0, 0), full extent. -/
abbrev allRows1 : Rect S1024x256 := Rect.unit (s := S1024x256) ![0, 0] S1024x256.size inb_S1024x256_S1024x256_0_0

/-- The output block after one run on the input block `x`: the single store writes, over all of it, each row of
    `x` over `max (sqrt (sum of its squares)) eps`, rounded to bf16 (`k1_pay1`). -/
def normed1 (x0 : Vec F S1024x256 .f32) : Vec F S1024x256 .bf16 :=
  View.canon [⟨allRows1, k1_pay1 (View.ld x0 allRows1)⟩]

/-- The store's rectangle is the whole block, so every index of the block lies in it. -/
theorem allRows1_covers (pay : Vec F S1024x256 .bf16) (y : S1024x256.Idx) :
    ∃ pc ∈ ([⟨allRows1, pay⟩] : List (View.Piece (Elt F) S1024x256 .bf16)), y ∈ pc.1.set :=
  View.cover_of_tiled [⟨allRows1, pay⟩] S1024x256.size (by rfl) y

/-! ## The kernel's triple -/

set_option maxHeartbeats 1000000 in
/-- One run of the kernel on a whole source memref reading `x` and a whole destination memref reading `y`
    leaves the source as it was and the destination at `normed1 x`, whatever `y` was. -/
theorem normalize_runs1 (c : Dev nD) (E : Set ℕ) (i : grid1.Coords)
    (src : Memref sig .tc .vmem S1024x256 .f32) (hsrc : src.IsWhole)
    (dst : Memref sig .tc .vmem S1024x256 .bf16) (hdst : dst.IsWhole)
    (x : Vec F S1024x256 .f32) (y : Vec F S1024x256 .bf16) (K : PUnit → sProp 𝕄) :
    iprop(owns (c : Thread nD τ) src fullShare x ∗ owns (c : Thread nD τ) dst fullShare y
        ∗ (iprop(owns (c : Thread nD τ) src fullShare x ∗ owns (c : Thread nD τ) dst fullShare (normed1 x)) -∗ K ⟨⟩))
      ⊢ wp frame (wpE (defs₀ (F := F)) Variants.none c none) E (cc1__normalize_kernel i src hsrc dst hdst) K := by
  rw [cc1__normalize_kernel_eq_skeleton]
  unfold cc1__normalize_kernel_skel owns
  iintro ⟨⟨%fx, %hx, Hsrc⟩, ⟨%fy, %hy, Hdst⟩, Hk⟩
  subst hx
  -- the two loads read, the store overwrites the destination with the payload of what the first load read
  sl_exec
  sl_step
  iapply Hk
  isplitl [Hsrc]
  · -- the source buffer was only read
    iexists fx
    isplitr
    · ipureintro; rfl
    · iexact Hsrc
  · -- the destination holds the one write over whatever it held; the write covers the block
    iexists _
    isplitr
    · ipureintro
      exact View.read_writes_eq_canon dst.view fy _ (allRows1_covers _)
    · iexact Hdst

/-! ## The pipeline's proof data -/

/-- Proof data for the pipeline of custom_call 1 on core `c`, entered at buffer contents `V`. The two windowed
    arrays start as `V` has them. After the body at point `t` the input window's buffer still holds the
    point's block of rows, and the output window's buffer holds those rows normalised. The invariant is the
    one of a body that touches nothing but its windows (the core's other scoped buffers and its generator
    register, each at some contents); every share is full and the core owes no tally. -/
def normDat1 (c : Dev nD) : Dat τ (Elt F) Unit ℕ (UR sig nD τ) ℕ cfg1 c where
  A w := V c (Pipeline.arrRef spec1 w)
  after w t := match w with
    | ⟨0, _⟩ => rowsBlock1 V c 0 t
    | ⟨1, _⟩ => normed1 (rowsBlock1 V c 0 t)
  Φ _ := Pipeline.ΦA spec1 c
  q _ := fullShare
  owed _ := 0

/-- The arrays of the proof data are those of `V`. -/
theorem normDat1_arr (c : Dev nD) (w : Fin cfg1.W) : (normDat1 V c).A w = V c (Pipeline.arrRef spec1 w) := by
  dsimp only [normDat1]

/-- The body leaves the input window's buffer at the block it found there. -/
theorem normDat1_keeps_in (c : Dev nD) (t : Fin cfg1.N) : (normDat1 V c).after 0 t = rowsBlock1 V c 0 t := by
  dsimp only [normDat1]

/-- The body leaves the output window's buffer at the normalised rows of the input block. -/
theorem normDat1_leaves_out (c : Dev nD) (t : Fin cfg1.N) :
    (normDat1 V c).after 1 t = normed1 (rowsBlock1 V c 0 t) := by
  dsimp only [normDat1]

/-- The input window is fetched at every one of the four points and its blocks are never cut, so when the body
    runs at `t` the window's current buffer holds exactly the block of rows that `t` addresses, whatever the
    buffer held before the fetch. -/
theorem normDat1_finds_in (c : Dev nD) (t : Fin cfg1.N) (d) :
    (normDat1 V c).before 0 t d = rowsBlock1 V c 0 t := by
  rw [Dat.before_fetched (normDat1 V c) 0 t (fetch1_0 t) d]
  unfold Dat.fetched Dat.blockOf rowsBlock1
  rw [normDat1_arr]
  rfl

/-! ## The body obligation -/

set_option maxHeartbeats 1000000 in
/-- At every grid point the body, handed the invariant, the core's tallies and the two windows' current buffers
    as the pipeline has them, returns the same invariant and tallies with the input buffer unchanged and the
    output buffer at the normalised rows. -/
theorem norm_obligation1 (c : Dev nD) :
    BodyObligation (normDat1 (F := F) V c) (defs₀ (F := F)) Variants.none () Set.univ := by
  intro t
  rw [bigSep_W1, bigSep_W1]
  -- no window is set aside and none is idle at any point, so each window's conjunct is the plain one; the
  -- invariant and the tallies do not depend on the point
  change iprop((normDat1 V c).Φ t.castSucc ∗ (normDat1 V c).owesAt () t.castSucc
        ∗ (∃ d, owns (c : Thread nD τ) (st1_0 t) fullShare ((normDat1 V c).before 0 t d))
        ∗ (∃ d, owns (c : Thread nD τ) (st1_1 t) fullShare ((normDat1 V c).before 1 t d)))
      ⊢ wp frame (wpE (defs₀ (F := F)) Variants.none c none) Set.univ (bodyAt1 t) fun _ =>
        iprop((normDat1 V c).Φ t.castSucc ∗ (normDat1 V c).owesAt () t.castSucc
          ∗ owns (c : Thread nD τ) (st1_0 t) fullShare ((normDat1 V c).after 0 t)
          ∗ owns (c : Thread nD τ) (st1_1 t) fullShare ((normDat1 V c).after 1 t))
  simp only [normDat1_finds_in, normDat1_keeps_in, normDat1_leaves_out]
  iintro ⟨Hinv, Howed, ⟨%d0, Hin⟩, ⟨%d1, Hout⟩⟩
  -- run the kernel on the input buffer at its block and the output buffer at whatever it holds
  iapply (normalize_runs1 c Set.univ (grid1.coords t) _ _ _ _ (rowsBlock1 V c 0 t) ((normDat1 V c).before 1 t d1) _)
  isplitl [Hin]
  · iexact Hin
  isplitl [Hout]
  · iexact Hout
  -- the invariant and the tallies were not touched
  iintro ⟨Hin, Hout⟩
  isplitl [Hinv]
  · iexact Hinv
  isplitl [Howed]
  · iexact Howed
  isplitl [Hin]
  · iexact Hin
  · iexact Hout

end Cert.KernelIdeal.Hand

end
-- ==== Proof.KI.LseBody.lean ====
/-
  The streaming kernel's body run once, in each of its three situations (first, middle, last column block of a row
  block), on whole staging and scratch buffers: what each buffer holds afterwards, as the body's arithmetic of what the
  buffers held before.
-/
import proofs.«119733_j80255758893848_2_alg».proof.Proof.Gen.KernelIdeal.Launch
import proofs.«119733_j80255758893848_2_alg».proof.Proof.Gen.KernelIdeal.Skeleton
import proofs.«119733_j80255758893848_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The streaming kernel's body, one column block of one row block

A row block is 1024 rows of the normalised array (the queries); a column block is 1024 rows of the same array
(the keys), a slice of the resident whole array at row offset 1024 times the second grid coordinate. Three columns
of 1024 numbers are carried from one column block to the next: the running maximum of a row's logits, the running sum
of their exponentials rescaled to that maximum, and the logit at the row's label column so far. -/

/-- The first column block of a row block: the grid's second coordinate is zero. -/
abbrev atFirst (i : grid2.Coords) : Prop :=
  (Scalar.cmpi .ne (Scalar.extui (Scalar.cmpi .eq (BitVec.ofNat 32 (i 1).val) 0#32)) 0#32) = 1#1
/-- The last column block of a row block. -/
abbrev atLast (i : grid2.Coords) : Prop := k2_cond2 i = 1#1

/-- The whole query block, the whole column, and the key rows of column block i inside the resident array. -/
abbrev allQ : Rect S1024x256 := Rect.unit (s := S1024x256) ![0, 0] S1024x256.size inb_S1024x256_S1024x256_0_0
abbrev allC : Rect S1024x1 := Rect.unit (s := S1024x1) ![0, 0] S1024x1.size inb_S1024x1_S1024x1_0_0
abbrev keyRows (i : grid2.Coords) : Rect S8192x256 := Rect.unit (s := S8192x256) (k2_off1 i) S1024x256.size (k2_off1_inb i)

theorem zeroQ : (![0, 0] : Fin S1024x256.rank → Nat) = fun _ => 0 := by funext a; fin_cases a <;> rfl
theorem zeroC : (![0, 0] : Fin S1024x1.rank → Nat) = fun _ => 0 := by funext a; fin_cases a <;> rfl

/-- The key rows of column block i. -/
def keyBlock (i : grid2.Coords) (xk : Vec F S8192x256 .bf16) : Vec F S1024x256 .bf16 := View.ld xk (keyRows i)

/-- The running maximum after the block: the old one against each row's maximum over the block's doubled inner products. -/
def maxAfter (i : grid2.Coords) (xq : Vec F S1024x256 .bf16) (xk : Vec F S8192x256 .bf16) (m0 : Vec F S1024x1 .f32) : Vec F S1024x1 .f32 :=
  k2_pay8 xq (keyBlock i xk) m0

/-- The running sum after the block: the old one times exp(old maximum - new maximum), plus the block's
    exponentials of logit - new maximum. -/
def sumAfter (i : grid2.Coords) (xq : Vec F S1024x256 .bf16) (xk : Vec F S8192x256 .bf16) (m0 l0 : Vec F S1024x1 .f32) : Vec F S1024x1 .f32 :=
  k2_pay9 xq (keyBlock i xk) m0 l0

/-- The label logit after the block: the old one plus the block's logits where the column is the row's label (zero elsewhere). -/
def labAfter (i : grid2.Coords) (xq : Vec F S1024x256 .bf16) (xk : Vec F S8192x256 .bf16) (t0 : Vec F S1024x1 .f32) : Vec F S1024x1 .f32 :=
  k2_pay1 (Scalar.muli (BitVec.ofNat 32 (i 1).val) 1024#32) (k2_pay6 xq (keyBlock i xk))
    (iota .tc S1024x1 32 [0] iota_S1024x1_d0_w32) (k2_pay10 i) t0

/-- A piece list whose head is the whole column covers the column. -/
theorem headC_covers (p : Vec F S1024x1 .f32) (L : List (View.Piece (Elt F) S1024x1 .f32)) (y : S1024x1.Idx) :
    ∃ pc ∈ ((⟨allC, p⟩ : View.Piece (Elt F) S1024x1 .f32) :: L), y ∈ pc.1.set :=
  ⟨_, List.mem_cons_self, View.mem_set_unit_zero (S := S1024x1) zeroC inb_S1024x1_S1024x1_0_0 y⟩

set_option maxHeartbeats 4000000 in
/-- A middle column block: the three carried columns move on; the queries, the keys and both result columns are left as they were. -/
theorem body_mid (c : Dev nD) (i : grid2.Coords)
    (q : Memref sig .tc .vmem S1024x256 .bf16) (hq : q.IsWhole) (k : Memref sig .tc .vmem S8192x256 .bf16) (hk : k.IsWhole)
    (ol : Memref sig .tc .vmem S1024x1 .f32) (hol : ol.IsWhole) (ot : Memref sig .tc .vmem S1024x1 .f32) (hot : ot.IsWhole)
    (sm : Memref sig .tc .vmem S1024x1 .f32) (hsm : sm.IsWhole) (sl : Memref sig .tc .vmem S1024x1 .f32) (hsl : sl.IsWhole)
    (st : Memref sig .tc .vmem S1024x1 .f32) (hst : st.IsWhole)
    (hf : ¬atFirst i) (hl : ¬atLast i)
    (xq : Vec F S1024x256 .bf16) (xk : Vec F S8192x256 .bf16) (xl xt m0 l0 t0 : Vec F S1024x1 .f32)
    (E : Set ℕ) (K : PUnit → sProp 𝕄) :
    iprop(owns (c : Thread nD τ) q fullShare xq ∗ owns (c : Thread nD τ) k fullShare xk
        ∗ owns (c : Thread nD τ) ol fullShare xl ∗ owns (c : Thread nD τ) ot fullShare xt
        ∗ owns (c : Thread nD τ) sm fullShare m0 ∗ owns (c : Thread nD τ) sl fullShare l0 ∗ owns (c : Thread nD τ) st fullShare t0
        ∗ (iprop(owns (c : Thread nD τ) q fullShare xq ∗ owns (c : Thread nD τ) k fullShare xk
            ∗ owns (c : Thread nD τ) ol fullShare (xl) ∗ owns (c : Thread nD τ) ot fullShare (xt)
            ∗ owns (c : Thread nD τ) sm fullShare (maxAfter i xq xk (m0))
            ∗ owns (c : Thread nD τ) sl fullShare (sumAfter i xq xk (m0) (l0))
            ∗ owns (c : Thread nD τ) st fullShare (labAfter i xq xk (t0))) -∗ K ⟨⟩))
      ⊢ wp frame (wpE (defs₀ (F := F)) Variants.none c none) E (cc2__lse_kernel i q hq k hk ol hol ot hot sm hsm sl hsl st hst) K := by
  sl_unfold [cc2__lse_kernel]
  unfold owns
  iintro ⟨⟨%fq, %hfq, Hq⟩, ⟨%fk, %hfk, Hk⟩, ⟨%fl, %hfl, Hl⟩, ⟨%ft, %hft, Ht⟩, ⟨%fm, %hfm, Hm⟩, ⟨%fs, %hfs, Hs⟩, ⟨%fu, %hfu, Hu⟩, HK⟩
  obtain rfl := hq.eq_unread hfq; obtain rfl := hk.eq_unread hfk
  obtain rfl := hol.eq_unread hfl; obtain rfl := hot.eq_unread hft
  obtain rfl := hsm.eq_unread hfm; obtain rfl := hsl.eq_unread hfs; obtain rfl := hst.eq_unread hfu
  sl_exec (disch := first | exact hf | exact hl)
  sl_step
  iapply HK
  isplitl [Hq]
  · iexists _; isplitr; · ipureintro; exact hq.read_unread _
    iexact Hq
  isplitl [Hk]
  · iexists _; isplitr; · ipureintro; exact hk.read_unread _
    iexact Hk
  isplitl [Hl]
  · iexists _; isplitr
    swap; · iexact Hl
    ipureintro
    exact hol.read_unread _
  isplitl [Ht]
  · iexists _; isplitr
    swap; · iexact Ht
    ipureintro
    exact hot.read_unread _
  isplitl [Hm]
  · iexists _; isplitr
    swap; · iexact Hm
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hs]
  · iexists _; isplitr
    swap; · iexact Hs
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  · iexists _; isplitr
    swap; · iexact Hu
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl

set_option maxHeartbeats 4000000 in
/-- The first column block: the carried columns start from minus infinity, zero and zero, whatever they held, then move on as in a middle block. -/
theorem body_first (c : Dev nD) (i : grid2.Coords)
    (q : Memref sig .tc .vmem S1024x256 .bf16) (hq : q.IsWhole) (k : Memref sig .tc .vmem S8192x256 .bf16) (hk : k.IsWhole)
    (ol : Memref sig .tc .vmem S1024x1 .f32) (hol : ol.IsWhole) (ot : Memref sig .tc .vmem S1024x1 .f32) (hot : ot.IsWhole)
    (sm : Memref sig .tc .vmem S1024x1 .f32) (hsm : sm.IsWhole) (sl : Memref sig .tc .vmem S1024x1 .f32) (hsl : sl.IsWhole)
    (st : Memref sig .tc .vmem S1024x1 .f32) (hst : st.IsWhole)
    (hf : atFirst i) (hl : ¬atLast i)
    (xq : Vec F S1024x256 .bf16) (xk : Vec F S8192x256 .bf16) (xl xt m0 l0 t0 : Vec F S1024x1 .f32)
    (E : Set ℕ) (K : PUnit → sProp 𝕄) :
    iprop(owns (c : Thread nD τ) q fullShare xq ∗ owns (c : Thread nD τ) k fullShare xk
        ∗ owns (c : Thread nD τ) ol fullShare xl ∗ owns (c : Thread nD τ) ot fullShare xt
        ∗ owns (c : Thread nD τ) sm fullShare m0 ∗ owns (c : Thread nD τ) sl fullShare l0 ∗ owns (c : Thread nD τ) st fullShare t0
        ∗ (iprop(owns (c : Thread nD τ) q fullShare xq ∗ owns (c : Thread nD τ) k fullShare xk
            ∗ owns (c : Thread nD τ) ol fullShare (xl) ∗ owns (c : Thread nD τ) ot fullShare (xt)
            ∗ owns (c : Thread nD τ) sm fullShare (maxAfter i xq xk (k2_pay3))
            ∗ owns (c : Thread nD τ) sl fullShare (sumAfter i xq xk (k2_pay3) (k2_pay4))
            ∗ owns (c : Thread nD τ) st fullShare (labAfter i xq xk (k2_pay5))) -∗ K ⟨⟩))
      ⊢ wp frame (wpE (defs₀ (F := F)) Variants.none c none) E (cc2__lse_kernel i q hq k hk ol hol ot hot sm hsm sl hsl st hst) K := by
  sl_unfold [cc2__lse_kernel]
  unfold owns
  iintro ⟨⟨%fq, %hfq, Hq⟩, ⟨%fk, %hfk, Hk⟩, ⟨%fl, %hfl, Hl⟩, ⟨%ft, %hft, Ht⟩, ⟨%fm, %hfm, Hm⟩, ⟨%fs, %hfs, Hs⟩, ⟨%fu, %hfu, Hu⟩, HK⟩
  obtain rfl := hq.eq_unread hfq; obtain rfl := hk.eq_unread hfk
  obtain rfl := hol.eq_unread hfl; obtain rfl := hot.eq_unread hft
  obtain rfl := hsm.eq_unread hfm; obtain rfl := hsl.eq_unread hfs; obtain rfl := hst.eq_unread hfu
  sl_exec (disch := first | exact hf | exact hl)
  sl_step
  iapply HK
  isplitl [Hq]
  · iexists _; isplitr; · ipureintro; exact hq.read_unread _
    iexact Hq
  isplitl [Hk]
  · iexists _; isplitr; · ipureintro; exact hk.read_unread _
    iexact Hk
  isplitl [Hl]
  · iexists _; isplitr
    swap; · iexact Hl
    ipureintro
    exact hol.read_unread _
  isplitl [Ht]
  · iexists _; isplitr
    swap; · iexact Ht
    ipureintro
    exact hot.read_unread _
  isplitl [Hm]
  · iexists _; isplitr
    swap; · iexact Hm
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hs]
  · iexists _; isplitr
    swap; · iexact Hs
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  · iexists _; isplitr
    swap; · iexact Hu
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl

set_option maxHeartbeats 4000000 in
/-- The last column block: the carried columns move on, then the first result column takes maximum + log(sum) and the second the label logit. -/
theorem body_last (c : Dev nD) (i : grid2.Coords)
    (q : Memref sig .tc .vmem S1024x256 .bf16) (hq : q.IsWhole) (k : Memref sig .tc .vmem S8192x256 .bf16) (hk : k.IsWhole)
    (ol : Memref sig .tc .vmem S1024x1 .f32) (hol : ol.IsWhole) (ot : Memref sig .tc .vmem S1024x1 .f32) (hot : ot.IsWhole)
    (sm : Memref sig .tc .vmem S1024x1 .f32) (hsm : sm.IsWhole) (sl : Memref sig .tc .vmem S1024x1 .f32) (hsl : sl.IsWhole)
    (st : Memref sig .tc .vmem S1024x1 .f32) (hst : st.IsWhole)
    (hf : ¬atFirst i) (hl : atLast i)
    (xq : Vec F S1024x256 .bf16) (xk : Vec F S8192x256 .bf16) (xl xt m0 l0 t0 : Vec F S1024x1 .f32)
    (E : Set ℕ) (K : PUnit → sProp 𝕄) :
    iprop(owns (c : Thread nD τ) q fullShare xq ∗ owns (c : Thread nD τ) k fullShare xk
        ∗ owns (c : Thread nD τ) ol fullShare xl ∗ owns (c : Thread nD τ) ot fullShare xt
        ∗ owns (c : Thread nD τ) sm fullShare m0 ∗ owns (c : Thread nD τ) sl fullShare l0 ∗ owns (c : Thread nD τ) st fullShare t0
        ∗ (iprop(owns (c : Thread nD τ) q fullShare xq ∗ owns (c : Thread nD τ) k fullShare xk
            ∗ owns (c : Thread nD τ) ol fullShare (k2_pay2 (maxAfter i xq xk m0) (sumAfter i xq xk m0 l0)) ∗ owns (c : Thread nD τ) ot fullShare (labAfter i xq xk t0)
            ∗ owns (c : Thread nD τ) sm fullShare (maxAfter i xq xk (m0))
            ∗ owns (c : Thread nD τ) sl fullShare (sumAfter i xq xk (m0) (l0))
            ∗ owns (c : Thread nD τ) st fullShare (labAfter i xq xk (t0))) -∗ K ⟨⟩))
      ⊢ wp frame (wpE (defs₀ (F := F)) Variants.none c none) E (cc2__lse_kernel i q hq k hk ol hol ot hot sm hsm sl hsl st hst) K := by
  sl_unfold [cc2__lse_kernel]
  unfold owns
  iintro ⟨⟨%fq, %hfq, Hq⟩, ⟨%fk, %hfk, Hk⟩, ⟨%fl, %hfl, Hl⟩, ⟨%ft, %hft, Ht⟩, ⟨%fm, %hfm, Hm⟩, ⟨%fs, %hfs, Hs⟩, ⟨%fu, %hfu, Hu⟩, HK⟩
  obtain rfl := hq.eq_unread hfq; obtain rfl := hk.eq_unread hfk
  obtain rfl := hol.eq_unread hfl; obtain rfl := hot.eq_unread hft
  obtain rfl := hsm.eq_unread hfm; obtain rfl := hsl.eq_unread hfs; obtain rfl := hst.eq_unread hfu
  sl_exec (disch := first | exact hf | exact hl)
  sl_step
  iapply HK
  isplitl [Hq]
  · iexists _; isplitr; · ipureintro; exact hq.read_unread _
    iexact Hq
  isplitl [Hk]
  · iexists _; isplitr; · ipureintro; exact hk.read_unread _
    iexact Hk
  isplitl [Hl]
  · iexists _; isplitr
    swap; · iexact Hl
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Ht]
  · iexists _; isplitr
    swap; · iexact Ht
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hm]
  · iexists _; isplitr
    swap; · iexact Hm
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  isplitl [Hs]
  · iexists _; isplitr
    swap; · iexact Hs
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl
  · iexists _; isplitr
    swap; · iexact Hu
    ipureintro
    sl_unfold_words
    rw [View.read_writes_eq_canon _ _ _ (headC_covers _ _)]
    simp only [View.canon_cons_unit_zero (S := S1024x1) zeroC, View.readCov_unit_zero (S := S1024x1) _ zeroC, View.readAt_eq_ld, hq.read_unread, hk.read_unread,
      hsm.read_unread, hsl.read_unread, hst.read_unread, View.ld_unit_zero (S := S1024x256) zeroQ, View.ld_unit_zero (S := S1024x1) zeroC]
    rfl

end Cert.KernelIdeal.Hand

end
-- ==== Proof.KI.LseDat.lean ====
/-
  The streaming kernel's pipeline: which blocks its windows hold at a grid point, what the three carried columns hold
  after each point (by recursion along a row block's eight column blocks), what the two result columns are given at
  a row block's last point, the invariant that carries the columns from point to point, and the obligation that the
  body, run at any point on the current buffers, moves all of this one point on.
-/
import proofs.«119733_j80255758893848_2_alg».proof.Proof.KI.LseBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where a point sits in its row block (decided over the 64 points) -/

theorem first_iff : ∀ t : Fin cfg2.N, atFirst (grid2.coords t) ↔ t.val % 8 = 0 :=
  (by decide +kernel : ∀ t : Fin grid2.N, atFirst (grid2.coords t) ↔ t.val % 8 = 0)
theorem last_iff : ∀ t : Fin cfg2.N, atLast (grid2.coords t) ↔ t.val % 8 = 7 :=
  (by decide +kernel : ∀ t : Fin grid2.N, atLast (grid2.coords t) ↔ t.val % 8 = 7)
/-- The two input windows are handed to the body at every point. -/
theorem queries_live : ∀ t : Fin cfg2.N, cfg2.idle 0 (grid2.coords t) = false := by decide +kernel
theorem keys_live : ∀ t : Fin cfg2.N, cfg2.idle 1 (grid2.coords t) = false := by decide +kernel
/-- The two result windows are touched, and written back, at a row block's last point only. -/
theorem lse_idle : ∀ t : Fin cfg2.N, ¬t.val % 8 = 7 → cfg2.idle 2 (grid2.coords t) = true := by decide +kernel
theorem lse_unflushed : ∀ t : Fin cfg2.N, ¬t.val % 8 = 7 → (cfg2.win 2).flush t = false := by decide +kernel
theorem lse_live : ∀ t : Fin cfg2.N, t.val % 8 = 7 → cfg2.idle 2 (grid2.coords t) = false := by decide +kernel
theorem lab_idle : ∀ t : Fin cfg2.N, ¬t.val % 8 = 7 → cfg2.idle 3 (grid2.coords t) = true := by decide +kernel
theorem lab_unflushed : ∀ t : Fin cfg2.N, ¬t.val % 8 = 7 → (cfg2.win 3).flush t = false := by decide +kernel
theorem lab_live : ∀ t : Fin cfg2.N, t.val % 8 = 7 → cfg2.idle 3 (grid2.coords t) = false := by decide +kernel

/-! ## The blocks and the carried columns -/

/-- Window w's block at point t, read off its array as the region finds it: for the queries the 1024 rows of the
    point's row block, for the keys the whole array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three columns after the body at point t, from what they held before it. -/
def colsFrom (c : Dev nD) (t : Fin cfg2.N) (m l u : Vec F S1024x1 .f32) : Vec F S1024x1 .f32 × Vec F S1024x1 .f32 × Vec F S1024x1 .f32 :=
  (maxAfter (grid2.coords t) (blk2 V c 0 t) (blk2 V c 1 t) m,
   sumAfter (grid2.coords t) (blk2 V c 0 t) (blk2 V c 1 t) m l,
   labAfter (grid2.coords t) (blk2 V c 0 t) (blk2 V c 1 t) u)

/-- THE RECURRENCE: the three columns after the body at position n. At a row block's first point they restart from
    minus infinity, zero, zero; elsewhere they continue from the point before. -/
def colsAt (c : Dev nD) : (n : ℕ) → n < cfg2.N → Vec F S1024x1 .f32 × Vec F S1024x1 .f32 × Vec F S1024x1 .f32
  | 0, hn => colsFrom V c ⟨0, hn⟩ k2_pay3 k2_pay4 k2_pay5
  | n + 1, hn =>
    if (n + 1) % 8 = 0 then colsFrom V c ⟨n + 1, hn⟩ k2_pay3 k2_pay4 k2_pay5
    else colsFrom V c ⟨n + 1, hn⟩ (colsAt c n (Nat.lt_of_succ_lt hn)).1 (colsAt c n (Nat.lt_of_succ_lt hn)).2.1 (colsAt c n (Nat.lt_of_succ_lt hn)).2.2

theorem colsAt_first (c : Dev nD) (t : Fin cfg2.N) (h : t.val % 8 = 0) :
    colsAt V c t.val t.isLt = colsFrom V c t k2_pay3 k2_pay4 k2_pay5 := by
  obtain ⟨n, hn⟩ := t
  cases n with
  | zero => rfl
  | succ n => exact (if_pos h).trans rfl

theorem colsAt_next (c : Dev nD) (t : Fin cfg2.N) (h : ¬t.val % 8 = 0) :
    colsAt V c t.val t.isLt = colsFrom V c t (colsAt V c (t.val - 1) (Nat.lt_of_le_of_lt (Nat.sub_le _ _) t.isLt)).1
      (colsAt V c (t.val - 1) (Nat.lt_of_le_of_lt (Nat.sub_le _ _) t.isLt)).2.1 (colsAt V c (t.val - 1) (Nat.lt_of_le_of_lt (Nat.sub_le _ _) t.isLt)).2.2 := by
  obtain ⟨n, hn⟩ := t
  cases n with
  | zero => exact absurd (Nat.zero_mod _) h
  | succ n => exact (if_neg h).trans rfl

/-! ## The invariant: the scoped buffers no window stages, the three scratch columns among them -/

abbrev scM : Memref sig .tc .vmem S1024x1 .f32 := Memref.whole cc2_scratch0
abbrev scL : Memref sig .tc .vmem S1024x1 .f32 := Memref.whole cc2_scratch1
abbrev scT : Memref sig .tc .vmem S1024x1 .f32 := Memref.whole cc2_scratch2

/-- The other two calls' staging buffers, each at anything, beside what is said of the three scratch columns. -/
abbrev scoped2 (c : Dev nD) (P0 P1 P2 : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ P0 ∗ P1 ∗ P2)

/-- Before the first point every scratch column holds anything. -/
theorem entryInv_eq (c : Dev nD) :
    (Pipeline.ΦA spec2 c : sProp 𝕄)
      = iprop(scoped2 c iprop(∃ d, owns (c : Thread nD τ) scM fullShare d) iprop(∃ d, owns (c : Thread nD τ) scL fullShare d) iprop(∃ d, owns (c : Thread nD τ) scT fullShare d)
          ∗ (∃ r, prngReg c r)) := by
  unfold Pipeline.ΦA; rw [scopedRest2_eq]; simp only [scM, scL, scT, owns_whole]; try rfl

/-- The invariant before position n: before the first point the entry one; afterwards the three scratch columns at
    what the point before left. -/
def colsInv (c : Dev nD) : (n : ℕ) → n ≤ cfg2.N → sProp 𝕄
  | 0, _ => Pipeline.ΦA spec2 c
  | n + 1, hn => iprop(scoped2 c (owns (c : Thread nD τ) scM fullShare (colsAt V c n hn).1) (owns (c : Thread nD τ) scL fullShare (colsAt V c n hn).2.1)
      (owns (c : Thread nD τ) scT fullShare (colsAt V c n hn).2.2) ∗ (∃ r, prngReg c r))

theorem colsInv_zero (c : Dev nD) (n : ℕ) (h : n ≤ cfg2.N) (hz : n = 0) : colsInv V c n h = Pipeline.ΦA spec2 c := by
  subst hz; rfl

theorem colsInv_succ (c : Dev nD) (n : ℕ) (hn : n < cfg2.N) :
    colsInv V c (n + 1) hn = iprop(scoped2 c (owns (c : Thread nD τ) scM fullShare (colsAt V c n hn).1) (owns (c : Thread nD τ) scL fullShare (colsAt V c n hn).2.1)
      (owns (c : Thread nD τ) scT fullShare (colsAt V c n hn).2.2) ∗ (∃ r, prngReg c r)) := rfl

theorem colsInv_pos (c : Dev nD) (n : ℕ) (h : n ≤ cfg2.N) (hz : n ≠ 0) :
    colsInv V c n h = iprop(scoped2 c (owns (c : Thread nD τ) scM fullShare (colsAt V c (n - 1) (by omega)).1) (owns (c : Thread nD τ) scL fullShare (colsAt V c (n - 1) (by omega)).2.1)
      (owns (c : Thread nD τ) scT fullShare (colsAt V c (n - 1) (by omega)).2.2) ∗ (∃ r, prngReg c r)) := by
  cases n with
  | zero => exact absurd rfl hz
  | succ n => rfl

/-- Whatever is known of the scratch columns may be forgotten. -/
theorem colsInv_forget (c : Dev nD) (n : ℕ) (h : n ≤ cfg2.N) : colsInv V c n h ⊢ Pipeline.ΦA spec2 c := by
  cases n with
  | zero => exact .rfl
  | succ n =>
    rw [colsInv_succ, entryInv_eq]
    iintro ⟨⟨B1, B2, B3, B4, B5, B6, B7, B8, HM, HL, HT⟩, Hg⟩
    isplitr [Hg]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [HM]; · iexists _; iexact HM
      isplitl [HL]; · iexists _; iexact HL
      iexists _; iexact HT
    iexact Hg

/-! ## The proof data -/

/-- The proof data of the streaming pipeline on core c, entered at the buffer contents V: the arrays as found; after
    the body at point t the queries' and the keys' buffers at their blocks, the first result column at maximum + log(sum)
    of the carried columns there and the second at the carried label logit (both consulted at a row block's last
    point only); the invariant the carried columns; the two input windows read ONE array, the queries at its left half share and the keys at its right. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay2 (colsAt V c t.val t.isLt).1 (colsAt V c t.val t.isLt).2.1
    | ⟨3, _⟩ => (colsAt V c t.val t.isLt).2.2
  Φ t := colsInv V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem dat2_arr (c : Dev nD) (w : Fin cfg2.W) : (dat2 V c).A w = V c (Pipeline.arrRef spec2 w) := by
  dsimp only [dat2]
theorem dat2_keeps_queries (c : Dev nD) (t : Fin cfg2.N) : (dat2 V c).after 0 t = blk2 V c 0 t := by dsimp only [dat2]
theorem dat2_keeps_keys (c : Dev nD) (t : Fin cfg2.N) : (dat2 V c).after 1 t = blk2 V c 1 t := by dsimp only [dat2]
theorem dat2_leaves_lse (c : Dev nD) (t : Fin cfg2.N) :
    (dat2 V c).after 2 t = k2_pay2 (colsAt V c t.val t.isLt).1 (colsAt V c t.val t.isLt).2.1 := by dsimp only [dat2]
theorem dat2_leaves_lab (c : Dev nD) (t : Fin cfg2.N) : (dat2 V c).after 3 t = (colsAt V c t.val t.isLt).2.2 := by dsimp only [dat2]

theorem dat2_inv_at (c : Dev nD) (t : Fin cfg2.N) :
    (dat2 V c).Φ t.castSucc = colsInv V c t.val (Nat.le_of_lt t.isLt) := by
  dsimp only [dat2]; simp only [Fin.coe_castSucc]

/-- An input window's current buffer holds its block at every point, fetched there or not: where it is not fetched
    the block index has not moved. -/
theorem dat2_finds_queries (c : Dev nD) (t : Fin cfg2.N) (d) : (dat2 V c).before 0 t d = blk2 V c 0 t :=
  ((dat2 V c).before_in_eq_fetched 0 rfl (fun _ => rfl) (fun _ _ _ => rfl)
    (fun t => by rw [dat2_keeps_queries]; unfold Dat.blockOf blk2; rw [dat2_arr]; try rfl) t d).trans
    (by unfold Dat.fetched Dat.blockOf blk2; rw [dat2_arr]; try rfl)
theorem dat2_finds_keys (c : Dev nD) (t : Fin cfg2.N) (d) : (dat2 V c).before 1 t d = blk2 V c 1 t :=
  ((dat2 V c).before_in_eq_fetched 1 rfl (fun _ => rfl) (fun _ _ _ => rfl)
    (fun t => by rw [dat2_keeps_keys]; unfold Dat.blockOf blk2; rw [dat2_arr]; try rfl) t d).trans
    (by unfold Dat.fetched Dat.blockOf blk2; rw [dat2_arr]; try rfl)

/-! ## The body obligation -/

set_option maxHeartbeats 8000000 in
/-- The body at any point. The queries' and keys' buffers hold their blocks; the point's place in its row block says
    which of the three runs applies; the invariant hands over the three scratch columns at what the point before left
    (at anything at a row block's first point) and takes them back at this point's; the result columns' buffers are
    handed back untouched except at a row block's last point, where they receive maximum + log(sum) and the label
    logit; the core owes nothing throughout. -/
theorem lse_step (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) fun _ =>
        iprop((dat2 V c).Φ t.succ ∗ (dat2 V c).owesAt () t.succ
          ∗ (dat2 V c).leavesExact 0 t ∗ (dat2 V c).leavesExact 1 t ∗ (dat2 V c).leavesExact 2 t ∗ (dat2 V c).leavesExact 3 t) := by
  unfold bodyAt2
  simp only [dat2_finds_queries, dat2_finds_keys]
  rw [show (dat2 V c).owesAt () t.succ = (dat2 V c).owesAt () t.castSucc from rfl]
  rw [show (dat2 V c).Φ t.succ = colsInv V c (t.val + 1) t.isLt from rfl, colsInv_succ]
  rw [show (dat2 V c).leavesExact 0 t = owns (c : Thread nD τ) (st2_0 t) fullShare ((dat2 V c).after 0 t) from by
    unfold Dat.leavesExact; rw [queries_live t], dat2_keeps_queries]
  rw [show (dat2 V c).leavesExact 1 t = owns (c : Thread nD τ) (st2_1 t) fullShare ((dat2 V c).after 1 t) from by
    unfold Dat.leavesExact; rw [keys_live t], dat2_keeps_keys]
  rw [dat2_inv_at]
  have hN : t.val < 64 := lt_of_lt_of_eq t.isLt (show cfg2.N = 64 from N_2)
  by_cases h7 : t.val % 8 = 7
  · have h0 : ¬t.val % 8 = 0 := by omega
    have hz : t.val ≠ 0 := by omega
    rw [show (dat2 V c).leavesExact 2 t = owns (c : Thread nD τ) (st2_2 t) fullShare ((dat2 V c).after 2 t) from by
      unfold Dat.leavesExact; rw [lse_live t h7], dat2_leaves_lse]
    rw [show (dat2 V c).leavesExact 3 t = owns (c : Thread nD τ) (st2_3 t) fullShare ((dat2 V c).after 3 t) from by
      unfold Dat.leavesExact; rw [lab_live t h7], dat2_leaves_lab]
    rw [colsAt_next V c t h0, colsInv_pos V c _ _ hz]
    unfold colsFrom; dsimp only
    iintro ⟨⟨⟨B1, B2, B3, B4, B5, B6, B7, B8, HM, HL, HT⟩, Hg⟩, Ho, ⟨%d0, H0⟩, ⟨%d1, H1⟩, ⟨%d2, H2⟩, ⟨%d3, H3⟩⟩
    iapply (body_last c (grid2.coords t) _ _ _ _ _ _ _ _ _ _ _ _ _ _ (fun h => h0 ((first_iff t).mp h)) ((last_iff t).mpr h7) (blk2 V c 0 t) (blk2 V c 1 t) _ _ _ _ _ Set.univ _)
    isplitl [H0]; · iexact H0
    isplitl [H1]; · iexact H1
    isplitl [H2]; · iexact H2
    isplitl [H3]; · iexact H3
    isplitl [HM]; · iexact HM
    isplitl [HL]; · iexact HL
    isplitl [HT]; · iexact HT
    iintro ⟨H0, H1, H2, H3, HM, HL, HT⟩
    isplitl [B1 B2 B3 B4 B5 B6 B7 B8 HM HL HT Hg]
    · isplitr [Hg]
      · isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [HM]; · iexact HM
        isplitl [HL]; · iexact HL
        iexact HT
      iexact Hg
    isplitl [Ho]; · iexact Ho
    isplitl [H0]; · iexact H0
    isplitl [H1]; · iexact H1
    isplitl [H2]; · iexact H2
    iexact H3
  · rw [Dat.leavesExact_idle (dat2 V c) 2 t (lse_idle t h7) (lse_unflushed t h7)]
    rw [Dat.leavesExact_idle (dat2 V c) 3 t (lab_idle t h7) (lab_unflushed t h7)]
    by_cases h0 : t.val % 8 = 0
    · rw [colsAt_first V c t h0]
      unfold colsFrom; dsimp only
      by_cases hz : t.val = 0
      · rw [colsInv_zero V c _ _ hz, entryInv_eq]
        iintro ⟨⟨⟨B1, B2, B3, B4, B5, B6, B7, B8, ⟨%dm, HM⟩, ⟨%dl, HL⟩, ⟨%dt, HT⟩⟩, Hg⟩, Ho, ⟨%d0, H0⟩, ⟨%d1, H1⟩, ⟨%d2, H2⟩, ⟨%d3, H3⟩⟩
        iapply (body_first c (grid2.coords t) _ _ _ _ _ _ _ _ _ _ _ _ _ _ ((first_iff t).mpr h0) (fun h => h7 ((last_iff t).mp h)) (blk2 V c 0 t) (blk2 V c 1 t) _ _ _ _ _ Set.univ _)
        isplitl [H0]; · iexact H0
        isplitl [H1]; · iexact H1
        isplitl [H2]; · iexact H2
        isplitl [H3]; · iexact H3
        isplitl [HM]; · iexact HM
        isplitl [HL]; · iexact HL
        isplitl [HT]; · iexact HT
        iintro ⟨H0, H1, H2, H3, HM, HL, HT⟩
        isplitl [B1 B2 B3 B4 B5 B6 B7 B8 HM HL HT Hg]
        · isplitr [Hg]
          · isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [HM]; · iexact HM
            isplitl [HL]; · iexact HL
            iexact HT
          iexact Hg
        isplitl [Ho]; · iexact Ho
        isplitl [H0]; · iexact H0
        isplitl [H1]; · iexact H1
        isplitl [H2]; · iexists _; iexact H2
        iexists _; iexact H3
      · rw [colsInv_pos V c _ _ hz]
        iintro ⟨⟨⟨B1, B2, B3, B4, B5, B6, B7, B8, HM, HL, HT⟩, Hg⟩, Ho, ⟨%d0, H0⟩, ⟨%d1, H1⟩, ⟨%d2, H2⟩, ⟨%d3, H3⟩⟩
        iapply (body_first c (grid2.coords t) _ _ _ _ _ _ _ _ _ _ _ _ _ _ ((first_iff t).mpr h0) (fun h => h7 ((last_iff t).mp h)) (blk2 V c 0 t) (blk2 V c 1 t) _ _ _ _ _ Set.univ _)
        isplitl [H0]; · iexact H0
        isplitl [H1]; · iexact H1
        isplitl [H2]; · iexact H2
        isplitl [H3]; · iexact H3
        isplitl [HM]; · iexact HM
        isplitl [HL]; · iexact HL
        isplitl [HT]; · iexact HT
        iintro ⟨H0, H1, H2, H3, HM, HL, HT⟩
        isplitl [B1 B2 B3 B4 B5 B6 B7 B8 HM HL HT Hg]
        · isplitr [Hg]
          · isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [HM]; · iexact HM
            isplitl [HL]; · iexact HL
            iexact HT
          iexact Hg
        isplitl [Ho]; · iexact Ho
        isplitl [H0]; · iexact H0
        isplitl [H1]; · iexact H1
        isplitl [H2]; · iexists _; iexact H2
        iexists _; iexact H3
    · have hz : t.val ≠ 0 := fun e => h0 (by rw [e])
      rw [colsAt_next V c t h0, colsInv_pos V c _ _ hz]
      unfold colsFrom; dsimp only
      iintro ⟨⟨⟨B1, B2, B3, B4, B5, B6, B7, B8, HM, HL, HT⟩, Hg⟩, Ho, ⟨%d0, H0⟩, ⟨%d1, H1⟩, ⟨%d2, H2⟩, ⟨%d3, H3⟩⟩
      iapply (body_mid c (grid2.coords t) _ _ _ _ _ _ _ _ _ _ _ _ _ _ (fun h => h0 ((first_iff t).mp h)) (fun h => h7 ((last_iff t).mp h)) (blk2 V c 0 t) (blk2 V c 1 t) _ _ _ _ _ Set.univ _)
      isplitl [H0]; · iexact H0
      isplitl [H1]; · iexact H1
      isplitl [H2]; · iexact H2
      isplitl [H3]; · iexact H3
      isplitl [HM]; · iexact HM
      isplitl [HL]; · iexact HL
      isplitl [HT]; · iexact HT
      iintro ⟨H0, H1, H2, H3, HM, HL, HT⟩
      isplitl [B1 B2 B3 B4 B5 B6 B7 B8 HM HL HT Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HM]; · iexact HM
          isplitl [HL]; · iexact HL
          iexact HT
        iexact Hg
      isplitl [Ho]; · iexact Ho
      isplitl [H0]; · iexact H0
      isplitl [H1]; · iexact H1
      isplitl [H2]; · iexists _; iexact H2
      iexists _; iexact H3

/-- The obligation the pipeline's rule asks, at every point. -/
theorem lse_obligation (c : Dev nD) : BodyObligation (dat2 (F := F) V c) (defs₀ (F := F)) Variants.none () Set.univ := fun t => by
  rw [bigSep_W2, bigSep_W2]
  exact lse_step V c t

/-- What the launch hands the region is the invariant before the first point. -/
theorem lse_inv_in (c : Dev nD) : Pipeline.ΦA spec2 c ⊢ (dat2 V c).Φ 0 := by
  rw [show (dat2 V c).Φ 0 = colsInv V c 0 (Nat.zero_le _) from rfl, colsInv_zero V c 0 _ rfl]
  try exact Idealize.SL.BI.Entails.refl _

/-- After the last point the invariant gives the launch's back: what the scratch columns hold is forgotten. -/
theorem lse_inv_out (c : Dev nD) : (dat2 V c).Φ (Fin.last cfg2.N) ⊢ Pipeline.ΦA spec2 c := by
  rw [show (dat2 V c).Φ (Fin.last cfg2.N) = colsInv V c (Fin.last cfg2.N).val (Nat.le_of_lt_succ (Fin.last cfg2.N).isLt) from rfl]
  exact colsInv_forget V c _ _

end Cert.KernelIdeal.Hand

end
-- ==== Proof.KI.Program.lean ====
/-
  The whole program as its five segments — the two normalisation calls, the concatenation of their results, the
  streaming call, the final sum and quotient — with what every unscoped buffer holds between segments, each call's
  proof data at the contents it is entered with, and each call as a region entered from "every unscoped buffer at
  the contents so far" and left at the contents its write-backs give.
-/
import proofs.«119733_j80255758893848_2_alg».proof.Proof.KI.Norm0
import proofs.«119733_j80255758893848_2_alg».proof.Proof.KI.Norm1
import proofs.«119733_j80255758893848_2_alg».proof.Proof.KI.LseDat
import proofs.«119733_j80255758893848_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the unscoped buffers hold between segments -/

/-- A valuation of every device buffer read at the TensorCore's references: what a call's proof data take. -/
abbrev atTc (W : Dev nD → Valuation τ sig (Elt F)) : (c : Dev nD) → (b : Ref sig .tc) → Buf (Elt F) ((c : Thread nD τ).loc b) :=
  fun c b => W c b

/-- At launch. -/
abbrev atLaunch : Dev nD → Valuation τ sig (Elt F) := fun c b => m (c, b)
/-- After the first normalisation call: its output array at what its four write-backs leave, the rest as before. -/
def afterNorm0 (c : Dev nD) : Valuation τ sig (Elt F) :=
  Pipeline.withArrays spec0 c (atLaunch m c) fun w => (normDat0 (atTc (atLaunch m)) c).arrAt w cfg0.N
/-- After the second. -/
def afterNorm1 (c : Dev nD) : Valuation τ sig (Elt F) :=
  Pipeline.withArrays spec1 c (afterNorm0 m c) fun w => (normDat1 (atTc (afterNorm0 m)) c).arrAt w cfg1.N
/-- After the concatenation of the two normalised arrays. -/
abbrev afterConcat : Dev nD → Valuation τ sig (Elt F) := fun c => StableHlo.after hostOps2 (afterNorm1 m c)
/-- After the streaming call: its two result columns at what its write-backs leave, the rest as before. -/
def afterLse (c : Dev nD) : Valuation τ sig (Elt F) :=
  Function.update (Function.update (afterConcat m c) main_v3_0 ((dat2 (atTc (afterConcat m)) c).arrAt 2 cfg2.N))
    main_v3_1 ((dat2 (atTc (afterConcat m)) c).arrAt 3 cfg2.N)
/-- After the final reshapes, difference, sum and quotient. -/
abbrev atEnd : Dev nD → Valuation τ sig (Elt F) := fun c => StableHlo.after hostOps3 (afterLse m c)

theorem afterNorm0_arr (c : Dev nD) (w : Fin cfg0.W) :
    afterNorm0 m c (Proc.devRef .tc (Pipeline.arrRef spec0 w)) = (normDat0 (atTc (atLaunch m)) c).arrAt w cfg0.N := by
  unfold afterNorm0; exact Pipeline.withArrays_arr spec0 launch0.win.arr_inj c _ _ w
theorem afterNorm0_else (c : Dev nD) (b : Ref sig .tc) (hb : ∀ w, Pipeline.arrRef spec0 w ≠ b) :
    afterNorm0 m c (Proc.devRef .tc b) = atLaunch m c (Proc.devRef .tc b) := by
  unfold afterNorm0; exact Pipeline.withArrays_of_ne spec0 c _ _ b hb
theorem afterNorm1_arr (c : Dev nD) (w : Fin cfg1.W) :
    afterNorm1 m c (Proc.devRef .tc (Pipeline.arrRef spec1 w)) = (normDat1 (atTc (afterNorm0 m)) c).arrAt w cfg1.N := by
  unfold afterNorm1; exact Pipeline.withArrays_arr spec1 launch1.win.arr_inj c _ _ w
theorem afterNorm1_else (c : Dev nD) (b : Ref sig .tc) (hb : ∀ w, Pipeline.arrRef spec1 w ≠ b) :
    afterNorm1 m c (Proc.devRef .tc b) = afterNorm0 m c (Proc.devRef .tc b) := by
  unfold afterNorm1; exact Pipeline.withArrays_of_ne spec1 c _ _ b hb

/-! ## The proof data family and what rides beside the buffers -/

/-- Each call's proof data at the contents it is entered with. -/
def pdats : (p : Fin 3) → (c : Dev nD) → Dat τ (Elt F) Unit ℕ (UR sig nD τ) ℕ (Pipeline.pin (pcfgs (F := F)) adm p) c
  | ⟨0, _⟩ => fun c => normDat0 (atTc (atLaunch m)) c
  | ⟨1, _⟩ => fun c => normDat1 (atTc (afterNorm0 m)) c
  | ⟨2, _⟩ => fun c => dat2 (atTc (afterConcat m)) c

abbrev noVariants : Variants := Variants.none
/-- No core owes another anything: no level is assigned. -/
abbrev noLevels : GSem nD τ sig → Finset Unit := fun _ => ∅
abbrev levelZero : GSem nD τ sig → Unit → ℕ := fun _ _ => 0

/-- Beside the buffers, through every segment: the generator register at some state, and the core owing nothing. -/
abbrev riding (c : Dev nD) : sProp 𝕄 :=
  iprop((∃ r, prngReg c r) ∗ ∃ W, owes (c : Thread nD τ) (0 : CellTallies nD τ sig Unit) W)

/-- A core that owes nothing, as a pipeline's first point sees it, for proof data that owe nothing. -/
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩
  iexists W
  isplitr
  · ipureintro; exact fun _ _ => Or.inl trivial
  iexact HO
/-- And back, after its last point. -/
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩
  iexists W
  iexact HO

/-- No call prefetches a table. -/
theorem no_tables (p : Fin 3) (c : Dev nD) (q) (pf) :
    (Pipeline.prefHeld (Ix := Unit) (Name := ℕ) (U := UR sig nD τ) (Lvl := ℕ) (Val := Elt F) (pcfgs (F := F) p).pre c q pf : sProp 𝕄) = BI.emp := by
  unfold Pipeline.prefHeld; rw [show (Finset.univ : Finset (Fin 0)) = ∅ from rfl, BI.bigSep_empty]

-- a library lemma stated over the pinned configuration meets the printed one only when unification may unfold
-- plain definitions in a metavariable's type
set_option backward.isDefEq.respectTransparency.types false in
/-- Normalisation call 0 as a region: entered with every unscoped buffer at the contents so far, its two arrays
    taken out of them and put back with the output at its write-backs' contents; the generator register passes through
    the call's invariant; nothing is owed. -/
def normRegion0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (norm_obligation0 (atTc (atLaunch m)) c).loose
  hwaits := Pipeline.hwaits_of_owed_zero _ _ _ _ noLevels levelZero 0 fun _ _ => rfl
  pre c := iprop(StableHlo.held (c : Thread nD τ) (Pipeline.ucRefs τ sig) (atLaunch m c) ∗ riding c)
  post c := iprop(StableHlo.held (c : Thread nD τ) (Pipeline.ucRefs τ sig) (afterNorm0 m c) ∗ riding c)
  X c := iprop(∃ r, prngReg c r)
  Y c := iprop(∃ r, prngReg c r)
  Z c := Pipeline.unscopedRest (Ix := Unit) (Name := ℕ) (U := UR sig nD τ) (Lvl := ℕ) spec0 c (atTc (atLaunch m) c)
  hentry c := by
    rw [Pipeline.ownSems0_none, no_tables]
    have take := Pipeline.arrays_of_unscopedBufs (p := 0) (pcfgs (F := F)) adm (pdats m) launch0.win launch0.arr_whole c
      ((pdats m 0 c).share_full fun _ => rfl) (atTc (atLaunch m) c) fun _ => rfl
    rw [Pipeline.unscopedBufs_held] at take
    iintro ⟨⟨Hbufs, Hgen, Howes⟩, -, -⟩
    ihave Hsplit := take $$ Hbufs
    icases Hsplit with ⟨Harr, Hrest⟩
    imodintro
    isplitl [Harr]; · iexact Harr
    isplitr; · iempintro
    isplitl [Howes]; · iapply (owes_in (pdats m 0 c) 0 rfl rfl); iexact Howes
    isplitl [Hgen]; · iexact Hgen
    iexact Hrest
  hin c := by
    rw [no_tables, show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have put := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (atLaunch m) c) (atTc (afterNorm0 m) c) ((pdats m 0 c).arrAt · cfg0.N)
      (fun w => (afterNorm0_arr m c w).symm)
      (fun b hb => afterNorm0_else m c b fun w e => hb (Finset.mem_image.mpr ⟨w, Finset.mem_univ _, e⟩))
    rw [Pipeline.unscopedBufs_held] at put
    iintro ⟨Harr, Howes, Hgen, Hrest⟩
    imodintro
    isplitl [Harr Hrest]
    · iapply put
      isplitl [Harr]; · iexact Harr
      iexact Hrest
    isplitl [Hgen]; · iexact Hgen
    iapply (owes_out (pdats m 0 c) _ rfl); iexact Howes

-- a library lemma stated over the pinned configuration meets the printed one only when unification may unfold
-- plain definitions in a metavariable's type
set_option backward.isDefEq.respectTransparency.types false in
/-- Normalisation call 1 as a region: entered with every unscoped buffer at the contents so far, its two arrays
    taken out of them and put back with the output at its write-backs' contents; the generator register passes through
    the call's invariant; nothing is owed. -/
def normRegion1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (norm_obligation1 (atTc (afterNorm0 m)) c).loose
  hwaits := Pipeline.hwaits_of_owed_zero _ _ _ _ noLevels levelZero 1 fun _ _ => rfl
  pre c := iprop(StableHlo.held (c : Thread nD τ) (Pipeline.ucRefs τ sig) (afterNorm0 m c) ∗ riding c)
  post c := iprop(StableHlo.held (c : Thread nD τ) (Pipeline.ucRefs τ sig) (afterNorm1 m c) ∗ riding c)
  X c := iprop(∃ r, prngReg c r)
  Y c := iprop(∃ r, prngReg c r)
  Z c := Pipeline.unscopedRest (Ix := Unit) (Name := ℕ) (U := UR sig nD τ) (Lvl := ℕ) spec1 c (atTc (afterNorm0 m) c)
  hentry c := by
    rw [Pipeline.ownSems0_none, no_tables]
    have take := Pipeline.arrays_of_unscopedBufs (p := 1) (pcfgs (F := F)) adm (pdats m) launch1.win launch1.arr_whole c
      ((pdats m 1 c).share_full fun _ => rfl) (atTc (afterNorm0 m) c) fun _ => rfl
    rw [Pipeline.unscopedBufs_held] at take
    iintro ⟨⟨Hbufs, Hgen, Howes⟩, -, -⟩
    ihave Hsplit := take $$ Hbufs
    icases Hsplit with ⟨Harr, Hrest⟩
    imodintro
    isplitl [Harr]; · iexact Harr
    isplitr; · iempintro
    isplitl [Howes]; · iapply (owes_in (pdats m 1 c) 0 rfl rfl); iexact Howes
    isplitl [Hgen]; · iexact Hgen
    iexact Hrest
  hin c := by
    rw [no_tables, show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    have put := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (afterNorm0 m) c) (atTc (afterNorm1 m) c) ((pdats m 1 c).arrAt · cfg1.N)
      (fun w => (afterNorm1_arr m c w).symm)
      (fun b hb => afterNorm1_else m c b fun w e => hb (Finset.mem_image.mpr ⟨w, Finset.mem_univ _, e⟩))
    rw [Pipeline.unscopedBufs_held] at put
    iintro ⟨Harr, Howes, Hgen, Hrest⟩
    imodintro
    isplitl [Harr Hrest]
    · iapply put
      isplitl [Harr]; · iexact Harr
      iexact Hrest
    isplitl [Hgen]; · iexact Hgen
    iapply (owes_out (pdats m 1 c) _ rfl); iexact Howes

/-! ## The streaming call as a region: one array behind two windows -/

/-- The distinct buffers behind the streaming call's four windows, one by one. -/
theorem lse_buffers_listed (c : Dev nD) (W : (b : Ref sig .tc) → Buf (Elt F) ((c : Thread nD τ).loc b)) :
    (Pipeline.arrBufs (Ix := Unit) (Name := ℕ) (U := UR sig nD τ) (Lvl := ℕ) (cfgs (2 : Fin 3)).spec c W : sProp 𝕄)
      = iprop((((c : Thread nD τ).loc main_v2) ↦{fullShare} W main_v2) ∗ (((c : Thread nD τ).loc main_v3_0) ↦{fullShare} W main_v3_0)
          ∗ (((c : Thread nD τ).loc main_v3_1) ↦{fullShare} W main_v3_1)) := by
  unfold Pipeline.arrBufs
  exact bigSep_eq_bigSepL_of_eq [main_v2, main_v3_0, main_v3_1] (by decide) (by decide) _

/-- The four windows' arrays as the pipeline holds them: the normalised array twice, at the left half share for the
    queries and the right half for the keys; each result column whole. -/
theorem lse_arrays_open (V : (c : Dev nD) → (b : Ref sig .tc) → Buf (Elt F) ((c : Thread nD τ).loc b)) (c : Dev nD)
    (Fa : (w : Fin cfg2.W) → Buf (Elt F) ((cfg2.win w).arr.view.loc (c : Thread nD τ))) :
    ((dat2 V c).arrays Fa : sProp 𝕄)
      = iprop((((c : Thread nD τ).loc main_v2) ↦{fullShare.left} Fa 0) ∗ (((c : Thread nD τ).loc main_v2) ↦{fullShare.right} Fa 1)
          ∗ (((c : Thread nD τ).loc main_v3_0) ↦{fullShare} Fa 2) ∗ (((c : Thread nD τ).loc main_v3_1) ↦{fullShare} Fa 3)) := by
  unfold Dat.arrays
  rw [bigSep_W2, (arr_whole2 0).set_eq_univ, (arr_whole2 2).set_eq_univ, (arr_whole2 3).set_eq_univ]
  rfl

theorem afterLse_lse (c : Dev nD) : afterLse m c (Proc.devRef .tc main_v3_0) = (dat2 (atTc (afterConcat m)) c).arrAt 2 cfg2.N := by
  unfold afterLse
  rw [Function.update_of_ne (StableHlo.devRef_ne_of_ne (by decide) : (Proc.devRef .tc main_v3_0 : DevRef τ sig) ≠ Proc.devRef .tc main_v3_1), Function.update_self]
theorem afterLse_lab (c : Dev nD) : afterLse m c (Proc.devRef .tc main_v3_1) = (dat2 (atTc (afterConcat m)) c).arrAt 3 cfg2.N := by
  unfold afterLse
  rw [Function.update_self]
theorem afterLse_else (c : Dev nD) (b : Ref sig .tc) (h0 : b ≠ main_v3_0) (h1 : b ≠ main_v3_1) :
    afterLse m c (Proc.devRef .tc b) = afterConcat m c (Proc.devRef .tc b) := by
  unfold afterLse
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]

/-- The buffers that are no array of the streaming call hold after it what they held before. -/
theorem lse_rest_same (c : Dev nD) :
    (Pipeline.unscopedRest (Ix := Unit) (Name := ℕ) (U := UR sig nD τ) (Lvl := ℕ) (cfgs (2 : Fin 3)).spec c (atTc (afterLse m) c) : sProp 𝕄)
      = Pipeline.unscopedRest spec2 c (atTc (afterConcat m) c) := by
  unfold Pipeline.unscopedRest
  refine bigSep_congr fun b hb => ?_
  have hb' := (Finset.mem_sdiff.mp hb).2
  rw [show atTc (afterLse m) c b = atTc (afterConcat m) c b from afterLse_else m c b
    (fun e => hb' (Finset.mem_image.mpr ⟨2, Finset.mem_univ _, e ▸ rfl⟩)) (fun e => hb' (Finset.mem_image.mpr ⟨3, Finset.mem_univ _, e ▸ rfl⟩))]

-- a library lemma stated over the pinned configuration meets the printed one only when unification may unfold
-- plain definitions in a metavariable's type
set_option backward.isDefEq.respectTransparency.types false in
/-- The streaming call as a region. On entry the normalised array is split into its two half shares, one per input
    window; on exit the halves, both still at the array's contents, are joined again, and the two result columns are
    at what the write-backs of the row blocks' last points leave. -/
def lseRegion : Pipeline.RegionSeg (pcfgs (F := F)) adm (pdats m) () defs₀ noVariants noLevels levelZero 2 where
  win := winFacts₀2
  block_pos := block_pos2
  stage_whole := stage_whole2
  K := PEmpty
  osem k := k.elim
  ho := Pipeline.OwnSemFacts.none _
  hbody c := (lse_obligation (atTc (afterConcat m)) c).loose
  hwaits := Pipeline.hwaits_of_owed_zero _ _ _ _ noLevels levelZero 2 fun _ _ => rfl
  pre c := iprop(StableHlo.held (c : Thread nD τ) (Pipeline.ucRefs τ sig) (afterConcat m c) ∗ riding c)
  post c := iprop(StableHlo.held (c : Thread nD τ) (Pipeline.ucRefs τ sig) (afterLse m c) ∗ riding c)
  X c := iprop(∃ r, prngReg c r)
  Y c := iprop(∃ r, prngReg c r)
  Z c := Pipeline.unscopedRest (Ix := Unit) (Name := ℕ) (U := UR sig nD τ) (Lvl := ℕ) spec2 c (atTc (afterConcat m) c)
  hentry c := by
    rw [Pipeline.ownSems0_none, no_tables, ← Pipeline.unscopedBufs_held,
      Pipeline.unscopedBufs_split₀ (Ix := Unit) (Name := ℕ) (U := UR sig nD τ) (Lvl := ℕ) cfgs (2 : Fin 3) winFacts₀2.arr_unscoped c (atTc (afterConcat m) c),
      lse_buffers_listed, show (pdats m 2 c).arrays ((pdats m 2 c).arrAt · 0) = (dat2 (atTc (afterConcat m)) c).arrays ((dat2 (atTc (afterConcat m)) c).arrAt · 0) from rfl,
      lse_arrays_open]
    iintro ⟨⟨⟨⟨Hreps, Hlse, Hlab⟩, Hrest⟩, Hgen, Howes⟩, -, -⟩
    ihave Hhalves := (pointsTo_share (PosShare.mem_left_op_right fullShare)).1 $$ Hreps
    icases Hhalves with ⟨Hq, Hk⟩
    imodintro
    isplitl [Hq Hk Hlse Hlab]
    · isplitl [Hq]; · iexact Hq
      isplitl [Hk]; · iexact Hk
      isplitl [Hlse]; · iexact Hlse
      iexact Hlab
    isplitr; · iempintro
    isplitl [Howes]; · iapply (owes_in (pdats m 2 c) 0 rfl rfl); iexact Howes
    isplitl [Hgen]; · iexact Hgen
    iexact Hrest
  hin c := by
    rw [no_tables]
    refine BIBase.Entails.trans ?_ (lse_inv_in (atTc (afterConcat m)) c)
    unfold Pipeline.ΦA
    iintro ⟨Hgen, -, Hscoped⟩
    isplitl [Hscoped]; · iexact Hscoped
    iexact Hgen
  hout c := by
    rw [Pipeline.ownSems0_none]
    refine (lse_inv_out (atTc (afterConcat m)) c).trans ?_
    unfold Pipeline.ΦA
    iintro ⟨Hscoped, Hgen⟩
    isplitl [Hgen]; · iexact Hgen
    isplitr; · iempintro
    iexact Hscoped
  hexit c := by
    rw [show (pdats m 2 c).arrays ((pdats m 2 c).arrAt · (Pipeline.pin (pcfgs (F := F)) adm 2).N)
        = (dat2 (atTc (afterConcat m)) c).arrays ((dat2 (atTc (afterConcat m)) c).arrAt · cfg2.N) from rfl,
      lse_arrays_open, ← Pipeline.unscopedBufs_held,
      Pipeline.unscopedBufs_split₀ (Ix := Unit) (Name := ℕ) (U := UR sig nD τ) (Lvl := ℕ) cfgs (2 : Fin 3) winFacts₀2.arr_unscoped c (atTc (afterLse m) c),
      lse_buffers_listed, lse_rest_same,
      show atTc (afterLse m) c main_v3_0 = (dat2 (atTc (afterConcat m)) c).arrAt 2 cfg2.N from afterLse_lse m c,
      show atTc (afterLse m) c main_v3_1 = (dat2 (atTc (afterConcat m)) c).arrAt 3 cfg2.N from afterLse_lab m c,
      show atTc (afterLse m) c main_v2 = atTc (afterConcat m) c main_v2 from afterLse_else m c main_v2 (by decide) (by decide),
      (dat2 (atTc (afterConcat m)) c).arrAt_in 0 rfl cfg2.N, (dat2 (atTc (afterConcat m)) c).arrAt_in 1 rfl cfg2.N,
      dat2_arr, dat2_arr]
    iintro ⟨⟨Hq, Hk, Hlse, Hlab⟩, Howes, Hgen, Hrest⟩
    ihave Hreps := (pointsTo_share (PosShare.mem_left_op_right fullShare)).2 $$ [Hq Hk]
    · isplitl [Hq]; · iexact Hq
      iexact Hk
    imodintro
    isplitl [Hreps Hlse Hlab Hrest]
    · isplitl [Hreps Hlse Hlab]
      · isplitl [Hreps]; · iexact Hreps
        isplitl [Hlse]; · iexact Hlse
        iexact Hlab
      iexact Hrest
    isplitl [Hgen]; · iexact Hgen
    iapply (owes_out (pdats m 2 c) _ rfl); iexact Howes

/-! ## The run -/

variable (ρ : Dev nD → PrngReg)

/-- A stretch of host operations as a segment over every unscoped buffer, the generator register and the core's
    tallies riding along. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- The program's five segments, in order. -/
abbrev segments : List (Pipeline.Seg (pcfgs (F := F)) adm (pdats m) () defs₀ noVariants noLevels levelZero) :=
  [ .region (normRegion0 m), .region (normRegion1 m),
    .host (hostStretch hostOps2 hostOps2_sub hostOps2_fresh (afterNorm1 m)),
    .region (lseRegion m),
    .host (hostStretch hostOps3 hostOps3_sub hostOps3_fresh (afterLse m)) ]

/-- The printed program is the run of the five segments. -/
theorem main_is_segments (c : Dev nD) : main (F := F) c = Pipeline.Seg.run (segments m) :=
  (main_chain c).trans (by chain_rfl)

theorem unscoped_mem (b : Ref sig .tc) (h : ¬(Proc.devRef .tc b : DevRef τ sig).isScoped) :
    Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- From any memory with zero counters every weakly fair execution of the program terminates, nothing faulting, and
    every final state has every unscoped buffer at the contents the five segments leave. -/
theorem run_all : θ_run defs (onTc (τ := τ) (main (F := F))) ⟨m, fun _ => 0, ρ⟩
    (fun r => ∀ c : Dev nD, ∀ b ∈ Pipeline.ucRefs τ sig, r.2.mem ((c : Thread nD τ).1, b) = atEnd m c b) :=
  Pipeline.θ_run_regions_kit (pcfgs (F := F)) adm (pdats m) () cellOf_inj emb₁ defs₀ noVariants noLevels levelZero m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hlaunch
      imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      have nothing : (BI.emp : sProp 𝕄) ⊢ bigSep Finset.univ (fun _ : Dev nD => (BI.emp : sProp 𝕄)) := by rw [BI.bigSep_emp_const]
      iapply nothing
      iempintro)
    (T₀ := fun c => iprop(StableHlo.held (c : Thread nD τ) (Pipeline.ucRefs τ sig) (atLaunch m c) ∗ riding c))
    (Tₙ := fun c => iprop(StableHlo.held (c : Thread nD τ) (Pipeline.ucRefs τ sig) (atEnd m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (atEnd m c) ∗ riding c)
        ⊢ iprop(iprop(StableHlo.held (c : Thread nD τ) (Pipeline.ucRefs τ sig) (atEnd m c) ∗ ∃ r, prngReg c r)
            ∗ ∃ W, owes (c : Thread nD τ) (0 : CellTallies nD τ sig Unit) W)
      iintro ⟨Hbufs, Hgen, Howes⟩
      isplitr [Howes]
      · isplitl [Hbufs]; · iexact Hbufs
        iexact Hgen
      iexact Howes⟩)
    (hinit := by
      refine Pipeline.initEach noLevels levelZero fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem ((c : Thread nD τ).1, b) = atEnd m c b)
    (hfin := fun c s' => by
      iintro ⟨⟨Hbufs, -⟩, Hstate⟩
      unfold StableHlo.held
      imodintro
      iapply (pointsTo_read_all (Pipeline.ucRefs τ sig) (fun b => ((c : Thread nD τ).1, b)) (atEnd m c) s')
      isplitl [Hbufs]; · iexact Hbufs
      iexact Hstate)
    (hQ := fun s h c => h c)

/-! ## The arguments end as launched; the result ends at the last segment's contents -/

/-- No host stretch writes the first argument and no call may change it: it is the first call's INPUT array. -/
theorem atEnd_keeps_arg0 (c : Dev nD) : atEnd m c (Proc.devRef .tc main_arg0) = m ((c : Thread nD τ).loc main_arg0) :=
  calc atEnd m c (Proc.devRef .tc main_arg0)
    _ = afterLse m c (Proc.devRef .tc main_arg0) := StableHlo.after_of_writes_sub hostOps3 _ hostOps3_writes (by decide)
    _ = afterConcat m c (Proc.devRef .tc main_arg0) := afterLse_else m c main_arg0 (by decide) (by decide)
    _ = afterNorm1 m c (Proc.devRef .tc main_arg0) := StableHlo.after_of_writes_sub hostOps2 _ hostOps2_writes (by decide)
    _ = afterNorm0 m c (Proc.devRef .tc main_arg0) := afterNorm1_else m c main_arg0 (by decide)
    _ = (normDat0 (atTc (atLaunch m)) c).arrAt 0 cfg0.N := afterNorm0_arr m c 0
    _ = m ((c : Thread nD τ).loc main_arg0) :=
        ((normDat0 (atTc (atLaunch m)) c).arrAt_in 0 rfl _).trans (normDat0_arr (atTc (atLaunch m)) c 0)

/-- Likewise the second argument: the second call's input array. -/
theorem atEnd_keeps_arg1 (c : Dev nD) : atEnd m c (Proc.devRef .tc main_arg1) = m ((c : Thread nD τ).loc main_arg1) :=
  calc atEnd m c (Proc.devRef .tc main_arg1)
    _ = afterLse m c (Proc.devRef .tc main_arg1) := StableHlo.after_of_writes_sub hostOps3 _ hostOps3_writes (by decide)
    _ = afterConcat m c (Proc.devRef .tc main_arg1) := afterLse_else m c main_arg1 (by decide) (by decide)
    _ = afterNorm1 m c (Proc.devRef .tc main_arg1) := StableHlo.after_of_writes_sub hostOps2 _ hostOps2_writes (by decide)
    _ = (normDat1 (atTc (afterNorm0 m)) c).arrAt 0 cfg1.N := afterNorm1_arr m c 0
    _ = afterNorm0 m c (Proc.devRef .tc main_arg1) :=
        ((normDat1 (atTc (afterNorm0 m)) c).arrAt_in 0 rfl _).trans (normDat1_arr (atTc (afterNorm0 m)) c 0)
    _ = m ((c : Thread nD τ).loc main_arg1) := afterNorm0_else m c main_arg1 (by decide)

/-- THE FRAME, at any instance: the program runs to the end, nothing faults, both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (unscoped_mem main_arg0 (by decide))).trans (atEnd_keeps_arg0 m c),
     (h c _ (unscoped_mem main_arg1 (by decide))).trans (atEnd_keeps_arg1 m c)⟩) (run_all m ρ)

/-- The same run with the result buffer read too. -/
theorem run_result : θ_run defs (onTc (τ := τ) (main (F := F))) ⟨m, fun _ => 0, ρ⟩ (fun r => ∀ c : Dev nD,
      r.2.mem ((c.tc : Thread nD τ).loc main_v8) = atEnd m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (unscoped_mem main_v8 (by decide)),
     (h c _ (unscoped_mem main_arg0 (by decide))).trans (atEnd_keeps_arg0 m c),
     (h c _ (unscoped_mem main_arg1 (by decide))).trans (atEnd_keeps_arg1 m c)⟩) (run_all m ρ)

end Cert.KernelIdeal.Hand

end
-- ==== Proof.Spec.lean ====
/-
  The two arrangements of the contrastive loss, as functions of the two argument arrays on the extended reals.

  Rows: each of the 8192 rows (the 4096 rows of the first array, then the 4096 of the second) is divided by
  max(sqrt(sum of its squares), eps).  Logits: the inner products of the normalised rows, doubled on one side
  (times 2) and halved on the other (divided by 1/2).  The label of row r is column 2r for r < 4096 and column
  2(r - 4096) + 1 otherwise.

  The streaming arrangement walks the 8192 columns of a row in 8 blocks of 1024, carrying a running maximum m, a
  running sum l of exp(logit - m) rescaled by exp(m_old - m_new) at each block, and the sum t of the logits at the
  label column; the row's term is (m + log l) - t, and the loss is the sum of the terms over 8192.

  The direct arrangement takes each row's maximum M over all 8192 columns, the row's term
  (logit at the label - M) - log (sum of exp(logit - M)), and the loss is minus the sum of the terms over 8192.
-/
import Mathlib.Data.EReal.Basic
import Mathlib.Algebra.BigOperators.Fin
import Mathlib.Analysis.SpecialFunctions.Log.Basic
import Idealize.ShloMosaic.PureOps.Ideal

noncomputable section

namespace Cert.NtXent

open Idealize.ShloMosaic

/-- The literals of the two programs, as the extended reals their words denote. -/
abbrev eps : EReal := Ideal.ofBits .f32 0x2B8CBCCC#32
abbrev two : EReal := Ideal.ofBits .f32 0x40000000#32
abbrev half : EReal := Ideal.ofBits .f32 0x3F000000#32
abbrev n8192 : EReal := Ideal.ofBits .f32 0x46000000#32
abbrev ninf : EReal := Ideal.ofBits .f32 0xFF800000#32

/-- A row's divisor: max(sqrt(sum of squares), eps). -/
def nrm (x : Fin 256 → EReal) : EReal := max (Ideal.sqrt (∑ k, x k * x k)) eps

/-- A normalised row. -/
def unit (x : Fin 256 → EReal) (d : Fin 256) : EReal := Ideal.div (x d) (nrm x)

/-- The 8192 normalised rows: the first array's, then the second's. -/
def reps (zi zj : Fin 4096 → Fin 256 → EReal) (r : Fin 8192) : Fin 256 → EReal :=
  if h : r.val < 4096 then unit (zi ⟨r.val, h⟩) else unit (zj ⟨r.val - 4096, by omega⟩)

/-- The inner product of two rows. -/
def dot (u v : Fin 256 → EReal) : EReal := ∑ k, u k * v k

/-- The label column of a row. -/
def label (r : Fin 8192) : Fin 8192 :=
  if h : r.val < 4096 then ⟨2 * r.val, by omega⟩ else ⟨2 * (r.val - 4096) + 1, by omega⟩

/-- Column c of block j. -/
def col (j : Fin 8) (c : Fin 1024) : Fin 8192 := ⟨j.val * 1024 + c.val, by omega⟩

/-! ## The streaming arrangement -/

/-- The doubled logits. -/
def simK (R : Fin 8192 → Fin 256 → EReal) (r c : Fin 8192) : EReal := dot (R r) (R c) * two

/-- The carried state of a row: running maximum, running rescaled sum, label logit so far. -/
structure St where
  m : EReal
  l : EReal
  t : EReal

/-- Before the first block. -/
def init : St := ⟨ninf, 0, 0⟩

/-- One block of 1024 columns. -/
def step (s : Fin 8192 → EReal) (lab : Fin 8192) (a : St) (j : Fin 8) : St :=
  let m' := max a.m ((Finset.univ : Finset (Fin 1024)).fold max ninf fun c => s (col j c))
  ⟨m', Ideal.exp (a.m - m') * a.l + ∑ c : Fin 1024, Ideal.exp (s (col j c) - m'),
    a.t + ∑ c : Fin 1024, if col j c = lab then s (col j c) else 0⟩

/-- After the blocks before j (all 8 of them at j = 8). -/
def stateAt (s : Fin 8192 → EReal) (lab : Fin 8192) : (j : ℕ) → St
  | 0 => init
  | j + 1 => if h : j < 8 then step s lab (stateAt s lab j) ⟨j, h⟩ else stateAt s lab j

/-- A row's term: (m + log l) - t after all 8 blocks. -/
def termK (s : Fin 8192 → EReal) (lab : Fin 8192) : EReal :=
  ((stateAt s lab 8).m + Ideal.log (stateAt s lab 8).l) - (stateAt s lab 8).t

/-- The streaming loss. -/
def lossK (zi zj : Fin 4096 → Fin 256 → EReal) : EReal :=
  Ideal.div (0 + ∑ r : Fin 8192, termK (simK (reps zi zj) r) (label r)) n8192

/-! ## The direct arrangement -/

/-- The halved-divisor logits. -/
def simR (R : Fin 8192 → Fin 256 → EReal) (r c : Fin 8192) : EReal := Ideal.div (dot (R r) (R c)) half

/-- A row's maximum over all columns (once more against minus infinity, as the reference takes it). -/
def rowMax (s : Fin 8192 → EReal) : EReal := max ninf ((Finset.univ : Finset (Fin 8192)).fold max ninf s)

/-- A row's term: (logit at the label - M) - log (sum of exp(logit - M)). -/
def termR (s : Fin 8192 → EReal) (lab : Fin 8192) : EReal :=
  (s lab - rowMax s) - Ideal.log (0 + ∑ c : Fin 8192, Ideal.exp (s c - rowMax s))

/-- The direct loss. -/
def lossR (zi zj : Fin 4096 → Fin 256 → EReal) : EReal :=
  -(Ideal.div (0 + ∑ r : Fin 8192, termR (simR (reps zi zj) r) (label r)) n8192)

end Cert.NtXent

end
-- ==== Proof.KI.NormValue.lean ====
/- The normalisation kernels' stored blocks read index by index on the extended reals: entry (p, q) of the block
   a run leaves is entry q of row p of the input block divided by max (sqrt (sum of the row's squares)) eps.
   Rounding to bf16 is the identity on the extended reals. -/
import proofs.«119733_j80255758893848_2_alg».proof.Proof.KI.Norm0
import proofs.«119733_j80255758893848_2_alg».proof.Proof.KI.Norm1
import proofs.«119733_j80255758893848_2_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal.Gen
open Idealize.ShloMosaic Idealize.ShloMosaic.ValueIdx

/-! ## Two layout operations on a column -/

section Column
variable {α : Type}

/-- A length-`a` vector recast as an `a × 1` column reads, at row `p` of its only column, entry `p` of the vector:
    both sit at row-major position `p`. -/
theorem shapeCast_toColumn_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) := by
  refine shapeCast_apply x h (ix2 p u) (ix1 p) ?_
  rw [Shape.rowMajor_val_two, Shape.rowMajor_val_one]
  show p.val = p.val * 1 + u.val
  have hu : u.val = 0 := by omega
  rw [hu, Nat.mul_one, Nat.add_zero]

/-- An `a × 1` column broadcast along its unit axis to `a × b` reads, at `(p, q)`, the column's entry in row `p`,
    whatever `q` is. -/
theorem broadcastTo_ofColumn_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    -- the row axis: kept, unless it is itself a unit axis, and then the row is row 0
    show p.val = if a = 1 then 0 else p.val
    split
    · have := p.isLt; omega
    · rfl
  | ⟨1, _⟩ =>
    -- the unit axis: coordinate 0
    rfl

end Column

/-! ## A row's sum of squares -/

/-- The sum over the lane axis of the entrywise square of a 1024x256 block, at row `p`: the sum of the squares of
    the 256 entries of row `p`. -/
theorem rowSquares_apply (x : FVec Ideal S1024x256 .f32) (h : S1024x256.Reduces [1] S1024) (hφ : FKind.Formats .f32)
    (hacc : (0x00000000#32 : BitVec (FTy.bits .f32)) = FKind.add.neutral .f32 hφ) (p : Fin 1024) :
    multiReduction (F := Ideal) .add [1] S1024 (mulf x x) 0x00000000#32 h hφ hacc (ix1 p)
      = ∑ k : Fin 256, x (ix2 p k) * x (ix2 p k) := by
  refine (Ideal.multiReduction_add_single (mulf x x) 0x00000000#32 h hφ hacc (ix1 p)).trans ?_
  refine Finset.sum_congr rfl fun k _ => ?_
  -- the index of the source over row `p` with lane coordinate `k` is `(p, k)`
  have e : h.lift (ix1 p) k = ix2 p k := by
    funext c
    match c with
    | ⟨0, _⟩ => exact Fin.ext rfl
    | ⟨1, _⟩ => exact Fin.ext rfl
  rw [e]
  rfl

/-! ## The stored payload at an index -/

/-- Entry `(p, q)` of what the kernel of custom_call 0 stores, from the block `x0` it loaded: entry `q` of row `p`
    over that row's divisor `max (sqrt (sum of squares)) eps`. -/
theorem k0_pay1_apply (x0 : Vec Ideal S1024x256 .f32) (p : Fin 1024) (q : Fin 256) :
    k0_pay1 (F := Ideal) x0 (ix2 p q) = Cert.NtXent.unit (fun k => x0 (ix2 p k)) q := by
  unfold k0_pay1 Cert.NtXent.unit Cert.NtXent.nrm
  -- rounding to bf16 keeps the value, and the quotient is taken entry by entry: the numerator is entry (p, q)
  show Ideal.div (x0 (ix2 p q)) (broadcastTo S1024x256 _ broadcasts_S1024x1_S1024x256 (ix2 p q))
    = Ideal.div (x0 (ix2 p q)) _
  refine congrArg (Ideal.div (x0 (ix2 p q))) ?_
  -- the denominator is row p's entry of the column of divisors, the same along the lanes
  refine (broadcastTo_ofColumn_apply _ broadcasts_S1024x1_S1024x256 p q).trans ?_
  -- that entry is the larger of eps and the square root of row p's entry of the column of sums
  show max (Ideal.sqrt (shapeCast S1024x1 _ shapeCasts_S1024_S1024x1 (ix2 p (0 : Fin 1)))) Cert.NtXent.eps = _
  refine congrArg (fun s => max (Ideal.sqrt s) Cert.NtXent.eps) ?_
  -- the column of sums is the vector of the rows' sums of squares, recast
  refine (shapeCast_toColumn_apply _ shapeCasts_S1024_S1024x1 p 0).trans ?_
  exact rowSquares_apply x0 _ _ _ p

/-! ## The stored block at an index -/

/-- The kernel's one store covers the whole block at offset (0, 0) and its one load reads the whole block there. -/
theorem zeroOffsets : (![0, 0] : Fin S1024x256.rank → Nat) = fun _ => 0 := by
  funext a
  match a with
  | ⟨0, _⟩ => rfl
  | ⟨1, _⟩ => rfl

/-- Entry `(p, q)` of the output block a run of custom_call 0's kernel leaves, from the input block `x0`: row `p` of
    `x0` normalised, at `q`. -/
theorem normed0_apply (x0 : Vec Ideal S1024x256 .f32) (p : Fin 1024) (q : Fin 256) :
    normed0 (F := Ideal) x0 (ix2 p q) = Cert.NtXent.unit (fun k => x0 (ix2 p k)) q := by
  unfold normed0
  -- one store over the whole block leaves its payload; one load of the whole block reads the block
  rw [View.canon_unit_zero zeroOffsets, View.ld_unit_zero zeroOffsets]
  exact k0_pay1_apply x0 p q

/-- custom_call 1 runs the same kernel text as custom_call 0: the two stored payloads are the same function of the
    loaded block, by unfolding both. -/
theorem k1_pay1_eq_k0_pay1 (x0 : Vec Ideal S1024x256 .f32) : k1_pay1 (F := Ideal) x0 = k0_pay1 (F := Ideal) x0 := rfl

/-- Entry `(p, q)` of the output block a run of custom_call 1's kernel leaves, from the input block `x0`: row `p` of
    `x0` normalised, at `q`. -/
theorem normed1_apply (x0 : Vec Ideal S1024x256 .f32) (p : Fin 1024) (q : Fin 256) :
    normed1 (F := Ideal) x0 (ix2 p q) = Cert.NtXent.unit (fun k => x0 (ix2 p k)) q := by
  unfold normed1
  rw [View.canon_unit_zero zeroOffsets, View.ld_unit_zero zeroOffsets, k1_pay1_eq_k0_pay1]
  exact k0_pay1_apply x0 p q

end Cert.KernelIdeal.Hand

end
-- ==== Proof.KI.NormArray.lean ====
/- From blocks to the whole array, on the extended reals: after the four grid points of a normalisation call, the
   call's 4096x256 output array holds every row of its argument array, as the region found it, divided by
   max (sqrt (sum of the row's squares)) eps; the argument array is unchanged.

   Point t writes back, over rows 1024 t … 1024 t + 1023 of the output array, the normalised rows of the block it
   fetched, which is rows 1024 t … 1024 t + 1023 of the argument array. The four blocks tile the array. -/
import proofs.«119733_j80255758893848_2_alg».proof.Proof.KI.NormValue
import Idealize.ShloMosaic.Lib.Pipeline.Cells

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat)

section

variable (V : (c : Dev nD) → (b : Ref sig .tc) → Buf (Elt Ideal) ((c : Thread nD τ).loc b))

/-! ## custom_call 0 -/

/-- The argument array is only fetched from, never written back to: after the four points it is as the region
    found it. -/
theorem normDat0_keeps_array {F : FTy → Type} [FloatOps F]
    (V : (c : Dev nD) → (b : Ref sig .tc) → Buf (Elt F) ((c : Thread nD τ).loc b)) (c : Dev nD) :
    (normDat0 V c).arrAt 0 cfg0.N = V c (Pipeline.arrRef spec0 0) :=
  ((normDat0 V c).arrAt_in 0 rfl cfg0.N).trans (normDat0_arr V c 0)

/-- Where the two windows' blocks sit at point `t`, decided over the four points: both windows address block row
    `t` and block column 0. -/
theorem blockAt0 : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back over its block of the output array: the rows of the argument array that the block
    covers, normalised. The input window's block at `t` and the output window's block at `t` are the same rows
    `1024 t + p` and the same columns. -/
theorem normDat0_writes_back (c : Dev nD) (t : Fin cfg0.N) :
    (normDat0 (F := Ideal) V c).flushed 1 t
      = ((cfg0.win 1).blk t).view.read (Elt Ideal)
          (fun j => Cert.NtXent.unit (fun k => V c main_arg0 (ValueIdx.ix2 (j 0) k)) (j 1)) := by
  obtain ⟨hin0, hin1, hout0, hout1⟩ := blockAt0 t
  -- the block is not cut, so all of what the body left is written back
  show (cfg0.win 1).cut (grid0.coords t) ((normDat0 V c).after 1 t) = _
  rw [normDat0_leaves_out]
  funext j
  obtain ⟨p, q, rfl⟩ : ∃ (p : Fin 1024) (q : Fin 256), j = ix2 p q := ⟨j 0, j 1, eq_ix2 j⟩
  show normed0 (rowsBlock0 V c 0 t) (ix2 p q) = _
  refine (normed0_apply (rowsBlock0 V c 0 t) p q).trans ?_
  rw [View.read_apply]
  -- row p of the input block is the array's row under entry (p, q) of the output block
  have hrow : ∀ k : Fin 256, rowsBlock0 V c 0 t (ix2 p k)
      = V c main_arg0 (ix2 ((((cfg0.win 1).blk t).view.emb (ix2 p q)) 0) k) := by
    intro k
    unfold rowsBlock0
    rw [View.read_apply]
    show V c main_arg0 _ = V c main_arg0 _
    refine congrArg (V c main_arg0) (funext fun a => Fin.ext ?_)
    match a with
    | ⟨0, _⟩ =>
      show win0_0.index t (0 : Fin 2) * 1024 + 1 * p.val = win0_1.index t (0 : Fin 2) * 1024 + 1 * p.val
      rw [hin0, hout0]
    | ⟨1, _⟩ =>
      show win0_0.index t (1 : Fin 2) * 256 + 1 * k.val = k.val
      rw [hin1]; omega
  -- and the column under it is q
  have hcol : (((cfg0.win 1).blk t).view.emb (ix2 p q)) 1 = q :=
    Fin.ext (by show win0_1.index t (1 : Fin 2) * 256 + 1 * q.val = q.val; rw [hout1]; omega)
  refine (congrArg (fun x => Cert.NtXent.unit x q) (funext hrow)).trans ?_
  exact congrArg (Cert.NtXent.unit _) hcol.symm

/-- An index of the output array lies in point `t`'s block exactly when, on each axis, its coordinate is in the
    block's range: from block index times block size, for one block size. -/
theorem mem_outBlock0 (t : Fin cfg0.N) (i : S4096x256.Idx) :
    i ∈ ((cfg0.win 1).blk t).view.set
      ↔ ∀ a : Fin 2, win0_1.index t a * S1024x256.size a ≤ (i a).val
          ∧ (i a).val < win0_1.index t a * S1024x256.size a + S1024x256.size a := by
  show i ∈ ((View.whole main_v0).slice (win0_1.rect t)).set ↔ _
  rw [View.set_slice_whole, Rect.mem_set_unit]
  exact Iff.rfl

/-- The four blocks tile the output array: row `r` lies in the block of point `r / 1024`, and every point writes
    its block back. -/
theorem outBlocks_cover0 (i : S4096x256.Idx) :
    ∃ t : Fin cfg0.N, (cfg0.win 1).flush t = true ∧ i ∈ ((cfg0.win 1).blk t).view.set := by
  have hr : (i 0).val < 4096 := (i 0).isLt
  have hc : (i 1).val < 256 := (i 1).isLt
  have hN : cfg0.N = 4 := N_0
  obtain ⟨t, ht⟩ : ∃ t : Fin cfg0.N, t.val = (i 0).val / 1024 :=
    ⟨⟨(i 0).val / 1024, Nat.lt_of_lt_of_eq (by omega) hN.symm⟩, rfl⟩
  obtain ⟨-, -, hout0, hout1⟩ := blockAt0 t
  refine ⟨t, flush0_1 t, ?_⟩
  rw [mem_outBlock0]
  intro a
  match a with
  | ⟨0, _⟩ =>
    show win0_1.index t (0 : Fin 2) * 1024 ≤ (i 0).val ∧ (i 0).val < win0_1.index t (0 : Fin 2) * 1024 + 1024
    rw [hout0, ht]; omega
  | ⟨1, _⟩ =>
    show win0_1.index t (1 : Fin 2) * 256 ≤ (i 1).val ∧ (i 1).val < win0_1.index t (1 : Fin 2) * 256 + 256
    rw [hout1]; omega

/-- After the four points the output array of custom_call 0 holds, at `(r, q)`, entry `q` of row `r` of the
    argument array normalised. -/
theorem normDat0_array (c : Dev nD) :
    (normDat0 (F := Ideal) V c).arrAt 1 cfg0.N
      = fun j => Cert.NtXent.unit (fun k => V c main_arg0 (ValueIdx.ix2 (j 0) k)) (j 1) :=
  (normDat0 V c).arrAt_eq_of_cover 1 _ (fun t _ => normDat0_writes_back V c t) outBlocks_cover0

/-! ## custom_call 1 -/

/-- The argument array is only fetched from, never written back to: after the four points it is as the region
    found it. -/
theorem normDat1_keeps_array {F : FTy → Type} [FloatOps F]
    (V : (c : Dev nD) → (b : Ref sig .tc) → Buf (Elt F) ((c : Thread nD τ).loc b)) (c : Dev nD) :
    (normDat1 V c).arrAt 0 cfg1.N = V c (Pipeline.arrRef spec1 0) :=
  ((normDat1 V c).arrAt_in 0 rfl cfg1.N).trans (normDat1_arr V c 0)

/-- Where the two windows' blocks sit at point `t`, decided over the four points: both windows address block row
    `t` and block column 0. -/
theorem blockAt1 : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back over its block of the output array: the rows of the argument array that the block
    covers, normalised. The input window's block at `t` and the output window's block at `t` are the same rows
    `1024 t + p` and the same columns. -/
theorem normDat1_writes_back (c : Dev nD) (t : Fin cfg1.N) :
    (normDat1 (F := Ideal) V c).flushed 1 t
      = ((cfg1.win 1).blk t).view.read (Elt Ideal)
          (fun j => Cert.NtXent.unit (fun k => V c main_arg1 (ValueIdx.ix2 (j 0) k)) (j 1)) := by
  obtain ⟨hin0, hin1, hout0, hout1⟩ := blockAt1 t
  -- the block is not cut, so all of what the body left is written back
  show (cfg1.win 1).cut (grid1.coords t) ((normDat1 V c).after 1 t) = _
  rw [normDat1_leaves_out]
  funext j
  obtain ⟨p, q, rfl⟩ : ∃ (p : Fin 1024) (q : Fin 256), j = ix2 p q := ⟨j 0, j 1, eq_ix2 j⟩
  show normed1 (rowsBlock1 V c 0 t) (ix2 p q) = _
  refine (normed1_apply (rowsBlock1 V c 0 t) p q).trans ?_
  rw [View.read_apply]
  -- row p of the input block is the array's row under entry (p, q) of the output block
  have hrow : ∀ k : Fin 256, rowsBlock1 V c 0 t (ix2 p k)
      = V c main_arg1 (ix2 ((((cfg1.win 1).blk t).view.emb (ix2 p q)) 0) k) := by
    intro k
    unfold rowsBlock1
    rw [View.read_apply]
    show V c main_arg1 _ = V c main_arg1 _
    refine congrArg (V c main_arg1) (funext fun a => Fin.ext ?_)
    match a with
    | ⟨0, _⟩ =>
      show win1_0.index t (0 : Fin 2) * 1024 + 1 * p.val = win1_1.index t (0 : Fin 2) * 1024 + 1 * p.val
      rw [hin0, hout0]
    | ⟨1, _⟩ =>
      show win1_0.index t (1 : Fin 2) * 256 + 1 * k.val = k.val
      rw [hin1]; omega
  -- and the column under it is q
  have hcol : (((cfg1.win 1).blk t).view.emb (ix2 p q)) 1 = q :=
    Fin.ext (by show win1_1.index t (1 : Fin 2) * 256 + 1 * q.val = q.val; rw [hout1]; omega)
  refine (congrArg (fun x => Cert.NtXent.unit x q) (funext hrow)).trans ?_
  exact congrArg (Cert.NtXent.unit _) hcol.symm

/-- An index of the output array lies in point `t`'s block exactly when, on each axis, its coordinate is in the
    block's range: from block index times block size, for one block size. -/
theorem mem_outBlock1 (t : Fin cfg1.N) (i : S4096x256.Idx) :
    i ∈ ((cfg1.win 1).blk t).view.set
      ↔ ∀ a : Fin 2, win1_1.index t a * S1024x256.size a ≤ (i a).val
          ∧ (i a).val < win1_1.index t a * S1024x256.size a + S1024x256.size a := by
  show i ∈ ((View.whole main_v1).slice (win1_1.rect t)).set ↔ _
  rw [View.set_slice_whole, Rect.mem_set_unit]
  exact Iff.rfl

/-- The four blocks tile the output array: row `r` lies in the block of point `r / 1024`, and every point writes
    its block back. -/
theorem outBlocks_cover1 (i : S4096x256.Idx) :
    ∃ t : Fin cfg1.N, (cfg1.win 1).flush t = true ∧ i ∈ ((cfg1.win 1).blk t).view.set := by
  have hr : (i 0).val < 4096 := (i 0).isLt
  have hc : (i 1).val < 256 := (i 1).isLt
  have hN : cfg1.N = 4 := N_1
  obtain ⟨t, ht⟩ : ∃ t : Fin cfg1.N, t.val = (i 0).val / 1024 :=
    ⟨⟨(i 0).val / 1024, Nat.lt_of_lt_of_eq (by omega) hN.symm⟩, rfl⟩
  obtain ⟨-, -, hout0, hout1⟩ := blockAt1 t
  refine ⟨t, flush1_1 t, ?_⟩
  rw [mem_outBlock1]
  intro a
  match a with
  | ⟨0, _⟩ =>
    show win1_1.index t (0 : Fin 2) * 1024 ≤ (i 0).val ∧ (i 0).val < win1_1.index t (0 : Fin 2) * 1024 + 1024
    rw [hout0, ht]; omega
  | ⟨1, _⟩ =>
    show win1_1.index t (1 : Fin 2) * 256 ≤ (i 1).val ∧ (i 1).val < win1_1.index t (1 : Fin 2) * 256 + 256
    rw [hout1]; omega

/-- After the four points the output array of custom_call 1 holds, at `(r, q)`, entry `q` of row `r` of the
    argument array normalised. -/
theorem normDat1_array (c : Dev nD) :
    (normDat1 (F := Ideal) V c).arrAt 1 cfg1.N
      = fun j => Cert.NtXent.unit (fun k => V c main_arg1 (ValueIdx.ix2 (j 0) k)) (j 1) :=
  (normDat1 V c).arrAt_eq_of_cover 1 _ (fun t _ => normDat1_writes_back V c t) outBlocks_cover1

end

end Cert.KernelIdeal.Hand

end
-- ==== Proof.KI.HostReads.lean ====
/- The host operations of the program read on the extended reals, for any contents of the device's buffers:
   the concatenation of the two normalised arrays row by row, and the closing arithmetic (the per-row difference of
   the two columns the last call leaves, summed over the 8192 rows from zero and divided by the literal 8192).
   Every buffer an operation does not write keeps its contents. -/
import proofs.«119733_j80255758893848_2_alg».proof.Proof.Gen.KernelIdeal.Regions
import proofs.«119733_j80255758893848_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Cert.KernelIdeal.Gen
open Idealize.ShloMosaic Idealize.ShloMosaic.ValueIdx
open Idealize.SL.Sem

/-! ## What the host operations leave alone -/

section Keeps
variable {F : FTy → Type} [FloatOps F] (W : Valuation τ sig (Elt F))

/-- The concatenation writes only its result buffer. -/
theorem concat_keeps (b : Ref sig .tc) (hb : b ≠ main_v2) :
    StableHlo.after (hostOps2 (F := F)) W (Proc.devRef .tc b) = W (Proc.devRef .tc b) :=
  StableHlo.after_of_writes_sub hostOps2 W hostOps2_writes (fun h => hb (List.mem_singleton.mp h))

/-- The closing operations write only their seven result buffers. -/
theorem tail_keeps (b : Ref sig .tc) (hb : b ∉ hostOps3_W) :
    StableHlo.after (hostOps3 (F := F)) W (Proc.devRef .tc b) = W (Proc.devRef .tc b) :=
  StableHlo.after_of_writes_sub hostOps3 W hostOps3_writes hb

end Keeps

/-! ## Two facts about vectors of rank one -/

section RankOne
variable {α : Type}

/-- An `a × 1` column recast as a length-`a` vector reads, at `p`, the column's entry in row `p`: both sit at
    row-major position `p`. -/
theorem shapeCast_ofColumn_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_two, Shape.rowMajor_val_one]
  show p.val * 1 + 0 = p.val
  rw [Nat.mul_one, Nat.add_zero]

/-- The indices of a length-`n` vector are the numbers below `n`. -/
def vecIdxEquiv (n : ℕ) : (⟨1, ![n]⟩ : Shape).Idx ≃ Fin n where
  toFun j := j 0
  invFun r := ix1 r
  left_inv j := (eq_ix1 j).symm
  right_inv _ := rfl

/-- A sum over the indices of a length-`n` vector, as a sum over the numbers below `n`. -/
theorem sum_vecIdx {M : Type} [AddCommMonoid M] {n : ℕ} (f : (⟨1, ![n]⟩ : Shape).Idx → M) :
    ∑ j, f j = ∑ r : Fin n, f (ix1 r) :=
  (Equiv.sum_comp (vecIdxEquiv n).symm f).symm

end RankOne

variable (W : Valuation τ sig (Elt Ideal))

/-! ## The concatenation -/

/-- Row `r` of the concatenated array is row `r` of the first array for `r < 4096` and row `r - 4096` of the second
    otherwise. -/
theorem concat_reads (r : Fin 8192) (d : Fin 256) :
    StableHlo.after (hostOps2 (F := Ideal)) W (Proc.devRef .tc main_v2) (ix2 r d)
      = if h : r.val < 4096 then W (Proc.devRef .tc main_v0) (ix2 ⟨r.val, h⟩ d)
        else W (Proc.devRef .tc main_v1) (ix2 ⟨r.val - 4096, by omega⟩ d) := by
  dsimp only [hostOps2]
  after_results
  split
  · -- in the first piece: same coordinates
    rename_i h
    refine concatenate_pair_apply_left (t := S8192x256) (s₁ := S4096x256) (s₂ := S4096x256) 0 _ _ _ (ix2 r d) rfl
      (ix2 ⟨r.val, h⟩ d) fun b => ?_
    match b with
    | ⟨0, _⟩ => rfl
    | ⟨1, _⟩ => rfl
  · -- in the second piece: the row less the first piece's 4096 rows, the same column
    rename_i h
    refine concatenate_pair_apply_right (t := S8192x256) (s₁ := S4096x256) (s₂ := S4096x256) 0 _ _ _ (ix2 r d) rfl rfl
      (ix2 ⟨r.val - 4096, by omega⟩ d) (fun b hb => ?_) ?_
    · match b with
      | ⟨0, _⟩ => exact absurd rfl hb
      | ⟨1, _⟩ => rfl
    · show r.val - 4096 + 4096 = r.val
      omega

/-! ## The closing arithmetic -/

/-- The program's result, when the two columns the last call leaves read `A` and `B`: the columns recast as
    vectors, subtracted entry by entry, summed over the 8192 rows starting from zero, and divided by the literal
    8192. -/
theorem tail_reads (A B : S8192x1.Idx → EReal)
    (hA : W (Proc.devRef .tc main_v3_0) = A) (hB : W (Proc.devRef .tc main_v3_1) = B) :
    StableHlo.after (hostOps3 (F := Ideal)) W (Proc.devRef .tc main_v8)
      = fun _ => Ideal.div (0 + ∑ r : Fin 8192, (A (ix2 r 0) - B (ix2 r 0))) Cert.NtXent.n8192 := by
  dsimp only [hostOps3]
  after_results
  rw [hA, hB]
  funext j
  -- the quotient and the sum are taken on the extended reals; the two literals are the words' values
  show Ideal.div (Ideal.hostReduceAdd reducesTo_S8192_S_d0
      (subf (F := Ideal) (φ := .f32) (shapeCast S8192 A shapeCasts_S8192x1_S8192)
        (shapeCast S8192 B shapeCasts_S8192x1_S8192))
      (Ideal.ofBits .f32 0x00000000#32) j) Cert.NtXent.n8192 = _
  refine congrArg (fun s => Ideal.div s Cert.NtXent.n8192) ?_
  -- a sum over every axis into rank zero: the start value plus the sum over all indices
  refine (Ideal.hostReduceAdd_total reducesTo_S8192_S_d0 (fun b => b.elim0) _ _ j).trans ?_
  rw [Ideal.ofBits_zero_f32]
  refine congrArg (fun s => (0 : EReal) + s) ?_
  refine (sum_vecIdx _).trans (Finset.sum_congr rfl fun r _ => ?_)
  -- entry r of each recast column is the column's entry in row r
  show shapeCast S8192 A shapeCasts_S8192x1_S8192 (ix1 r) - shapeCast S8192 B shapeCasts_S8192x1_S8192 (ix1 r) = _
  rw [shapeCast_ofColumn_apply, shapeCast_ofColumn_apply]

end Cert.KernelIdeal.Hand

end
-- ==== Proof.Rows.lean ====
/-
  The rows of a 4096 x 256 array of extended reals: entry (r, d) of the array as entry d of row r.
-/
import Idealize.ShloMosaic.Lib.ValueIdx
import Idealize.ShloMosaic.PureOps.Ideal

noncomputable section

namespace Cert.NtXent

open Idealize.ShloMosaic

/-- Row r of the array, as a function of the column. -/
def rowsOf (x : FVec Ideal ⟨2, ![4096, 256]⟩ .f32) (r : Fin 4096) (d : Fin 256) : EReal := x (ValueIdx.ix2 r d)

end Cert.NtXent

end
-- ==== Proof.KI.Reps.lean ====
/-
  The array the streaming call reads: row r of it is the normalised row r of the first argument array for r < 4096 and
  the normalised row r - 4096 of the second otherwise. Read through the concatenation, each normalisation call's
  whole output array, and the argument arrays as launched.
-/
import proofs.«119733_j80255758893848_2_alg».proof.Proof.KI.Program
import proofs.«119733_j80255758893848_2_alg».proof.Proof.KI.NormArray
import proofs.«119733_j80255758893848_2_alg».proof.Proof.KI.HostReads
import proofs.«119733_j80255758893848_2_alg».proof.Proof.Rows

set_option maxRecDepth 16384

noncomputable section

namespace Cert.KernelIdeal.Hand

open Cert.KernelIdeal Cert.KernelIdeal.Gen Cert.NtXent
open Idealize.ShloMosaic Idealize.ShloMosaic.TcCoe Idealize.SL.Sem

variable (m : (ℓ : Loc nD τ sig) → Buf (Elt Ideal) ℓ) (c : Dev nD)

/-- The two argument arrays, as launched, row by row. -/
abbrev rowsI : Fin 4096 → Fin 256 → EReal := rowsOf (m ((c.tc : Thread nD τ).loc main_arg0))
abbrev rowsJ : Fin 4096 → Fin 256 → EReal := rowsOf (m ((c.tc : Thread nD τ).loc main_arg1))

/-- Entry (r, d) of the concatenated array is entry d of the r-th normalised row. -/
theorem reps_entries (r : Fin 8192) (d : Fin 256) :
    atTc (afterConcat (F := Ideal) m) c main_v2 (ValueIdx.ix2 r d) = reps (rowsI m c) (rowsJ m c) r d := by
  show StableHlo.after (hostOps2 (F := Ideal)) (afterNorm1 m c) (Proc.devRef .tc main_v2) (ValueIdx.ix2 r d) = _
  rw [concat_reads]
  unfold reps
  by_cases h : r.val < 4096
  · have out0 : afterNorm0 m c (Proc.devRef .tc main_v0) = (normDat0 (atTc (atLaunch m)) c).arrAt 1 cfg0.N := afterNorm0_arr m c 1
    rw [dif_pos h, dif_pos h, afterNorm1_else m c main_v0 (by decide), out0, normDat0_array]
    rfl
  · have out1 : afterNorm1 m c (Proc.devRef .tc main_v1) = (normDat1 (atTc (afterNorm0 m)) c).arrAt 1 cfg1.N := afterNorm1_arr m c 1
    rw [dif_neg h, dif_neg h, out1, normDat1_array]
    show unit (fun k => afterNorm0 m c (Proc.devRef .tc main_arg1) (ValueIdx.ix2 _ k)) d = _
    rw [afterNorm0_else m c main_arg1 (by decide)]
    rfl

end Cert.KernelIdeal.Hand

end
-- ==== Proof.KI.LseStepWords.lean ====
/- The 32-bit integer arithmetic of the streaming kernel's label mask, on the numbers it meets: row and column numbers
   below 8192 do not wrap, the signed comparison with 4096 is the comparison of the numbers, the label word is the
   specification's label, and two column words are equal exactly when the columns are. -/
import proofs.«119733_j80255758893848_2_alg».proof.Proof.Spec
import Idealize.ShloMosaic.Lib.ValueIdx

noncomputable section

namespace Cert.KernelIdeal.Hand

open Idealize.ShloMosaic Idealize.ShloMosaic.ValueIdx

/-! ## Words: row and column numbers, the label, the mask bit -/

/-- Block `a` (below 8) times 1024 plus the offset `r` (below 1024), computed in 32-bit words, is that number: it is
    below 8192, far from the wrap at 2^32. -/
theorem blockWord (a r : Nat) (ha : a < 8) (hr : r < 1024) :
    IntOp.addi (Scalar.muli (BitVec.ofNat 32 a) 1024#32) (BitVec.ofNat 32 r) = BitVec.ofNat 32 (a * 1024 + r) := by
  unfold IntOp.addi Scalar.muli IntOp.muli
  bv_omega

/-- The signed comparison of a number below 8192 with 4096 is the comparison of the numbers: both words are
    non-negative as signed integers. -/
theorem slt_small (R : Nat) (hR : R < 8192) : (BitVec.ofNat 32 R).slt 4096#32 = decide (R < 4096) := by
  simp only [BitVec.slt]
  have h1 : (BitVec.ofNat 32 R).toInt = (R : Int) := by
    rw [BitVec.toInt_eq_toNat_of_lt]
    · simp only [BitVec.toNat_ofNat]; omega
    · simp only [BitVec.toNat_ofNat]; omega
  have h2 : (4096#32 : BitVec 32).toInt = 4096 := by decide
  rw [h1, h2]
  exact decide_eq_decide.mpr (by omega)

/-- The label word of row number `R` (below 8192): twice `R` in the first half, twice `R - 4096` plus one in the
    second; the specification's label of the row. -/
theorem labelWord (R : Nat) (hR : R < 8192) :
    Scalar.select (IntOp.cmpi .slt (BitVec.ofNat 32 R) 4096#32) (IntOp.muli 2#32 (BitVec.ofNat 32 R))
        (IntOp.addi (IntOp.muli 2#32 (IntOp.subi (BitVec.ofNat 32 R) 4096#32)) 1#32)
      = BitVec.ofNat 32 (Cert.NtXent.label ⟨R, hR⟩).val := by
  have hc : IntOp.cmpi .slt (BitVec.ofNat 32 R) 4096#32 = BitVec.ofBool (decide (R < 4096)) := by
    show BitVec.ofBool ((BitVec.ofNat 32 R).slt 4096#32) = _
    rw [slt_small R hR]
  rw [hc]
  unfold Cert.NtXent.label
  by_cases h : R < 4096
  · rw [decide_eq_true h, dif_pos h]
    show Scalar.select 1#1 _ _ = _
    rw [select_one]
    unfold IntOp.muli
    show 2#32 * BitVec.ofNat 32 R = BitVec.ofNat 32 (2 * R)
    bv_omega
  · rw [decide_eq_false h, dif_neg h]
    show Scalar.select 0#1 _ _ = _
    rw [select_zero]
    unfold IntOp.muli IntOp.addi IntOp.subi
    show 2#32 * (BitVec.ofNat 32 R - 4096#32) + 1#32 = BitVec.ofNat 32 (2 * (R - 4096) + 1)
    bv_omega

/-- Two column numbers below 8192, as words, are the same word exactly when they are the same number. -/
theorem cmpi_eq_small (a b : Fin 8192) :
    IntOp.cmpi .eq (BitVec.ofNat 32 a.val) (BitVec.ofNat 32 b.val) = BitVec.ofBool (decide (a = b)) := by
  show BitVec.ofBool (BitVec.ofNat 32 a.val == BitVec.ofNat 32 b.val) = _
  refine congrArg BitVec.ofBool ?_
  rw [beq_eq_decide]
  refine decide_eq_decide.mpr ⟨fun h => Fin.ext ?_, fun h => by rw [h]⟩
  have h' := congrArg BitVec.toNat h
  simp only [BitVec.toNat_ofNat] at h'
  have := a.isLt; have := b.isLt
  omega

/-- A select on a decided proposition's bit is the `if`. -/
theorem select_ofBool {α : Type} (P : Prop) [Decidable P] (x y : α) :
    Scalar.select (BitVec.ofBool (decide P)) x y = if P then x else y := by
  by_cases h : P
  · rw [decide_eq_true h, if_pos h]; exact select_one x y
  · rw [decide_eq_false h, if_neg h]; exact select_zero x y

end Cert.KernelIdeal.Hand

end
-- ==== Proof.KI.LseStepBlock.lean ====
/- The streaming kernel's block of logits and its lane reductions, read index by index on the extended reals: entry
   (p, c) of the block of logits is the inner product of query row p and key row c, doubled; row c of column block J's
   keys is row J * 1024 + c of the whole array; a lane sum or lane maximum of a 1024 x 1024 block, kept as a column,
   reads at row p the sum or the maximum of row p. -/
import proofs.«119733_j80255758893848_2_alg».proof.Proof.KI.LseBody
import proofs.«119733_j80255758893848_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal.Gen
open Idealize.ShloMosaic Idealize.ShloMosaic.ValueIdx

/-! ## The lane reductions of a 1024x1024 block, read at a row -/

/-- The index of the 1024x1024 block over row `p` with lane coordinate `c` is `(p, c)`. -/
theorem lift_row (h : S1024x1024.Reduces [1] S1024) (p : Fin 1024) (c : Fin 1024) : h.lift (ix1 p) c = ix2 p c := by
  funext a
  match a with
  | ⟨0, _⟩ => exact Fin.ext rfl
  | ⟨1, _⟩ => exact Fin.ext rfl

/-- The sum over the lane axis at row `p`: the sum of the 1024 entries of row `p`. -/
theorem rowSum_apply (x : FVec Ideal S1024x1024 .f32) (h : S1024x1024.Reduces [1] S1024) (hφ : FKind.Formats .f32)
    (hacc : (0x00000000#32 : BitVec (FTy.bits .f32)) = FKind.add.neutral .f32 hφ) (p : Fin 1024) :
    multiReduction (F := Ideal) .add [1] S1024 x 0x00000000#32 h hφ hacc (ix1 p) = ∑ c : Fin 1024, x (ix2 p c) := by
  refine (Ideal.multiReduction_add_single x 0x00000000#32 h hφ hacc (ix1 p)).trans ?_
  refine Finset.sum_congr rfl fun c _ => ?_
  rw [lift_row h p c]

/-- The maximum over the lane axis at row `p`: the fold of max, from minus infinity, over the 1024 entries of row `p`. -/
theorem rowMax_apply (x : FVec Ideal S1024x1024 .f32) (h : S1024x1024.Reduces [1] S1024) (hφ : FKind.Formats .f32)
    (hacc : (0xFF800000#32 : BitVec (FTy.bits .f32)) = FKind.maximumf.neutral .f32 hφ) (p : Fin 1024) :
    multiReduction (F := Ideal) .maximumf [1] S1024 x 0xFF800000#32 h hφ hacc (ix1 p)
      = (Finset.univ : Finset (Fin 1024)).fold max Cert.NtXent.ninf fun c => x (ix2 p c) := by
  refine (Ideal.multiReduction_maximumf_single x 0xFF800000#32 h hφ hacc (ix1 p)).trans ?_
  have e : (x ∘ h.lift (ix1 p)) = fun c : Fin 1024 => x (ix2 p c) := funext fun c => congrArg x (lift_row h p c)
  exact congrArg (fun f => (Finset.univ : Finset (Fin 1024)).fold max Cert.NtXent.ninf f) e

/-! ## The key rows of a column block -/

/-- Row `c` of column block `J`'s keys is row `J * 1024 + c` of the whole array: the block is read through a unit-stride
    window at row offset 1024 times the grid's second coordinate. -/
theorem keyBlock_apply (i : grid2.Coords) (J : Fin 8) (hJ : (i 1).val = J.val) (xk : Vec Ideal S8192x256 .bf16)
    (c : Fin 1024) (k : Fin 256) :
    keyBlock (F := Ideal) i xk (ix2 c k) = xk (ix2 (Cert.NtXent.col J c) k) := by
  unfold keyBlock
  show xk ((keyRows i).emb (ix2 c k)) = _
  refine congrArg xk (funext fun a => Fin.ext ?_)
  rw [Rect.emb_apply]
  show k2_off1 i a + 1 * ((ix2 c k : S1024x256.Idx) a).val = _
  rw [k2_off1_eq]
  match a with
  | ⟨0, _⟩ =>
    show 1024 * (i 1).val + 1 * c.val = J.val * 1024 + c.val
    omega
  | ⟨1, _⟩ =>
    show 0 + 1 * k.val = k.val
    omega

/-! ## The doubled inner products -/

theorem logit_lhs0 (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem logit_rhs0 (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- Entry `(p, c)` of the block of logits: the inner product of query row `p` and key row `c`, times two. -/
theorem logit_apply (xq kb : Vec Ideal S1024x256 .bf16) (p c : Fin 1024) :
    k2_pay6 (F := Ideal) xq kb (ix2 p c) = (∑ k : Fin 256, xq (ix2 p k) * kb (ix2 c k)) * Cert.NtXent.two := by
  unfold k2_pay6
  rw [shapeCast_self, shapeCast_self]
  show FloatOps.matmul dot_S1024x256_S1024x256_S1024x1024_1_1_0_0_n_n none xq kb (constant (F := Ideal) S1024x1024 .f32 0x00000000#32) (ix2 p c)
      * Cert.NtXent.two = _
  refine congrArg (· * Cert.NtXent.two) ?_
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p c)
      ((contrEquiv1 dot_S1024x256_S1024x256_S1024x1024_1_1_0_0_n_n 256 rfl rfl).symm k) = ix2 p k :=
    funext fun a => Fin.ext (by
      match a with
      | ⟨0, _⟩ => exact logit_lhs0 _ _
      | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p c)
      ((contrEquiv1 dot_S1024x256_S1024x256_S1024x1024_1_1_0_0_n_n 256 rfl rfl).symm k) = ix2 c k :=
    funext fun a => Fin.ext (by
      match a with
      | ⟨0, _⟩ => exact logit_rhs0 _ _
      | ⟨1, _⟩ => exact (dot_S1024x256_S1024x256_S1024x1024_1_1_0_0_n_n.rhsIdx_val_of_single rfl _ _).trans hk)
  rw [el, er]

/-! ## Two layout operations on a column of 1024 -/

section Column
variable {α : Type}

/-- A length-1024 vector recast as a 1024 x 1 column reads, at row `p`, entry `p` of the vector: both sit at row-major
    position `p`. -/
theorem toColumn_apply (x : S1024.Idx → α) (h : S1024.ShapeCasts S1024x1) (p : Fin 1024) :
    shapeCast S1024x1 x h (ix2 p (0 : Fin 1)) = x (ix1 p) := by
  refine shapeCast_apply x h (ix2 p (0 : Fin 1)) (ix1 p) ?_
  rw [Shape.rowMajor_val_two, Shape.rowMajor_val_one]
  show p.val = p.val * 1 + 0
  omega

/-- A 1024 x 1 column broadcast along its unit axis to 1024 x 1024 reads, at `(p, c)`, the column's entry in row `p`. -/
theorem ofColumn_apply (v : S1024x1.Idx → α) (h : S1024x1.Broadcasts S1024x1024) (p c : Fin 1024) :
    broadcastTo S1024x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

end Column

/-! ## A lane reduction kept as a column, and two pointwise operations at an index -/

/-- The lane sum of a 1024 x 1024 block, recast as a column, reads at row `r` the sum of the block's row `r`. -/
theorem colSum_apply (x : FVec Ideal S1024x1024 .f32) (r : Fin 1024) :
    shapeCast S1024x1 (multiReduction (F := Ideal) .add [1] S1024 x 0x00000000#32 reduces_S1024x1024_S1024 (.inl rfl) rfl)
        shapeCasts_S1024_S1024x1 (ix2 r (0 : Fin 1))
      = ∑ c : Fin 1024, x (ix2 r c) :=
  (toColumn_apply _ shapeCasts_S1024_S1024x1 r).trans (rowSum_apply x _ _ _ r)

/-- The lane maximum of a 1024 x 1024 block, recast as a column, reads at row `r` the maximum of the block's row `r`. -/
theorem colMax_apply (x : FVec Ideal S1024x1024 .f32) (r : Fin 1024) :
    shapeCast S1024x1 (multiReduction (F := Ideal) .maximumf [1] S1024 x 0xFF800000#32 reduces_S1024x1024_S1024 (.inl rfl) rfl)
        shapeCasts_S1024_S1024x1 (ix2 r (0 : Fin 1))
      = (Finset.univ : Finset (Fin 1024)).fold max Cert.NtXent.ninf fun c => x (ix2 r c) :=
  (toColumn_apply _ shapeCasts_S1024_S1024x1 r).trans (rowMax_apply x _ _ _ r)

/-- An exponential at an index is the exponential of the element. -/
theorem exp_apply {s : Shape} {φ : FTy} (a : FVec Ideal s φ) (i : s.Idx) : Idealize.ShloMosaic.exp a i = Ideal.exp (a i) := rfl

/-- An integer comparison at an index compares the elements. -/
theorem cmpi_apply {s : Shape} {w : Nat} (p : CmpIPredicate) (x y : IVec s w) (i : s.Idx) :
    cmpi p x y i = IntOp.cmpi p (x i) (y i) := rfl

end Cert.KernelIdeal.Hand

end
-- ==== Proof.KI.LseStep.lean ====
/- One run of the streaming kernel's body on a column block, read at a row on the extended reals: the three carried
   numbers of the row (running maximum, running rescaled sum of exponentials, label logit so far) move exactly by the
   specification's step, for the row's doubled inner products against all 8192 key rows and the row's label; the
   start values are minus infinity, zero and zero; the result column reads maximum plus log of the sum. -/
import proofs.«119733_j80255758893848_2_alg».proof.Proof.KI.LseStepWords
import proofs.«119733_j80255758893848_2_alg».proof.Proof.KI.LseStepBlock

noncomputable section

namespace Cert.KernelIdeal.Hand

open Cert.KernelIdeal.Gen
open Idealize.ShloMosaic Idealize.ShloMosaic.ValueIdx

/-! ## The running maximum and the running sum -/

/-- Row `r` of the new running maximum: the old one against the maximum of the row's 1024 logits of the block. -/
theorem pay7_apply (xq kb : Vec Ideal S1024x256 .bf16) (m0 : Vec Ideal S1024x1 .f32) (r : Fin 1024) :
    k2_pay7 (F := Ideal) xq kb m0 (ix2 r (0 : Fin 1))
      = max (m0 (ix2 r (0 : Fin 1)))
          ((Finset.univ : Finset (Fin 1024)).fold max Cert.NtXent.ninf fun c => k2_pay6 (F := Ideal) xq kb (ix2 r c)) := by
  unfold k2_pay7
  rw [maximumf_apply, colMax_apply]

/-- Row `r` of the new running sum: the old one rescaled from the old maximum to the new, plus the row's 1024
    exponentials of logit minus new maximum. -/
theorem pay9_apply (xq kb : Vec Ideal S1024x256 .bf16) (m0 l0 : Vec Ideal S1024x1 .f32) (r : Fin 1024) :
    k2_pay9 (F := Ideal) xq kb m0 l0 (ix2 r (0 : Fin 1))
      = Ideal.exp (m0 (ix2 r (0 : Fin 1)) - k2_pay7 (F := Ideal) xq kb m0 (ix2 r (0 : Fin 1))) * l0 (ix2 r (0 : Fin 1))
        + ∑ c : Fin 1024, Ideal.exp (k2_pay6 (F := Ideal) xq kb (ix2 r c) - k2_pay7 (F := Ideal) xq kb m0 (ix2 r (0 : Fin 1))) := by
  unfold k2_pay9
  rw [shapeCast_self, addf_apply, mulf_apply, exp_apply, subf_apply, colSum_apply]
  refine congrArg (HAdd.hAdd _) (Finset.sum_congr rfl fun c _ => ?_)
  rw [exp_apply, subf_apply, ofColumn_apply]

/-! ## The label mask -/

/-- The column numbers of block `J`: the block's first column number, broadcast, plus the lane number. -/
theorem colWord_apply (i : grid2.Coords) (J : Fin 8) (hJ : (i 1).val = J.val) (c : Fin 1024) :
    addi (broadcast S1x1024 (Scalar.muli (BitVec.ofNat 32 (i 1).val) 1024#32)) (iota .tc S1x1024 32 [1] iota_S1x1024_d1_w32)
        (ix2 (0 : Fin 1) c)
      = BitVec.ofNat 32 (Cert.NtXent.col J c).val := by
  show IntOp.addi (Scalar.muli (BitVec.ofNat 32 (i 1).val) 1024#32)
      (iota .tc S1x1024 32 [1] iota_S1x1024_d1_w32 (ix2 (0 : Fin 1) c)) = _
  rw [iota_single_apply, hJ]
  exact blockWord J.val c.val J.isLt c.isLt

/-- The row numbers of row block `I`: the block's first row number, broadcast, plus the sublane number. -/
theorem rowWord_apply (i : grid2.Coords) (I : Fin 8) (hI : (i 0).val = I.val) (r : Fin 1024) :
    addi (k2_pay10 i) (iota .tc S1024x1 32 [0] iota_S1024x1_d0_w32) (ix2 r (0 : Fin 1))
      = BitVec.ofNat 32 (I.val * 1024 + r.val) := by
  show IntOp.addi (Scalar.muli (BitVec.ofNat 32 (i 0).val) 1024#32)
      (iota .tc S1024x1 32 [0] iota_S1024x1_d0_w32 (ix2 r (0 : Fin 1))) = _
  rw [iota_single_apply, hI]
  exact blockWord I.val r.val I.isLt r.isLt

/-- The label column computed from a column of row numbers, at a row whose number is `R`: the specification's label of
    row `R`. -/
theorem labelCol_apply (v36 : IVec S1024x1 32) (r : Fin 1024) (R : Nat) (hR : R < 8192)
    (h : v36 (ix2 r (0 : Fin 1)) = BitVec.ofNat 32 R) :
    select (cmpi .slt v36 (broadcast S1024x1 4096#32)) (muli (broadcast S1024x1 2#32) v36)
        (addi (muli (broadcast S1024x1 2#32) (subi v36 (broadcast S1024x1 4096#32))) (broadcast S1024x1 1#32))
        (ix2 r (0 : Fin 1))
      = BitVec.ofNat 32 (Cert.NtXent.label ⟨R, hR⟩).val := by
  show Scalar.select (IntOp.cmpi .slt (v36 (ix2 r (0 : Fin 1))) 4096#32) (IntOp.muli 2#32 (v36 (ix2 r (0 : Fin 1))))
      (IntOp.addi (IntOp.muli 2#32 (IntOp.subi (v36 (ix2 r (0 : Fin 1))) 4096#32)) 1#32) = _
  rw [h]
  exact labelWord R hR

/-! ## The label logit -/

/-- Row `r` of the new label logit: the old one plus the block's logit at the row's label column, if the block holds it. -/
theorem pay1_apply (i : grid2.Coords) (I J : Fin 8) (hI : (i 0).val = I.val) (hJ : (i 1).val = J.val)
    (v12 : FVec Ideal S1024x1024 .f32) (t0 : Vec Ideal S1024x1 .f32) (r : Fin 1024) :
    k2_pay1 (F := Ideal) (Scalar.muli (BitVec.ofNat 32 (i 1).val) 1024#32) v12
        (iota .tc S1024x1 32 [0] iota_S1024x1_d0_w32) (k2_pay10 i) t0 (ix2 r (0 : Fin 1))
      = t0 (ix2 r (0 : Fin 1))
        + ∑ c : Fin 1024, if Cert.NtXent.col J c = Cert.NtXent.label ⟨I.val * 1024 + r.val, by omega⟩ then v12 (ix2 r c) else 0 := by
  unfold k2_pay1
  rw [shapeCast_self, addf_apply, colSum_apply]
  refine congrArg (HAdd.hAdd _) (Finset.sum_congr rfl fun c _ => ?_)
  rw [select_apply, cmpi_apply, broadcastTo_1b_ab_apply, ofColumn_apply, colWord_apply i J hJ c,
    labelCol_apply _ r (I.val * 1024 + r.val) (by omega) (rowWord_apply i I hI r), cmpi_eq_small, select_ofBool,
    broadcast_apply]
  exact if_congr Iff.rfl rfl Ideal.ofBits_zero_f32

/-! ## The specification's step, field by field -/

open Cert.NtXent in
theorem step_m (s : Fin 8192 → EReal) (lab : Fin 8192) (a : St) (j : Fin 8) :
    (step s lab a j).m = max a.m ((Finset.univ : Finset (Fin 1024)).fold max ninf fun c => s (col j c)) := rfl
open Cert.NtXent in
theorem step_l (s : Fin 8192 → EReal) (lab : Fin 8192) (a : St) (j : Fin 8) :
    (step s lab a j).l = Ideal.exp (a.m - (step s lab a j).m) * a.l + ∑ c : Fin 1024, Ideal.exp (s (col j c) - (step s lab a j).m) := rfl
open Cert.NtXent in
theorem step_t (s : Fin 8192 → EReal) (lab : Fin 8192) (a : St) (j : Fin 8) :
    (step s lab a j).t = a.t + ∑ c : Fin 1024, if col j c = lab then s (col j c) else 0 := rfl

/-! ## One run of the body on a column block, at a row -/

theorem cols_start (r : Fin 1024) :
    k2_pay3 (F := Ideal) (ix2 r (0 : Fin 1)) = Cert.NtXent.ninf ∧ k2_pay4 (F := Ideal) (ix2 r (0 : Fin 1)) = 0
      ∧ k2_pay5 (F := Ideal) (ix2 r (0 : Fin 1)) = 0 := by
  refine ⟨?_, ?_, ?_⟩
  · unfold k2_pay3
    rw [shapeCast_self]
    rfl
  · unfold k2_pay4
    rw [shapeCast_self]
    exact Ideal.ofBits_zero_f32
  · unfold k2_pay5
    rw [shapeCast_self]
    exact Ideal.ofBits_zero_f32

theorem lse_reads (m l : Vec Ideal S1024x1 .f32) (r : Fin 1024) :
    k2_pay2 (F := Ideal) m l (ix2 r (0 : Fin 1)) = m (ix2 r (0 : Fin 1)) + Ideal.log (l (ix2 r (0 : Fin 1))) := by
  unfold k2_pay2
  rfl

/-- The block's logit at `(r, c)` is the row's doubled inner product with key row `J * 1024 + c` of the whole array. -/
theorem blockLogit_apply (i : grid2.Coords) (J : Fin 8) (hJ : (i 1).val = J.val)
    (xq : Vec Ideal S1024x256 .bf16) (xk : Vec Ideal S8192x256 .bf16) (r c : Fin 1024) :
    k2_pay6 (F := Ideal) xq (keyBlock i xk) (ix2 r c)
      = Cert.NtXent.dot (fun d => xq (ix2 r d)) (fun d => xk (ix2 (Cert.NtXent.col J c) d)) * Cert.NtXent.two := by
  rw [logit_apply]
  unfold Cert.NtXent.dot
  refine congrArg (· * Cert.NtXent.two) (Finset.sum_congr rfl fun k _ => ?_)
  rw [keyBlock_apply i J hJ xk c k]

open Cert.NtXent in
theorem cols_step (i : grid2.Coords) (I J : Fin 8) (hI : (i 0).val = I.val) (hJ : (i 1).val = J.val)
    (xq : Vec Ideal S1024x256 .bf16) (xk : Vec Ideal S8192x256 .bf16) (m0 l0 t0 : Vec Ideal S1024x1 .f32) (r : Fin 1024) :
    let s : Fin 8192 → EReal := fun cc => dot (fun d => xq (ValueIdx.ix2 r d)) (fun d => xk (ValueIdx.ix2 cc d)) * two
    let a : St := ⟨m0 (ValueIdx.ix2 r 0), l0 (ValueIdx.ix2 r 0), t0 (ValueIdx.ix2 r 0)⟩
    let b : St := step s (label ⟨I.val * 1024 + r.val, by omega⟩) a J
    maxAfter (F := Ideal) i xq xk m0 (ValueIdx.ix2 r 0) = b.m
    ∧ sumAfter (F := Ideal) i xq xk m0 l0 (ValueIdx.ix2 r 0) = b.l
    ∧ labAfter (F := Ideal) i xq xk t0 (ValueIdx.ix2 r 0) = b.t := by
  intro s a b
  have hs : ∀ c : Fin 1024, k2_pay6 (F := Ideal) xq (keyBlock i xk) (ix2 r c) = s (col J c) :=
    fun c => blockLogit_apply i J hJ xq xk r c
  have hm : k2_pay7 (F := Ideal) xq (keyBlock i xk) m0 (ix2 r (0 : Fin 1)) = b.m := by
    rw [pay7_apply, funext hs]
    exact (step_m s _ a J).symm
  refine ⟨?_, ?_, ?_⟩
  · unfold maxAfter k2_pay8
    rw [shapeCast_self]
    exact hm
  · unfold sumAfter
    rw [pay9_apply, hm]
    simp only [hs]
    exact (step_l s _ a J).symm
  · unfold labAfter
    rw [pay1_apply i I J hI hJ]
    simp only [hs]
    exact (step_t s _ a J).symm

end Cert.KernelIdeal.Hand

end
-- ==== Proof.KI.LseArray.lean ====
/- From blocks to the whole arrays, for the streaming call: which rows of the embedding array the two input windows'
   blocks are at a grid point, and what the two result columns hold after the 64 points.

   Point t = 8 I + J works on row block I (rows 1024 I … 1024 I + 1023) against column block J. The queries' block at t
   is the 1024 rows of row block I; the keys' block is the whole array at every point. The two result columns are
   written back at a row block's last point only (J = 7), over rows 1024 I … 1024 I + 1023; the eight row blocks tile
   the 8192 rows, so row r ends holding what row block r / 1024 stored at its last point, at local row r % 1024. -/
import proofs.«119733_j80255758893848_2_alg».proof.Proof.KI.LseDat
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-! ## Where a point and its blocks sit (decided over the 64 points) -/

/-- Point t is column block t % 8 of row block t / 8. -/
theorem point_coords (t : Fin cfg2.N) : ((grid2.coords t) 0).val = t.val / 8 ∧ ((grid2.coords t) 1).val = t.val % 8 :=
  (by decide +kernel : ∀ t : Fin grid2.N, ((grid2.coords t) 0).val = t.val / 8 ∧ ((grid2.coords t) 1).val = t.val % 8) t

/-- The block indices of the four windows at point t: the queries' and the two result columns' blocks are block row
    t / 8, the keys' block is the one block there is; every block column is 0. -/
theorem lse_indices : ∀ t : Fin cfg2.N,
    win2_0.index t (0 : Fin 2) = t.val / 8 ∧ win2_0.index t (1 : Fin 2) = 0
    ∧ win2_1.index t (0 : Fin 2) = 0 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, _)

/-! ## The input windows' blocks are rows of the array -/

section
variable (V : (c : Dev nD) → (b : Ref sig .tc) → Buf (Elt F) ((c : Thread nD τ).loc b))

/-- The queries' block at point t, at local row p, is row 1024 (t / 8) + p of the array. -/
theorem queries_read (c : Dev nD) (t : Fin cfg2.N) (p : Fin 1024) (d : Fin 256) :
    blk2 V c 0 t (ValueIdx.ix2 p d)
      = V c main_v2 (ValueIdx.ix2 (⟨(t.val / 8) * 1024 + p.val, by have := t.isLt; have : cfg2.N = 64 := N_2; omega⟩ : Fin 8192) d) := by
  obtain ⟨h00, h01, -⟩ := lse_indices t
  unfold blk2
  rw [View.read_apply]
  show V c main_v2 _ = V c main_v2 _
  refine congrArg (V c main_v2) (funext fun a => Fin.ext ?_)
  match a with
  | ⟨0, _⟩ =>
    show win2_0.index t (0 : Fin 2) * 1024 + 1 * p.val = (t.val / 8) * 1024 + p.val
    rw [h00]; omega
  | ⟨1, _⟩ =>
    show win2_0.index t (1 : Fin 2) * 256 + 1 * d.val = d.val
    rw [h01]; omega

/-- The keys' block at every point is the whole array. -/
theorem keys_read (c : Dev nD) (t : Fin cfg2.N) (r : Fin 8192) (d : Fin 256) :
    blk2 V c 1 t (ValueIdx.ix2 r d) = V c main_v2 (ValueIdx.ix2 r d) := by
  obtain ⟨-, -, h10, h11, -⟩ := lse_indices t
  unfold blk2
  rw [View.read_apply]
  show V c main_v2 _ = V c main_v2 _
  refine congrArg (V c main_v2) (funext fun a => Fin.ext ?_)
  match a with
  | ⟨0, _⟩ =>
    show win2_1.index t (0 : Fin 2) * 8192 + 1 * r.val = r.val
    rw [h10]; omega
  | ⟨1, _⟩ =>
    show win2_1.index t (1 : Fin 2) * 256 + 1 * d.val = d.val
    rw [h11]; omega

end

/-! ## The result columns after the 64 points -/

section
variable (V : (c : Dev nD) → (b : Ref sig .tc) → Buf (Elt F) ((c : Thread nD τ).loc b))

/-- The last point of the row block that holds row r is one of the 64 points. -/
theorem lastPoint_lt (r : ℕ) (hr : r < 8192) : 8 * (r / 1024) + 7 < cfg2.N := by
  have : cfg2.N = 64 := N_2
  omega

/-- The whole first result column: row r holds maximum + log(sum) of the carried columns after the last point of
    row block r / 1024, at local row r % 1024. -/
def lseCol (c : Dev nD) : S8192x1.Idx → Elt F .f32 := fun i =>
  k2_pay2 (colsAt V c (8 * ((i 0).val / 1024) + 7) (lastPoint_lt _ (idx2_lt0 i))).1
    (colsAt V c (8 * ((i 0).val / 1024) + 7) (lastPoint_lt _ (idx2_lt0 i))).2.1
    (ValueIdx.ix2 (⟨(i 0).val % 1024, Nat.mod_lt _ (by decide)⟩ : Fin 1024) 0)

/-- The whole second result column: row r holds the carried label logit after the last point of row block
    r / 1024, at local row r % 1024. -/
def labCol (c : Dev nD) : S8192x1.Idx → Elt F .f32 := fun i =>
  (colsAt V c (8 * ((i 0).val / 1024) + 7) (lastPoint_lt _ (idx2_lt0 i))).2.2
    (ValueIdx.ix2 (⟨(i 0).val % 1024, Nat.mod_lt _ (by decide)⟩ : Fin 1024) 0)

/-- The carried columns depend on the position only, not on how it is written. -/
theorem colsAt_congr (c : Dev nD) (n m : ℕ) (hn : n < cfg2.N) (hm : m < cfg2.N) (e : n = m) :
    colsAt V c n hn = colsAt V c m hm := by
  subst e; rfl

/-- At a row block's last point t, under local row p of the point's block (row 1024 (t / 8) + p of the array), the
    whole first column is what the body left at t, at p: the row's row block is t / 8 and its last point is t. -/
theorem lseCol_at (c : Dev nD) (t : Fin cfg2.N) (h7 : t.val % 8 = 7) (i : S8192x1.Idx) (p : Fin 1024)
    (hi : (i 0).val = (t.val / 8) * 1024 + p.val) :
    lseCol V c i = k2_pay2 (colsAt V c t.val t.isLt).1 (colsAt V c t.val t.isLt).2.1 (ValueIdx.ix2 p 0) := by
  have hp : p.val < 1024 := p.isLt
  have e1 : 8 * ((i 0).val / 1024) + 7 = t.val := by omega
  have e2 : (⟨(i 0).val % 1024, Nat.mod_lt _ (by decide)⟩ : Fin 1024) = p := Fin.ext (by show (i 0).val % 1024 = p.val; omega)
  unfold lseCol
  rw [colsAt_congr V c _ _ (lastPoint_lt _ (idx2_lt0 i)) t.isLt e1, e2]

theorem labCol_at (c : Dev nD) (t : Fin cfg2.N) (h7 : t.val % 8 = 7) (i : S8192x1.Idx) (p : Fin 1024)
    (hi : (i 0).val = (t.val / 8) * 1024 + p.val) :
    labCol V c i = (colsAt V c t.val t.isLt).2.2 (ValueIdx.ix2 p 0) := by
  have hp : p.val < 1024 := p.isLt
  have e1 : 8 * ((i 0).val / 1024) + 7 = t.val := by omega
  have e2 : (⟨(i 0).val % 1024, Nat.mod_lt _ (by decide)⟩ : Fin 1024) = p := Fin.ext (by show (i 0).val % 1024 = p.val; omega)
  unfold labCol
  rw [colsAt_congr V c _ _ (lastPoint_lt _ (idx2_lt0 i)) t.isLt e1, e2]

/-- What a row block's last point t writes back over its block of the first result column is that block of the
    whole column. The block is not cut, so all of what the body left is written back. -/
theorem lse_writes_back (c : Dev nD) (t : Fin cfg2.N) (hf : (cfg2.win 2).flush t = true) :
    (dat2 V c).flushed 2 t = ((cfg2.win 2).blk t).view.read (Elt F) (lseCol V c) := by
  have h7 : t.val % 8 = 7 := (flush2_2 t).mp hf
  obtain ⟨-, -, -, -, h20, h21, -⟩ := lse_indices t
  show (cfg2.win 2).cut (grid2.coords t) ((dat2 V c).after 2 t) = _
  rw [dat2_leaves_lse]
  funext j
  obtain ⟨p, q, rfl⟩ : ∃ (p : Fin 1024) (q : Fin 1), j = ix2 p q := ⟨j 0, j 1, eq_ix2 j⟩
  have hq : q = 0 := Subsingleton.elim _ _
  subst hq
  show k2_pay2 (colsAt V c t.val t.isLt).1 (colsAt V c t.val t.isLt).2.1 (ix2 p 0) = _
  rw [View.read_apply]
  refine (lseCol_at V c t h7 _ p ?_).symm
  show win2_2.index t (0 : Fin 2) * 1024 + 1 * p.val = (t.val / 8) * 1024 + p.val
  rw [h20]; omega

theorem lab_writes_back (c : Dev nD) (t : Fin cfg2.N) (hf : (cfg2.win 3).flush t = true) :
    (dat2 V c).flushed 3 t = ((cfg2.win 3).blk t).view.read (Elt F) (labCol V c) := by
  have h7 : t.val % 8 = 7 := (flush2_3 t).mp hf
  obtain ⟨-, -, -, -, -, -, h30, h31⟩ := lse_indices t
  show (cfg2.win 3).cut (grid2.coords t) ((dat2 V c).after 3 t) = _
  rw [dat2_leaves_lab]
  funext j
  obtain ⟨p, q, rfl⟩ : ∃ (p : Fin 1024) (q : Fin 1), j = ix2 p q := ⟨j 0, j 1, eq_ix2 j⟩
  have hq : q = 0 := Subsingleton.elim _ _
  subst hq
  show (colsAt V c t.val t.isLt).2.2 (ix2 p 0) = _
  rw [View.read_apply]
  refine (labCol_at V c t h7 _ p ?_).symm
  show win2_3.index t (0 : Fin 2) * 1024 + 1 * p.val = (t.val / 8) * 1024 + p.val
  rw [h30]; omega

/-- An index of a result column lies in point t's block exactly when, on each axis, its coordinate is in the block's
    range: from block index times block size, for one block size. -/
theorem mem_lseBlock (t : Fin cfg2.N) (i : S8192x1.Idx) :
    i ∈ ((cfg2.win 2).blk t).view.set
      ↔ ∀ a : Fin 2, win2_2.index t a * S1024x1.size a ≤ (i a).val
          ∧ (i a).val < win2_2.index t a * S1024x1.size a + S1024x1.size a := by
  show i ∈ ((View.whole main_v3_0).slice (win2_2.rect t)).set ↔ _
  rw [View.set_slice_whole, Rect.mem_set_unit]
  exact Iff.rfl

theorem mem_labBlock (t : Fin cfg2.N) (i : S8192x1.Idx) :
    i ∈ ((cfg2.win 3).blk t).view.set
      ↔ ∀ a : Fin 2, win2_3.index t a * S1024x1.size a ≤ (i a).val
          ∧ (i a).val < win2_3.index t a * S1024x1.size a + S1024x1.size a := by
  show i ∈ ((View.whole main_v3_1).slice (win2_3.rect t)).set ↔ _
  rw [View.set_slice_whole, Rect.mem_set_unit]
  exact Iff.rfl

/-- The eight row blocks tile a result column: row r lies in the block of point 8 (r / 1024) + 7, the last point of
    row block r / 1024, and that point writes its block back. -/
theorem lseBlocks_cover (i : S8192x1.Idx) :
    ∃ t : Fin cfg2.N, (cfg2.win 2).flush t = true ∧ i ∈ ((cfg2.win 2).blk t).view.set := by
  have hr : (i 0).val < 8192 := idx2_lt0 i
  have hc : (i 1).val < 1 := idx2_lt1 i
  obtain ⟨t, ht⟩ : ∃ t : Fin cfg2.N, t.val = 8 * ((i 0).val / 1024) + 7 := ⟨⟨_, lastPoint_lt _ hr⟩, rfl⟩
  obtain ⟨-, -, -, -, h20, h21, -⟩ := lse_indices t
  refine ⟨t, (flush2_2 t).mpr (by omega), ?_⟩
  rw [mem_lseBlock]
  intro a
  match a with
  | ⟨0, _⟩ =>
    show win2_2.index t (0 : Fin 2) * 1024 ≤ (i 0).val ∧ (i 0).val < win2_2.index t (0 : Fin 2) * 1024 + 1024
    rw [h20, ht]; omega
  | ⟨1, _⟩ =>
    show win2_2.index t (1 : Fin 2) * 1 ≤ (i 1).val ∧ (i 1).val < win2_2.index t (1 : Fin 2) * 1 + 1
    rw [h21]; omega

theorem labBlocks_cover (i : S8192x1.Idx) :
    ∃ t : Fin cfg2.N, (cfg2.win 3).flush t = true ∧ i ∈ ((cfg2.win 3).blk t).view.set := by
  have hr : (i 0).val < 8192 := idx2_lt0 i
  have hc : (i 1).val < 1 := idx2_lt1 i
  obtain ⟨t, ht⟩ : ∃ t : Fin cfg2.N, t.val = 8 * ((i 0).val / 1024) + 7 := ⟨⟨_, lastPoint_lt _ hr⟩, rfl⟩
  obtain ⟨-, -, -, -, -, -, h30, h31⟩ := lse_indices t
  refine ⟨t, (flush2_3 t).mpr (by omega), ?_⟩
  rw [mem_labBlock]
  intro a
  match a with
  | ⟨0, _⟩ =>
    show win2_3.index t (0 : Fin 2) * 1024 ≤ (i 0).val ∧ (i 0).val < win2_3.index t (0 : Fin 2) * 1024 + 1024
    rw [h30, ht]; omega
  | ⟨1, _⟩ =>
    show win2_3.index t (1 : Fin 2) * 1 ≤ (i 1).val ∧ (i 1).val < win2_3.index t (1 : Fin 2) * 1 + 1
    rw [h31]; omega

/-- After the 64 points the first result column is the whole column of the row blocks' last points. -/
theorem lse_array (c : Dev nD) : (dat2 V c).arrAt 2 cfg2.N = lseCol V c :=
  (dat2 V c).arrAt_eq_of_cover 2 (lseCol V c) (fun t hf => lse_writes_back V c t hf) lseBlocks_cover

/-- After the 64 points the second result column is the whole column of the row blocks' last points. -/
theorem lab_array (c : Dev nD) : (dat2 V c).arrAt 3 cfg2.N = labCol V c :=
  (dat2 V c).arrAt_eq_of_cover 3 (labCol V c) (fun t hf => lab_writes_back V c t hf) labBlocks_cover

/-- After the 64 points, row r of the first result column holds maximum + log(sum) of the carried columns after the
    last point of row block r / 1024, at local row r % 1024. -/
theorem lse_column (c : Dev nD) (r : Fin 8192) :
    (dat2 V c).arrAt 2 cfg2.N (ValueIdx.ix2 r 0)
      = k2_pay2 (colsAt V c (8 * (r.val / 1024) + 7) (by have : cfg2.N = 64 := N_2; omega)).1
          (colsAt V c (8 * (r.val / 1024) + 7) (by have : cfg2.N = 64 := N_2; omega)).2.1
          (ValueIdx.ix2 (⟨r.val % 1024, Nat.mod_lt _ (by decide)⟩ : Fin 1024) 0) :=
  congrFun (lse_array V c) (ValueIdx.ix2 r 0)

/-- After the 64 points, row r of the second result column holds the carried label logit after the last point of
    row block r / 1024, at local row r % 1024. -/
theorem lab_column (c : Dev nD) (r : Fin 8192) :
    (dat2 V c).arrAt 3 cfg2.N (ValueIdx.ix2 r 0)
      = (colsAt V c (8 * (r.val / 1024) + 7) (by have : cfg2.N = 64 := N_2; omega)).2.2
          (ValueIdx.ix2 (⟨r.val % 1024, Nat.mod_lt _ (by decide)⟩ : Fin 1024) 0) :=
  congrFun (lab_array V c) (ValueIdx.ix2 r 0)

end

end Cert.KernelIdeal.Hand

end
-- ==== Proof.KI.Cols.lean ====
/-
  The three carried columns ARE the specification's streaming state: at row p of row block I, after the body at column
  block j, the running maximum, the running sum and the label logit are the state after j + 1 steps over the row's
  doubled inner products with all 8192 normalised rows. By induction along the row block's eight column blocks: a
  row block's first point starts from (minus infinity, 0, 0), each later point continues from the point before.
-/
import proofs.«119733_j80255758893848_2_alg».proof.Proof.KI.Reps
import proofs.«119733_j80255758893848_2_alg».proof.Proof.KI.LseStep
import proofs.«119733_j80255758893848_2_alg».proof.Proof.KI.LseArray

set_option maxRecDepth 16384

noncomputable section

namespace Cert.KernelIdeal.Hand

open Cert.KernelIdeal Cert.KernelIdeal.Gen Cert.NtXent
open Idealize.ShloMosaic Idealize.ShloMosaic.TcCoe Idealize.SL.Sem

variable (m : (ℓ : Loc nD τ sig) → Buf (Elt Ideal) ℓ) (c : Dev nD)

/-- The buffer contents the streaming call is entered with. -/
abbrev atLse : (c : Dev nD) → (b : Ref sig .tc) → Buf (Elt Ideal) ((c : Thread nD τ).loc b) := atTc (afterConcat (F := Ideal) m)

/-- Row g's doubled inner products with every normalised row. -/
abbrev rowLogits (g : Fin 8192) : Fin 8192 → EReal := simK (reps (rowsI m c) (rowsJ m c)) g

theorem point_lt (I : Fin 8) (j : ℕ) (hj : j < 8) : 8 * I.val + j < cfg2.N := by
  have : cfg2.N = 64 := N_2; omega

theorem row_lt (I : Fin 8) (p : Fin 1024) : I.val * 1024 + p.val < 8192 := by omega

/-- What a point's two input blocks give at local row p: the doubled inner products of global row (t / 8) · 1024 + p. -/
theorem point_logits (I : Fin 8) (j : ℕ) (hj : j < 8) (p : Fin 1024) :
    (fun cc : Fin 8192 =>
        dot (fun d => blk2 (atLse m) c 0 ⟨8 * I.val + j, point_lt I j hj⟩ (ValueIdx.ix2 p d))
          (fun d => blk2 (atLse m) c 1 ⟨8 * I.val + j, point_lt I j hj⟩ (ValueIdx.ix2 cc d)) * two)
      = rowLogits m c ⟨I.val * 1024 + p.val, row_lt I p⟩ := by
  funext cc
  have hq : ∀ d : Fin 256, blk2 (atLse m) c 0 ⟨8 * I.val + j, point_lt I j hj⟩ (ValueIdx.ix2 p d)
      = reps (rowsI m c) (rowsJ m c) ⟨I.val * 1024 + p.val, row_lt I p⟩ d := fun d => by
    rw [queries_read, ← reps_entries]
    exact congrArg (fun g : Fin 8192 => atLse m c main_v2 (ValueIdx.ix2 g d)) (Fin.ext (by show (8 * I.val + j) / 8 * 1024 + p.val = I.val * 1024 + p.val; omega))
  have hk : ∀ d : Fin 256, blk2 (atLse m) c 1 ⟨8 * I.val + j, point_lt I j hj⟩ (ValueIdx.ix2 cc d)
      = reps (rowsI m c) (rowsJ m c) cc d := fun d => by
    rw [keys_read, ← reps_entries]
  simp only [hq, hk]
  rfl

/-- THE INVARIANT of the walk along a row block. -/
theorem cols_are_state (I : Fin 8) (p : Fin 1024) : ∀ (j : ℕ) (hj : j < 8),
    (colsAt (atLse m) c (8 * I.val + j) (point_lt I j hj)).1 (ValueIdx.ix2 p 0)
        = (stateAt (rowLogits m c ⟨I.val * 1024 + p.val, row_lt I p⟩) (label ⟨I.val * 1024 + p.val, row_lt I p⟩) (j + 1)).m
    ∧ (colsAt (atLse m) c (8 * I.val + j) (point_lt I j hj)).2.1 (ValueIdx.ix2 p 0)
        = (stateAt (rowLogits m c ⟨I.val * 1024 + p.val, row_lt I p⟩) (label ⟨I.val * 1024 + p.val, row_lt I p⟩) (j + 1)).l
    ∧ (colsAt (atLse m) c (8 * I.val + j) (point_lt I j hj)).2.2 (ValueIdx.ix2 p 0)
        = (stateAt (rowLogits m c ⟨I.val * 1024 + p.val, row_lt I p⟩) (label ⟨I.val * 1024 + p.val, row_lt I p⟩) (j + 1)).t := by
  intro j
  induction j with
  | zero =>
    intro hj
    have hfirst : (⟨8 * I.val + 0, point_lt I 0 hj⟩ : Fin cfg2.N).val % 8 = 0 := by show (8 * I.val + 0) % 8 = 0; omega
    have hc := point_coords ⟨8 * I.val + 0, point_lt I 0 hj⟩
    have step1 := cols_step (grid2.coords ⟨8 * I.val + 0, point_lt I 0 hj⟩) I ⟨0, by omega⟩
      (hc.1.trans (by show (8 * I.val + 0) / 8 = I.val; omega)) (hc.2.trans (by show (8 * I.val + 0) % 8 = 0; omega))
      (blk2 (atLse m) c 0 ⟨8 * I.val + 0, point_lt I 0 hj⟩) (blk2 (atLse m) c 1 ⟨8 * I.val + 0, point_lt I 0 hj⟩)
      (k2_pay3 (F := Ideal)) (k2_pay4 (F := Ideal)) (k2_pay5 (F := Ideal)) p
    dsimp only at step1
    rw [point_logits m c I 0 hj p, (cols_start p).1, (cols_start p).2.1, (cols_start p).2.2] at step1
    have hstate : stateAt (rowLogits m c ⟨I.val * 1024 + p.val, row_lt I p⟩) (label ⟨I.val * 1024 + p.val, row_lt I p⟩) (0 + 1)
        = step (rowLogits m c ⟨I.val * 1024 + p.val, row_lt I p⟩) (label ⟨I.val * 1024 + p.val, row_lt I p⟩) init ⟨0, by omega⟩ := by
      show (if h : 0 < 8 then step _ _ (stateAt _ _ 0) ⟨0, h⟩ else stateAt _ _ 0) = _
      rw [dif_pos (by omega)]; rfl
    rw [hstate, colsAt_first (atLse m) c ⟨8 * I.val + 0, point_lt I 0 hj⟩ hfirst]
    exact step1
  | succ j ih =>
    intro hj
    have hprev := ih (by omega)
    have hnext : ¬(⟨8 * I.val + (j + 1), point_lt I (j + 1) hj⟩ : Fin cfg2.N).val % 8 = 0 := by
      show ¬(8 * I.val + (j + 1)) % 8 = 0; omega
    have hc := point_coords ⟨8 * I.val + (j + 1), point_lt I (j + 1) hj⟩
    have back : colsAt (atLse m) c ((⟨8 * I.val + (j + 1), point_lt I (j + 1) hj⟩ : Fin cfg2.N).val - 1)
          (Nat.lt_of_le_of_lt (Nat.sub_le _ _) (point_lt I (j + 1) hj))
        = colsAt (atLse m) c (8 * I.val + j) (point_lt I j (by omega)) :=
      colsAt_congr (atLse m) c _ _ _ _ (by show 8 * I.val + (j + 1) - 1 = 8 * I.val + j; omega)
    have step1 := cols_step (grid2.coords ⟨8 * I.val + (j + 1), point_lt I (j + 1) hj⟩) I ⟨j + 1, hj⟩
      (hc.1.trans (by show (8 * I.val + (j + 1)) / 8 = I.val; omega)) (hc.2.trans (by show (8 * I.val + (j + 1)) % 8 = j + 1; omega))
      (blk2 (atLse m) c 0 ⟨8 * I.val + (j + 1), point_lt I (j + 1) hj⟩) (blk2 (atLse m) c 1 ⟨8 * I.val + (j + 1), point_lt I (j + 1) hj⟩)
      (colsAt (atLse m) c (8 * I.val + j) (point_lt I j (by omega))).1 (colsAt (atLse m) c (8 * I.val + j) (point_lt I j (by omega))).2.1
      (colsAt (atLse m) c (8 * I.val + j) (point_lt I j (by omega))).2.2 p
    dsimp only at step1
    rw [point_logits m c I (j + 1) hj p, hprev.1, hprev.2.1, hprev.2.2] at step1
    have hstate : stateAt (rowLogits m c ⟨I.val * 1024 + p.val, row_lt I p⟩) (label ⟨I.val * 1024 + p.val, row_lt I p⟩) (j + 1 + 1)
        = step (rowLogits m c ⟨I.val * 1024 + p.val, row_lt I p⟩) (label ⟨I.val * 1024 + p.val, row_lt I p⟩)
            (stateAt (rowLogits m c ⟨I.val * 1024 + p.val, row_lt I p⟩) (label ⟨I.val * 1024 + p.val, row_lt I p⟩) (j + 1)) ⟨j + 1, hj⟩ := by
      show (if h : j + 1 < 8 then step _ _ (stateAt _ _ (j + 1)) ⟨j + 1, h⟩ else stateAt _ _ (j + 1)) = _
      rw [dif_pos hj]
    rw [hstate, colsAt_next (atLse m) c ⟨8 * I.val + (j + 1), point_lt I (j + 1) hj⟩ hnext, back]
    exact step1

end Cert.KernelIdeal.Hand

end
-- ==== Proof.KI.Value.lean ====
/-
  The kernel's result: the final quotient of the sum over the 8192 rows of (maximum + log(sum)) - label logit, each row's
  three numbers being the specification's streaming state after all eight column blocks, is the streaming loss of the
  two argument arrays' rows.
-/
import proofs.«119733_j80255758893848_2_alg».proof.Proof.KI.Cols

set_option maxRecDepth 16384

noncomputable section

namespace Cert.KernelIdeal.Hand

open Cert.KernelIdeal Cert.KernelIdeal.Gen Cert.NtXent
open Idealize.ShloMosaic Idealize.ShloMosaic.TcCoe Idealize.SL.Sem

variable (m : (ℓ : Loc nD τ sig) → Buf (Elt Ideal) ℓ) (c : Dev nD)

/-- The two result columns after the streaming call, as columns of extended reals. -/
def lseFinal : S8192x1.Idx → EReal := (dat2 (atLse m) c).arrAt 2 cfg2.N
def labFinal : S8192x1.Idx → EReal := (dat2 (atLse m) c).arrAt 3 cfg2.N

/-- Row r's term: what the two result columns hold at row r after the streaming call, subtracted. -/
theorem row_term (r : Fin 8192) :
    lseFinal m c (ValueIdx.ix2 r 0) - labFinal m c (ValueIdx.ix2 r 0) = termK (rowLogits m c r) (label r) := by
  have hI : r.val / 1024 < 8 := by have := r.isLt; omega
  have hs := cols_are_state m c ⟨r.val / 1024, hI⟩ ⟨r.val % 1024, Nat.mod_lt _ (by decide)⟩ 7 (by omega)
  have hr : (⟨r.val / 1024 * 1024 + r.val % 1024, row_lt ⟨r.val / 1024, hI⟩ ⟨r.val % 1024, Nat.mod_lt _ (by decide)⟩⟩ : Fin 8192) = r :=
    Fin.ext (Nat.div_add_mod' r.val 1024)
  dsimp only at hs
  rw [hr] at hs
  unfold lseFinal labFinal
  rw [lse_column, lab_column, lse_reads]
  unfold termK
  rw [← hs.1, ← hs.2.1, ← hs.2.2]

/-- THE KERNEL'S VALUE. -/
theorem kernel_value :
    atEnd (F := Ideal) m c (Proc.devRef .tc main_v8) = fun _ => lossK (rowsI m c) (rowsJ m c) := by
  show StableHlo.after (hostOps3 (F := Ideal)) (afterLse m c) (Proc.devRef .tc main_v8) = _
  rw [tail_reads (afterLse m c) (lseFinal m c) (labFinal m c) (afterLse_lse m c) (afterLse_lab m c)]
  unfold lossK
  funext _
  refine congrArg (fun s => Ideal.div (0 + s) n8192) (Finset.sum_congr rfl fun r _ => ?_)
  exact row_term m c r

end Cert.KernelIdeal.Hand

end
-- ==== Proof.KI.Finite.lean ====
/- Every entry of the two argument arrays is a real number, from the program's precondition: the precondition
   says that, for each array, "the absolute value is below +infinity" holds at every entry, and on the extended
   reals an absolute value below +infinity rules out both infinities. -/
import proofs.«119733_j80255758893848_2_alg».proof.Defs
import Idealize.ShloMosaic.Lib.ReduceAll
import Idealize.ShloMosaic.Lib.Affine
import Idealize.ShloMosaic.Lib.ValueIdx
import Idealize.ShloMosaic.Lib.Pipeline.Value

noncomputable section

namespace Cert.KernelIdeal.Hand

open Idealize.ShloMosaic Idealize.ShloMosaic.ValueIdx
open Idealize.SL.Sem

/-! ## On one value -/

/-- The word `0x7F800000` read as an f32 is plus infinity. -/
theorem posInf_word : Ideal.ofBits .f32 0x7F800000#32 = (⊤ : EReal) := by
  simp [Ideal.ofBits, Ideal.ieee]

/-- An extended real whose absolute value `max x (-x)` compares strictly below plus infinity is a real: at either
    infinity the absolute value is plus infinity. -/
theorem real_of_abs_below_top (x : EReal) (h : Ideal.cmp .olt (max x (-x)) ⊤ = 1#1) : ∃ r : ℝ, x = (r : EReal) := by
  -- the comparison's bit is the truth value of the strict inequality
  have hb : BitVec.ofBool (decide (max x (-x) < ⊤)) = 1#1 := h
  have hlt : max x (-x) < ⊤ := by
    by_contra hn
    rw [decide_eq_false hn] at hb
    exact absurd hb (by decide)
  induction x using EReal.rec with
  | bot =>
    -- |−∞| = max (−∞) (+∞) = +∞
    rw [EReal.neg_bot, max_eq_right bot_le] at hlt
    exact absurd hlt (lt_irrefl _)
  | coe r => exact ⟨r, rfl⟩
  | top =>
    rw [max_eq_left le_top] at hlt
    exact absurd hlt (lt_irrefl _)

/-! ## On one array -/

/-- The rank-zero shape has one index. -/
instance : Subsingleton Cert.Pre_finite_inputs.S_.Idx := ⟨fun a b => funext fun d => d.elim0⟩

/-- If the entrywise check "absolute value below the plus-infinity word, broadcast to the array's shape" gives 1
    at an index, the array's entry there is a real. -/
theorem real_of_check (A : FVec Ideal Cert.Pre_finite_inputs.S4096x256 .f32)
    (bc : Cert.Pre_finite_inputs.S_.BroadcastsInDim Cert.Pre_finite_inputs.S4096x256
      (![] : Fin 0 → Fin Cert.Pre_finite_inputs.S4096x256.rank))
    (i : Cert.Pre_finite_inputs.S4096x256.Idx)
    (h : cmpf .olt (Host.absf A)
          (broadcastInDim Cert.Pre_finite_inputs.S4096x256 ![] bc
            (constant (F := Ideal) Cert.Pre_finite_inputs.S_ .f32 0x7F800000#32)) i = 1#1) :
    ∃ r : ℝ, A i = (r : EReal) := by
  -- the comparison is entry by entry; the broadcast constant reads the word's value at every index
  have h' : Ideal.cmp .olt (max (A i) (-(A i))) (Ideal.ofBits .f32 0x7F800000#32) = 1#1 := h
  rw [posInf_word] at h'
  exact real_of_abs_below_top (A i) h'

/-! ## On the two arguments -/

/-- Under the precondition every entry of both argument arrays, on every device, is a real. -/
theorem inputs_real [Cert.Pre_finite_inputs.Facts] (m : (ℓ : Loc nD τ sig) → Buf (Elt Ideal) ℓ)
    (h : Cert.Pre_KernelIdeal m) (c : Dev nD) :
    (∀ (r : Fin 4096) (d : Fin 256), ∃ x : ℝ, m ((c.tc : Thread nD τ).loc main_arg0) (ValueIdx.ix2 r d) = (x : EReal))
    ∧ (∀ (r : Fin 4096) (d : Fin 256), ∃ x : ℝ, m ((c.tc : Thread nD τ).loc main_arg1) (ValueIdx.ix2 r d) = (x : EReal)) := by
  -- the precondition's one bit, on this device
  have e := congrFun (h c) ValueIdx.ix0
  dsimp only [Cert.Pre_finite_inputs.fn] at e
  -- it is the conjunction of the two arrays' bits
  obtain ⟨e0, e1⟩ := IntOp.andi_eq_one.mp e
  refine ⟨fun r d => ?_, fun r d => ?_⟩
  · -- a conjunction over all entries that is 1 was 1 at each entry
    exact real_of_check _ _ _ (Host.reduce_andi_all _ _ _ _ _ e0 (ix2 r d))
  · exact real_of_check _ _ _ (Host.reduce_andi_all _ _ _ _ _ e1 (ix2 r d))

end Cert.KernelIdeal.Hand

end
-- ==== Proof.RefLoss.lean ====
/-
  The reference's result is the direct arrangement of the loss (Spec.lean's lossR) of the two arguments' rows.

  Read one operation at a time, index by index: each of the 4096 rows of an argument is divided by
  max(sqrt(0 + sum of its squares), eps) — the normalised row; the two arrays stacked are the 8192 rows; the inner
  products of the rows, divided by one half, are the logits; a row's maximum is the fold of max from minus infinity over
  the row, once more against minus infinity; the log-softmax at (r, c) is (logit - maximum) less the log of
  0 + the sum over the row of exp(logit - maximum); the label words are 0 + 2 r for r < 4096 and 0 + 2 (r - 4096) + 1
  otherwise, all below 8192, so the wrap of negative indices keeps them, the in-range mask is all ones, and the gather
  along a row reads the log-softmax at the label; the sum over the 8192 x 1 gathered entries is the sum over the rows;
  divided by 8192 and negated it is the loss.
-/
import proofs.«119733_j80255758893848_2_alg».proof.Proof.Spec
import proofs.«119733_j80255758893848_2_alg».proof.Proof.Rows
import proofs.«119733_j80255758893848_2_alg».proof.Proof.RefRead

noncomputable section

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx

/-- The two arguments' rows, normalised and stacked: the 8192 rows the logits are inner products of. -/
abbrev Rs (x0 x1 : (⟨S4096x256, .f32⟩ : BufTy).Contents (Elt Ideal)) : Fin 8192 → Fin 256 → EReal :=
  Cert.NtXent.reps (Cert.NtXent.rowsOf x0) (Cert.NtXent.rowsOf x1)

/-! ## The normalised rows -/

theorem idx_row (r : Fin 4096) (d k : Fin 256) : idx_main_v1 (idx_main_v2 (idx_main_v6 (ix2 r d))) k = ix2 r k := by
  funext a; match a with | ⟨0, _⟩ => rfl | ⟨1, _⟩ => rfl

theorem idx_row' (r : Fin 4096) (d k : Fin 256) : idx_main_v9 (idx_main_v10 (idx_main_v14 (ix2 r d))) k = ix2 r k := by
  funext a; match a with | ⟨0, _⟩ => rfl | ⟨1, _⟩ => rfl

/-- Entry (r, d) of the first argument divided by its row's divisor. -/
theorem unit0 (x0 : (⟨S4096x256, .f32⟩ : BufTy).Contents (Elt Ideal)) (r : Fin 4096) (d : Fin 256) :
    val_main_v7 (F := Ideal) x0 (ix2 r d) = Cert.NtXent.unit (Cert.NtXent.rowsOf x0 r) d := by
  rw [val_main_v7_apply, val_main_v6_apply, val_main_v5_apply, val_main_v3_apply, val_main_v2_apply, val_main_v1_apply,
    val_main_v4_apply, val_main_cst_0_apply, val_main_cst_apply]
  simp only [Ideal.hostDivf_def, Ideal.maximumf_def, Ideal.hostUnary_sqrt_def, Ideal.ofBits_def, Ideal.ofBits_zero_f32, zero_add,
    val_main_v0_apply, Ideal.mulf_def, idx_row]
  rfl

/-- The same for the second argument. -/
theorem unit1 (x1 : (⟨S4096x256, .f32⟩ : BufTy).Contents (Elt Ideal)) (r : Fin 4096) (d : Fin 256) :
    val_main_v15 (F := Ideal) x1 (ix2 r d) = Cert.NtXent.unit (Cert.NtXent.rowsOf x1 r) d := by
  rw [val_main_v15_apply, val_main_v14_apply, val_main_v13_apply, val_main_v11_apply, val_main_v10_apply, val_main_v9_apply,
    val_main_v12_apply, val_main_cst_2_apply, val_main_cst_1_apply]
  simp only [Ideal.hostDivf_def, Ideal.maximumf_def, Ideal.hostUnary_sqrt_def, Ideal.ofBits_def, Ideal.ofBits_zero_f32, zero_add,
    val_main_v8_apply, Ideal.mulf_def, idx_row']
  rfl

/-- The stacked rows: rows below 4096 from the first argument, the rest from the second. -/
theorem reps_apply (x0 x1 : (⟨S4096x256, .f32⟩ : BufTy).Contents (Elt Ideal)) (r : Fin 8192) (d : Fin 256) :
    val_main_v16 (F := Ideal) x0 x1 (ix2 r d) = Rs x0 x1 r d := by
  unfold val_main_v16 Rs Cert.NtXent.reps
  by_cases h : r.val < 4096
  · rw [dif_pos h, concatenate_pair_apply_left _ _ _ concatenates_S4096x256_S4096x256_S8192x256_d0 (ix2 r d) rfl
      (ix2 (⟨r.val, h⟩ : Fin 4096) d) (fun b => match b with | ⟨0, _⟩ => rfl | ⟨1, _⟩ => rfl)]
    exact unit0 x0 ⟨r.val, h⟩ d
  · rw [dif_neg h, concatenate_pair_apply_right _ _ _ concatenates_S4096x256_S4096x256_S8192x256_d0 (ix2 r d) rfl rfl
      (ix2 (⟨r.val - 4096, by omega⟩ : Fin 4096) d)
      (fun b hb => match b, hb with | ⟨0, _⟩, hb => absurd rfl hb | ⟨1, _⟩, _ => rfl)
      (by show (r.val - 4096) + 4096 = r.val; omega)]
    exact unit1 x1 ⟨r.val - 4096, by omega⟩ d

/-! ## The logits -/

theorem lidx_row (r c : Fin 8192) (k : Fin 256) : lidx_main_v17 (ix2 r c) k = ix2 r k := by
  funext a; match a with | ⟨0, _⟩ => rfl | ⟨1, _⟩ => rfl
theorem ridx_row (r c : Fin 8192) (k : Fin 256) : ridx_main_v17 (ix2 r c) k = ix2 c k := by
  funext a; match a with | ⟨0, _⟩ => rfl | ⟨1, _⟩ => rfl

/-- Entry (r, c) of the logits: the inner product of rows r and c, divided by one half. -/
theorem logit_apply (x0 x1 : (⟨S4096x256, .f32⟩ : BufTy).Contents (Elt Ideal)) (r c : Fin 8192) :
    val_main_v19 (F := Ideal) x0 x1 (ix2 r c) = Cert.NtXent.simR (Rs x0 x1) r c := by
  rw [val_main_v19_apply, val_main_v17_apply, val_main_v18_apply, val_main_cst_3_apply]
  simp only [Ideal.hostDivf_def, Ideal.ofBits_def, lidx_row, ridx_row, reps_apply]
  rfl

/-! ## The log-softmax -/

theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- A row's maximum: the fold of max from minus infinity over the row, once more against minus infinity. -/
theorem rowmax_apply (x0 x1 : (⟨S4096x256, .f32⟩ : BufTy).Contents (Elt Ideal)) (r : Fin 8192) :
    val_main_call0_v2 (F := Ideal) x0 x1 (ix1 r) = Cert.NtXent.rowMax (Cert.NtXent.simR (Rs x0 x1) r) := by
  rw [val_main_call0_v2_apply, val_main_call0_v1_apply, val_main_call0_cst_0_apply]
  unfold val_main_call0_v0
  rw [Host.reduce_eq_fold_single FloatOps.maximumf _ _ reducesTo_S8192x8192_S8192_d1 (by decide) h_S_, val_main_call0_cst_apply]
  have hf : (val_main_v19 (F := Ideal) x0 x1 ∘ (by decide : S8192x8192.Reduces [1] S8192).lift (ix1 r))
      = fun k : Fin 8192 => Cert.NtXent.simR (Rs x0 x1) r k := funext fun k => by
    show val_main_v19 (F := Ideal) x0 x1 _ = _
    rw [lift_row]; exact logit_apply x0 x1 r _
  rw [hf]
  rfl

theorem idx_c0v3 (r c : Fin 8192) : idx_main_call0_v3 (idx_main_call0_v4 (ix2 r c)) = ix1 r := by
  funext a; match a with | ⟨0, _⟩ => rfl
theorem idx_c0v8 (r c : Fin 8192) : idx_main_call0_v8 (idx_main_call0_v10 (ix2 r c)) = ix1 r := by
  funext a; match a with | ⟨0, _⟩ => rfl
theorem idx_c0v7 (r k : Fin 8192) : idx_main_call0_v7 (ix1 r) k = ix2 r k := by
  funext a; match a with | ⟨0, _⟩ => rfl | ⟨1, _⟩ => rfl

/-- A logit less its row's maximum. -/
theorem shift_apply (x0 x1 : (⟨S4096x256, .f32⟩ : BufTy).Contents (Elt Ideal)) (r c : Fin 8192) :
    val_main_call0_v5 (F := Ideal) x0 x1 (ix2 r c)
      = Cert.NtXent.simR (Rs x0 x1) r c - Cert.NtXent.rowMax (Cert.NtXent.simR (Rs x0 x1) r) := by
  rw [val_main_call0_v5_apply, val_main_call0_v4_apply, val_main_call0_v3_apply, idx_c0v3, rowmax_apply, logit_apply]
  rfl

/-- Entry (r, c) of the log-softmax. -/
theorem lsm_apply (x0 x1 : (⟨S4096x256, .f32⟩ : BufTy).Contents (Elt Ideal)) (r c : Fin 8192) :
    val_main_v28 (F := Ideal) x0 x1 (ix2 r c)
      = (Cert.NtXent.simR (Rs x0 x1) r c - Cert.NtXent.rowMax (Cert.NtXent.simR (Rs x0 x1) r))
        - Ideal.log (0 + ∑ c' : Fin 8192, Ideal.exp (Cert.NtXent.simR (Rs x0 x1) r c' - Cert.NtXent.rowMax (Cert.NtXent.simR (Rs x0 x1) r))) := by
  rw [val_main_v28_apply, val_main_call0_v10_apply, val_main_call0_v9_apply, val_main_call0_v8_apply, idx_c0v8,
    val_main_call0_v7_apply, val_main_call0_cst_1_apply, shift_apply]
  simp only [Ideal.subf_def, Ideal.hostUnary_log_def, Ideal.ofBits_def, Ideal.ofBits_zero_f32, idx_c0v7, val_main_call0_v6_apply,
    Ideal.hostUnary_exp_def, shift_apply]

/-! ## The labels, as 32-bit words -/

/-- Entry r of the label array: the label column of row r, as a word. -/
theorem label_word (r : Fin 8192) :
    val_main_v27 (F := Ideal) (ix1 r) = BitVec.ofNat 32 (Cert.NtXent.label r).val := by
  unfold val_main_v27 Cert.NtXent.label
  by_cases h : r.val < 4096
  · rw [dif_pos h, concatenate_pair_apply_left _ _ _ concatenates_S4096_S4096_S8192_d0 (ix1 r) rfl (ix1 (⟨r.val, h⟩ : Fin 4096))
      (fun b => match b with | ⟨0, _⟩ => rfl)]
    rw [val_main_v24_apply, val_main_v23_apply, val_main_c_4_apply, val_main_v22_apply, val_main_v21_apply, val_main_c_apply,
      val_main_v20_apply]
    show IntOp.addi 0#32 (IntOp.muli 2#32 (BitVec.ofNat 32 r.val)) = BitVec.ofNat 32 (2 * r.val)
    unfold IntOp.addi IntOp.muli
    bv_omega
  · rw [dif_neg h, concatenate_pair_apply_right _ _ _ concatenates_S4096_S4096_S8192_d0 (ix1 r) rfl rfl
      (ix1 (⟨r.val - 4096, by omega⟩ : Fin 4096))
      (fun b hb => match b, hb with | ⟨0, _⟩, hb => absurd rfl hb)
      (by show (r.val - 4096) + 4096 = r.val; omega)]
    rw [val_main_v26_apply, val_main_v25_apply, val_main_c_5_apply, val_main_v24_apply, val_main_v23_apply, val_main_c_4_apply,
      val_main_v22_apply, val_main_v21_apply, val_main_c_apply, val_main_v20_apply]
    show IntOp.addi (IntOp.addi 0#32 (IntOp.muli 2#32 (BitVec.ofNat 32 (r.val - 4096)))) 1#32 = BitVec.ofNat 32 (2 * (r.val - 4096) + 1)
    unfold IntOp.addi IntOp.muli
    bv_omega

/-- A word below 8192 read as a signed integer is itself. -/
theorem toInt_small (n : Nat) (h : n < 8192) : (BitVec.ofNat 32 n).toInt = (n : Int) := by
  rw [BitVec.toInt_eq_toNat_cond, BitVec.toNat_ofNat, Nat.mod_eq_of_lt (by omega), if_pos (by omega)]

theorem slt_zero_small (n : Nat) (h : n < 8192) : IntOp.cmpi .slt (BitVec.ofNat 32 n) 0#32 = 0#1 := by
  have : (BitVec.ofNat 32 n).slt 0#32 = false := by
    rw [BitVec.slt, toInt_small n h]; simp
  show BitVec.ofBool ((BitVec.ofNat 32 n).slt 0#32) = 0#1
  rw [this]; rfl

theorem sge_zero_small (n : Nat) (h : n < 8192) : IntOp.cmpi .sge (BitVec.ofNat 32 n) 0#32 = 1#1 := by
  have : (0#32).sle (BitVec.ofNat 32 n) = true := by
    rw [BitVec.sle, toInt_small n h]; simp
  show BitVec.ofBool ((0#32).sle (BitVec.ofNat 32 n)) = 1#1
  rw [this]; rfl

theorem sle_max_small (n : Nat) (h : n < 8192) : IntOp.cmpi .sle (BitVec.ofNat 32 n) 8191#32 = 1#1 := by
  have : (BitVec.ofNat 32 n).sle 8191#32 = true := by
    rw [BitVec.sle, toInt_small n h, show (8191#32).toInt = (8191 : Int) from by decide]; simp; omega
  show BitVec.ofBool ((BitVec.ofNat 32 n).sle 8191#32) = 1#1
  rw [this]; rfl

theorem idx_v29 (r : Fin 8192) : idx_main_v29 (ix2 r (0 : Fin 1)) = ix1 r := by
  funext a; match a with | ⟨0, _⟩ => rfl

theorem idx_c1v5 (r : Fin 8192) : idx_main_call1_v5 (ix3 r (0 : Fin 1) (0 : Fin 1)) = ix2 r (0 : Fin 1) := by
  funext a; match a with
  | ⟨0, _⟩ => exact Fin.ext (by show ((r.val * 1 + 0) * 1 + 0) / 1 = r.val; omega)
  | ⟨1, _⟩ => rfl

/-- The gather's start index for row r: the label, unchanged by the wrap of negative indices. -/
theorem start_word (r : Fin 8192) :
    val_main_call1_v5 (F := Ideal) (ix3 r (0 : Fin 1) (0 : Fin 1)) = BitVec.ofNat 32 (Cert.NtXent.label r).val := by
  rw [val_main_call1_v5_apply, idx_c1v5, val_main_call1_v4_apply, val_main_call1_v1_apply, val_main_call1_v0_apply,
    val_main_call1_c_apply, val_main_v29_apply, idx_v29, label_word, slt_zero_small _ (Cert.NtXent.label r).isLt, select_zero]

/-! ## The in-range mask and the gather -/

theorem lift_c1 (h : S8192x1x1.Reduces [2] S8192x1) (r : Fin 8192) (k : Fin (S8192x1x1.size 2)) :
    h.lift (ix2 r (0 : Fin 1)) k = ix3 r (0 : Fin 1) (0 : Fin 1) := by
  have hk : k.val < 1 := k.isLt
  have hk0 : k.val = 0 := by omega
  funext c; apply Fin.ext
  fin_cases c
  · rfl
  · rfl
  · exact hk0

/-- Every start index is in range: the mask is all ones. -/
theorem mask_one (r : Fin 8192) : val_main_call1_v12 (F := Ideal) (ix2 r (0 : Fin 1)) = 1#1 := by
  unfold val_main_call1_v12
  rw [Host.reduce_eq_fold_single IntOp.andi _ _ reducesTo_S8192x1x1_S8192x1_d2 (by decide) h_S_, val_main_call1_c_3_apply]
  have hf : (val_main_call1_v11 (F := Ideal) ∘ (by decide : S8192x1x1.Reduces [2] S8192x1).lift (ix2 r (0 : Fin 1)))
      = fun _ : Fin 1 => (1#1 : BitVec 1) := funext fun k => by
    show val_main_call1_v11 (F := Ideal) _ = _
    rw [lift_c1, val_main_call1_v11_apply, val_main_call1_v7_apply, val_main_call1_v10_apply, val_main_call1_v6_apply,
      val_main_call1_c_2_apply, val_main_call1_v9_apply, val_main_call1_v8_apply, val_main_call1_c_1_apply, start_word,
      sge_zero_small _ (Cert.NtXent.label r).isLt, sle_max_small _ (Cert.NtXent.label r).isLt]
    rfl
  rw [hf]
  rfl

/-- The gather along a row at a start index below the row's length reads the row there. -/
theorem gather_apply {α : Type} (x : S8192x8192.Idx → α) (idx : IVec S8192x1x1 32) (r : Fin 8192) (n : Nat) (hn : n < 8192)
    (hidx : idx (ix3 r (0 : Fin 1) (0 : Fin 1)) = BitVec.ofNat 32 n) :
    Host.gather gather_S8192x8192_S8192x1x1_S8192x1_n_1_0_0_1_2_11 x idx (ix2 r (0 : Fin 1)) = x (ix2 r (⟨n, hn⟩ : Fin 8192)) := by
  unfold Host.gather
  congr 1
  funext a
  refine Fin.ext ?_
  have h0 : gather_S8192x8192_S8192x1x1_S8192x1_n_1_0_0_1_2_11.start (ix2 r (0 : Fin 1)) idx (0 : Fin S8192x8192.rank)
      + gather_S8192x8192_S8192x1x1_S8192x1_n_1_0_0_1_2_11.batchCoord (ix2 r (0 : Fin 1)) (0 : Fin S8192x8192.rank)
      + gather_S8192x8192_S8192x1x1_S8192x1_n_1_0_0_1_2_11.offCoord (ix2 r (0 : Fin 1)) (0 : Fin S8192x8192.rank) = r.val := by
    rw [GatherDims.start_batching _ _ _ _ (by decide), GatherDims.offCoord_eq_zero _ _ _ (by decide), Nat.zero_add, Nat.add_zero]
    rfl
  have h1 : gather_S8192x8192_S8192x1x1_S8192x1_n_1_0_0_1_2_11.start (ix2 r (0 : Fin 1)) idx (1 : Fin S8192x8192.rank)
      + gather_S8192x8192_S8192x1x1_S8192x1_n_1_0_0_1_2_11.batchCoord (ix2 r (0 : Fin 1)) (1 : Fin S8192x8192.rank)
      + gather_S8192x8192_S8192x1x1_S8192x1_n_1_0_0_1_2_11.offCoord (ix2 r (0 : Fin 1)) (1 : Fin S8192x8192.rank) = n := by
    rw [GatherDims.batchCoord_eq_zero _ _ _ (by decide), GatherDims.offCoord_eq_zero _ _ _ (by decide)]
    unfold GatherDims.start
    rw [dif_pos (by decide)]
    have hsi : gather_S8192x8192_S8192x1x1_S8192x1_n_1_0_0_1_2_11.siIdx (ix2 r (0 : Fin 1))
        ⟨List.idxOf (1 : Fin S8192x8192.rank) gather_S8192x8192_S8192x1x1_S8192x1_n_1_0_0_1_2_11.startIndexMap,
          List.idxOf_lt_length_iff.2 (by decide)⟩ = ix3 r (0 : Fin 1) (0 : Fin 1) := by
      funext b; refine Fin.ext ?_
      match b with
      | ⟨0, _⟩ => rfl
      | ⟨1, _⟩ => rfl
      | ⟨2, _⟩ => rfl
    rw [hsi, hidx, toInt_small n hn]
    show min (n : Int).toNat (8192 - 1) + 0 + 0 = n
    rw [Int.toNat_natCast]; omega
  match a with
  | ⟨0, _⟩ => exact h0
  | ⟨1, _⟩ => exact h1

/-! ## The rows' terms and the loss -/

/-- Entry (r, 0) of the gathered log-softmax: the direct arrangement's term of row r. -/
theorem term_apply (x0 x1 : (⟨S4096x256, .f32⟩ : BufTy).Contents (Elt Ideal)) (r : Fin 8192) :
    val_main_v30 (F := Ideal) x0 x1 (ix2 r (0 : Fin 1))
      = Cert.NtXent.termR (Cert.NtXent.simR (Rs x0 x1) r) (Cert.NtXent.label r) := by
  rw [val_main_v30_apply, mask_one, select_one]
  unfold val_main_call1_v13
  rw [gather_apply _ _ r (Cert.NtXent.label r).val (Cert.NtXent.label r).isLt (start_word r), lsm_apply]
  rfl

/-- The reference's result is the direct arrangement of the loss, of the two arguments' rows. -/
theorem val_eq_lossR (x0 x1 : (⟨S4096x256, .f32⟩ : BufTy).Contents (Elt Ideal)) :
    val_main_v33 (F := Ideal) x0 x1 = fun _ => Cert.NtXent.lossR (Cert.NtXent.rowsOf x0) (Cert.NtXent.rowsOf x1) := by
  funext i
  rw [val_main_v33_apply, val_main_v32_apply, val_main_v31_apply, val_main_cst_6_apply, val_main_cst_7_apply, sum_idx2]
  simp only [Ideal.hostNegf_def, Ideal.negf_def, Ideal.hostDivf_def, Ideal.ofBits_def, Ideal.ofBits_zero_f32, Fin.sum_univ_one,
    term_apply]
  rfl

/-- On every device, from any memory with zero counters: every weakly fair execution of the reference terminates with
    its result the direct arrangement of the loss of the two arguments' rows, and the arguments unchanged. -/
theorem run_lossR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = (fun _ => Cert.NtXent.lossR (Cert.NtXent.rowsOf (m ((c.tc : Thread nD τ).loc main_arg0))) (Cert.NtXent.rowsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v33_eq m c).trans (val_eq_lossR _ _)), (h c).2.1, (h c).2.2⟩)
    (Cert.ReferenceIdeal.ValueP.run m ρ)

end Cert.ReferenceIdeal.RefValue

end
-- ==== Proof.LossEqConsts.lean ====
/-
  The literal words of the two arrangements, as the extended reals they denote:
  2, 1/2, 8192, minus infinity, and a positive real (the divisor's floor).
-/
import proofs.«119733_j80255758893848_2_alg».proof.Proof.Spec

noncomputable section

namespace Cert.NtXent

open Idealize.ShloMosaic

/-- The doubling word denotes 2. -/
theorem two_eq : two = ((2 : ℝ) : EReal) := by
  simp [two, Ideal.ofBits, Ideal.ieee, -EReal.coe_mul]; norm_num

/-- The halving word denotes 1/2. -/
theorem half_eq : half = ((1 / 2 : ℝ) : EReal) := by
  simp [half, Ideal.ofBits, Ideal.ieee, -EReal.coe_mul]; norm_num

/-- The row-count word denotes 8192. -/
theorem n8192_eq : n8192 = ((8192 : ℝ) : EReal) := by
  simp [n8192, Ideal.ofBits, Ideal.ieee, -EReal.coe_mul]; norm_num

/-- The start of every maximum denotes minus infinity. -/
theorem ninf_eq : ninf = ⊥ := by
  simp [ninf, Ideal.ofBits, Ideal.ieee]

/-- The divisor's floor denotes a positive real. -/
theorem eps_eq : ∃ e : ℝ, 0 < e ∧ eps = (e : EReal) := by
  refine ⟨_, ?_, by simp [eps, Ideal.ofBits, Ideal.ieee, -EReal.coe_mul]; rfl⟩
  positivity

end Cert.NtXent

end
-- ==== Proof.LossEqReal.lean ====
/-
  Extended-real quantities built from real entries are themselves (coercions of) reals:
  finite sums, products, maxima over a nonempty finite set, and the exponential, logarithm,
  square root and quotient at real arguments.
-/
import proofs.«119733_j80255758893848_2_alg».proof.Proof.Spec

noncomputable section

namespace Cert.NtXent

open Idealize.ShloMosaic

/-- A finite sum of coerced reals is the coercion of the real sum. -/
theorem coe_sum {ι : Type*} (A : Finset ι) (f : ι → ℝ) :
    (∑ i ∈ A, ((f i : ℝ) : EReal)) = ((∑ i ∈ A, f i : ℝ) : EReal) := by
  classical
  induction A using Finset.induction_on with
  | empty => simp
  | insert a A ha ih => rw [Finset.sum_insert ha, Finset.sum_insert ha, ih, EReal.coe_add]

/-- A finite sum of products of coerced reals. -/
theorem coe_sum_mul {ι : Type*} (A : Finset ι) (f g : ι → ℝ) :
    (∑ i ∈ A, ((f i : ℝ) : EReal) * ((g i : ℝ) : EReal)) = ((∑ i ∈ A, f i * g i : ℝ) : EReal) := by
  rw [← coe_sum]
  exact Finset.sum_congr rfl fun i _ => (EReal.coe_mul _ _).symm

/-- The maximum of two coerced reals. -/
theorem coe_max (x y : ℝ) : max ((x : ℝ) : EReal) ((y : ℝ) : EReal) = ((max x y : ℝ) : EReal) :=
  (EReal.coe_strictMono.monotone.map_max).symm

/-- A fold of max from minus infinity is the finite supremum. -/
theorem fold_max_eq_sup {ι : Type*} (A : Finset ι) (s : ι → EReal) :
    A.fold max ⊥ s = A.sup s := rfl

/-- The supremum of coerced reals over a nonempty finite set is attained, hence a coerced real. -/
theorem sup_coe_eq {ι : Type*} (A : Finset ι) (hA : A.Nonempty) (f : ι → ℝ) :
    A.sup (fun c => ((f c : ℝ) : EReal)) = (((A.sup fun c => ((f c : ℝ) : EReal)).toReal : ℝ) : EReal) := by
  obtain ⟨i, _, hi⟩ := Finset.exists_mem_eq_sup A hA fun c => ((f c : ℝ) : EReal)
  rw [hi, EReal.toReal_coe]

/-- The exponential at a difference of coerced reals. -/
theorem exp_coe_sub (x y : ℝ) :
    Ideal.exp (((x : ℝ) : EReal) - ((y : ℝ) : EReal)) = ((Real.exp (x - y) : ℝ) : EReal) := by
  rw [← EReal.coe_sub, Ideal.exp_coe]

/-- The logarithm at a positive coerced real. -/
theorem log_coe_pos {x : ℝ} (hx : 0 < x) : Ideal.log ((x : ℝ) : EReal) = ((Real.log x : ℝ) : EReal) := by
  rw [Ideal.log_coe, if_neg (not_le.mpr hx)]

/-- The square root at a nonnegative coerced real. -/
theorem sqrt_coe_nonneg {x : ℝ} (hx : 0 ≤ x) : Ideal.sqrt ((x : ℝ) : EReal) = ((Real.sqrt x : ℝ) : EReal) := by
  rw [Ideal.sqrt_coe, if_neg (not_lt.mpr hx)]

/-- The quotient of a coerced real by a nonzero coerced real. -/
theorem div_coe_coe (x : ℝ) {y : ℝ} (hy : y ≠ 0) :
    Ideal.div ((x : ℝ) : EReal) ((y : ℝ) : EReal) = ((x / y : ℝ) : EReal) := by
  rw [Ideal.div_coe hy, ← EReal.coe_mul, mul_one_div]

/-- A conditional between a coerced real and zero. -/
theorem ite_coe (p : Prop) [Decidable p] (x : ℝ) :
    (if p then ((x : ℝ) : EReal) else 0) = ((if p then x else 0 : ℝ) : EReal) := by
  split_ifs <;> simp

end Cert.NtXent

end
-- ==== Proof.LossEqStream.lean ====
/-
  The streaming state of a row of real logits, block by block.

  After the blocks before j the running maximum is the maximum over the columns seen so far, the running sum is
  the sum over those columns of exp(logit - that maximum), and the label accumulator is the sum over those
  columns of the logit where the column is the label.  One block keeps this: the new maximum is the maximum
  over the union, the old sum is rescaled by exp(m_old - m_new) * exp(s - m_old) = exp(s - m_new) (before the
  first block the old sum is 0 and stays 0), and the block's own columns are added.  After all 8 blocks the
  columns seen are all 8192.
-/
import proofs.«119733_j80255758893848_2_alg».proof.Proof.Spec
import proofs.«119733_j80255758893848_2_alg».proof.Proof.LossEqConsts
import proofs.«119733_j80255758893848_2_alg».proof.Proof.LossEqReal

noncomputable section

namespace Cert.NtXent

open Idealize.ShloMosaic

/-! ## The columns seen before a block, and a block's columns -/

/-- The columns before block j. -/
def seen (j : ℕ) : Finset (Fin 8192) := Finset.univ.filter fun c => c.val < j * 1024

/-- The columns of block j. -/
def block (j : Fin 8) : Finset (Fin 8192) := Finset.univ.image (col j)

theorem col_injective (j : Fin 8) : Function.Injective (col j) := by
  intro a b h
  have h' := congrArg Fin.val h
  simp only [col] at h'
  exact Fin.ext (by omega)

theorem seen_zero : seen 0 = ∅ := by
  ext c; simp [seen]

theorem seen_succ (j : Fin 8) : seen (j.val + 1) = seen j.val ∪ block j := by
  ext c
  simp only [seen, block, Finset.mem_union, Finset.mem_filter, Finset.mem_univ, true_and, Finset.mem_image]
  constructor
  · intro h
    by_cases h' : c.val < j.val * 1024
    · exact Or.inl h'
    · exact Or.inr ⟨⟨c.val - j.val * 1024, by omega⟩, Fin.ext (by simp only [col]; omega)⟩
  · rintro (h | ⟨c', rfl⟩)
    · omega
    · have := c'.isLt
      simp only [col]; omega

theorem seen_eight : seen 8 = Finset.univ := by
  ext c
  have := c.isLt
  simp only [seen, Finset.mem_filter, Finset.mem_univ, true_and, iff_true]; omega

theorem disjoint_seen_block (j : Fin 8) : Disjoint (seen j.val) (block j) := by
  rw [Finset.disjoint_left]
  intro c hc hb
  simp only [seen, Finset.mem_filter, Finset.mem_univ, true_and] at hc
  simp only [block, Finset.mem_image, Finset.mem_univ, true_and] at hb
  obtain ⟨c', rfl⟩ := hb
  simp only [col] at hc; omega

theorem block_nonempty (j : Fin 8) : (block j).Nonempty :=
  ⟨col j 0, Finset.mem_image_of_mem _ (Finset.mem_univ _)⟩

/-! ## The invariant -/

/-- The real maximum of a real row over a set of columns (the real part of the extended one). -/
def rmaxOn (f : Fin 8192 → ℝ) (A : Finset (Fin 8192)) : ℝ := (A.sup fun c => ((f c : ℝ) : EReal)).toReal

/-- What the carried state is once the columns A have been seen. -/
structure Inv (f : Fin 8192 → ℝ) (lab : Fin 8192) (A : Finset (Fin 8192)) (a : St) : Prop where
  m : a.m = A.sup fun c => ((f c : ℝ) : EReal)
  l : a.l = ((∑ c ∈ A, Real.exp (f c - rmaxOn f A) : ℝ) : EReal)
  t : a.t = ((∑ c ∈ A, if c = lab then f c else 0 : ℝ) : EReal)

theorem inv_init (f : Fin 8192 → ℝ) (lab : Fin 8192) : Inv f lab ∅ init := by
  refine ⟨?_, ?_, ?_⟩
  · show ninf = _
    rw [ninf_eq, Finset.sup_empty]
  · show (0 : EReal) = _
    rw [Finset.sum_empty, EReal.coe_zero]
  · show (0 : EReal) = _
    rw [Finset.sum_empty, EReal.coe_zero]

/-- One block keeps the invariant. -/
theorem inv_step (f : Fin 8192 → ℝ) (lab : Fin 8192) (A : Finset (Fin 8192)) (a : St) (j : Fin 8)
    (h : Inv f lab A a) (hd : Disjoint A (block j)) :
    Inv f lab (A ∪ block j) (step (fun c => ((f c : ℝ) : EReal)) lab a j) := by
  have hm' : max a.m ((Finset.univ : Finset (Fin 1024)).fold max ninf fun c => ((f (col j c) : ℝ) : EReal))
      = (A ∪ block j).sup fun c => ((f c : ℝ) : EReal) := by
    rw [h.m, ninf_eq, fold_max_eq_sup, Finset.sup_union, block, Finset.sup_image]
    rfl
  have hne : (A ∪ block j).Nonempty := (block_nonempty j).inr
  have hM' : ((A ∪ block j).sup fun c => ((f c : ℝ) : EReal)) = ((rmaxOn f (A ∪ block j) : ℝ) : EReal) :=
    sup_coe_eq _ hne f
  have h2 : ∑ c : Fin 1024, Ideal.exp (((f (col j c) : ℝ) : EReal) - ((rmaxOn f (A ∪ block j) : ℝ) : EReal))
      = ((∑ c ∈ block j, Real.exp (f c - rmaxOn f (A ∪ block j)) : ℝ) : EReal) := by
    rw [block, Finset.sum_image (fun x _ y _ hxy => col_injective j hxy), ← coe_sum]
    exact Finset.sum_congr rfl fun c _ => exp_coe_sub _ _
  have h1 : Ideal.exp (a.m - ((rmaxOn f (A ∪ block j) : ℝ) : EReal)) * a.l
      = ((∑ c ∈ A, Real.exp (f c - rmaxOn f (A ∪ block j)) : ℝ) : EReal) := by
    rcases A.eq_empty_or_nonempty with rfl | hA
    · rw [h.l, Finset.sum_empty, Finset.sum_empty, EReal.coe_zero, mul_zero]
    · have hM : (A.sup fun c => ((f c : ℝ) : EReal)) = ((rmaxOn f A : ℝ) : EReal) := sup_coe_eq A hA f
      rw [h.m, h.l, hM, exp_coe_sub, ← EReal.coe_mul, Finset.mul_sum]
      refine congrArg _ (Finset.sum_congr rfl fun c _ => ?_)
      rw [← Real.exp_add]
      exact congrArg _ (by ring)
  have h3 : ∑ c : Fin 1024, (if col j c = lab then ((f (col j c) : ℝ) : EReal) else 0)
      = ((∑ c ∈ block j, if c = lab then f c else 0 : ℝ) : EReal) := by
    rw [block, Finset.sum_image (fun x _ y _ hxy => col_injective j hxy), ← coe_sum]
    exact Finset.sum_congr rfl fun c _ => ite_coe _ _
  refine ⟨hm', ?_, ?_⟩
  · show Ideal.exp (a.m - max a.m ((Finset.univ : Finset (Fin 1024)).fold max ninf
          fun c => ((f (col j c) : ℝ) : EReal))) * a.l
        + ∑ c : Fin 1024, Ideal.exp (((f (col j c) : ℝ) : EReal) - max a.m ((Finset.univ : Finset (Fin 1024)).fold max ninf
          fun c => ((f (col j c) : ℝ) : EReal))) = _
    rw [hm', hM', h1, h2, ← EReal.coe_add, Finset.sum_union hd]
  · show a.t + ∑ c : Fin 1024, (if col j c = lab then ((f (col j c) : ℝ) : EReal) else 0) = _
    rw [h.t, h3, ← EReal.coe_add, Finset.sum_union hd]

/-- After the blocks before j, the columns before block j have been seen. -/
theorem inv_stateAt (f : Fin 8192 → ℝ) (lab : Fin 8192) :
    ∀ j : ℕ, j ≤ 8 → Inv f lab (seen j) (stateAt (fun c => ((f c : ℝ) : EReal)) lab j)
  | 0, _ => by
    rw [seen_zero]
    exact inv_init f lab
  | j + 1, hj => by
    have hlt : j < 8 := by omega
    have hs : stateAt (fun c => ((f c : ℝ) : EReal)) lab (j + 1)
        = step (fun c => ((f c : ℝ) : EReal)) lab (stateAt (fun c => ((f c : ℝ) : EReal)) lab j) ⟨j, hlt⟩ := by
      rw [stateAt, dif_pos hlt]
    rw [hs, seen_succ ⟨j, hlt⟩]
    exact inv_step f lab _ _ ⟨j, hlt⟩ (inv_stateAt f lab j (by omega)) (disjoint_seen_block ⟨j, hlt⟩)

/-! ## After all 8 blocks -/

/-- The real maximum of a real row. -/
def rmax (f : Fin 8192 → ℝ) : ℝ := rmaxOn f Finset.univ

/-- The running maximum after all 8 blocks is the row's real maximum. -/
theorem stateAt_m (f : Fin 8192 → ℝ) (lab : Fin 8192) :
    (stateAt (fun c => ((f c : ℝ) : EReal)) lab 8).m = ((rmax f : ℝ) : EReal) := by
  have h := (inv_stateAt f lab 8 le_rfl).m
  rw [seen_eight] at h
  rw [h]
  exact sup_coe_eq _ Finset.univ_nonempty f

/-- The running sum after all 8 blocks is the real sum of exp(logit - maximum) over all columns. -/
theorem stateAt_l (f : Fin 8192 → ℝ) (lab : Fin 8192) :
    (stateAt (fun c => ((f c : ℝ) : EReal)) lab 8).l = ((∑ c, Real.exp (f c - rmax f) : ℝ) : EReal) := by
  have h := (inv_stateAt f lab 8 le_rfl).l
  rw [seen_eight] at h
  exact h

/-- The label accumulator after all 8 blocks is the logit at the label. -/
theorem stateAt_t (f : Fin 8192 → ℝ) (lab : Fin 8192) :
    (stateAt (fun c => ((f c : ℝ) : EReal)) lab 8).t = ((f lab : ℝ) : EReal) := by
  have h := (inv_stateAt f lab 8 le_rfl).t
  rw [seen_eight, Finset.sum_ite_eq' Finset.univ lab f, if_pos (Finset.mem_univ _)] at h
  exact h

/-- The direct arrangement's row maximum is the same real. -/
theorem rowMax_coe (f : Fin 8192 → ℝ) : rowMax (fun c => ((f c : ℝ) : EReal)) = ((rmax f : ℝ) : EReal) := by
  rw [rowMax, ninf_eq, fold_max_eq_sup, bot_sup_eq]
  exact sup_coe_eq _ Finset.univ_nonempty f

end Cert.NtXent

end
-- ==== Proof.LossEq.lean ====
/-
  The two arrangements of the loss agree on real inputs.

  With every input entry a real, every normalised entry is a real (the sum of squares is a nonnegative real,
  its square root a real, the maximum with a positive real positive, the quotient a real); every logit is a
  real, the same on both sides (x * 2 = x / (1/2)); for a row of real logits with maximum M and
  S = sum of exp(logit - M) > 0, the streaming term is M + log S - (logit at the label) and the direct term is
  (logit at the label) - M - log S, its negative; so the two losses are the same real.
-/
import proofs.«119733_j80255758893848_2_alg».proof.Proof.Spec
import proofs.«119733_j80255758893848_2_alg».proof.Proof.LossEqConsts
import proofs.«119733_j80255758893848_2_alg».proof.Proof.LossEqReal
import proofs.«119733_j80255758893848_2_alg».proof.Proof.LossEqStream

noncomputable section

namespace Cert.NtXent

open Idealize.ShloMosaic

/-! ## A row's term, on real logits -/

/-- The sum of exp(logit - maximum) over a row is positive. -/
theorem sumExp_pos (f : Fin 8192 → ℝ) : 0 < ∑ c, Real.exp (f c - rmax f) :=
  Finset.sum_pos (fun c _ => Real.exp_pos _) Finset.univ_nonempty

/-- The streaming term of a row of real logits. -/
theorem termK_coe (f : Fin 8192 → ℝ) (lab : Fin 8192) :
    termK (fun c => ((f c : ℝ) : EReal)) lab
      = ((rmax f + Real.log (∑ c, Real.exp (f c - rmax f)) - f lab : ℝ) : EReal) := by
  rw [termK, stateAt_m, stateAt_l, stateAt_t, log_coe_pos (sumExp_pos f), ← EReal.coe_add, ← EReal.coe_sub]

/-- The direct term of a row of real logits. -/
theorem termR_coe (f : Fin 8192 → ℝ) (lab : Fin 8192) :
    termR (fun c => ((f c : ℝ) : EReal)) lab
      = ((f lab - rmax f - Real.log (∑ c, Real.exp (f c - rmax f)) : ℝ) : EReal) := by
  have hS : ∑ c : Fin 8192, Ideal.exp (((f c : ℝ) : EReal) - ((rmax f : ℝ) : EReal))
      = ((∑ c, Real.exp (f c - rmax f) : ℝ) : EReal) := by
    rw [← coe_sum]
    exact Finset.sum_congr rfl fun c _ => exp_coe_sub _ _
  rw [termR, rowMax_coe, zero_add]
  show (((f lab : ℝ) : EReal) - ((rmax f : ℝ) : EReal))
      - Ideal.log (∑ c : Fin 8192, Ideal.exp (((f c : ℝ) : EReal) - ((rmax f : ℝ) : EReal))) = _
  rw [hS, log_coe_pos (sumExp_pos f), ← EReal.coe_sub, ← EReal.coe_sub]

/-! ## The normalised rows are real -/

/-- The divisor of a row of reals is a positive real. -/
theorem nrm_coe (a : Fin 256 → ℝ) : ∃ y : ℝ, 0 < y ∧ nrm (fun k => ((a k : ℝ) : EReal)) = ((y : ℝ) : EReal) := by
  obtain ⟨e, he, hee⟩ := eps_eq
  refine ⟨max (Real.sqrt (∑ k, a k * a k)) e, lt_max_of_lt_right he, ?_⟩
  show max (Ideal.sqrt (∑ k, ((a k : ℝ) : EReal) * ((a k : ℝ) : EReal))) eps = _
  rw [hee, coe_sum_mul, sqrt_coe_nonneg (Finset.sum_nonneg fun k _ => mul_self_nonneg _), coe_max]

/-- A normalised row of reals is a row of reals. -/
theorem unit_coe (a : Fin 256 → ℝ) (d : Fin 256) : ∃ u : ℝ, unit (fun k => ((a k : ℝ) : EReal)) d = ((u : ℝ) : EReal) := by
  obtain ⟨y, hy, hyy⟩ := nrm_coe a
  refine ⟨a d / y, ?_⟩
  show Ideal.div ((a d : ℝ) : EReal) (nrm fun k => ((a k : ℝ) : EReal)) = _
  rw [hyy]
  exact div_coe_coe _ hy.ne'

/-- All 8192 normalised rows are rows of reals. -/
theorem reps_coe (zi zj : Fin 4096 → Fin 256 → EReal)
    (hi : ∀ r d, ∃ x : ℝ, zi r d = (x : EReal)) (hj : ∀ r d, ∃ x : ℝ, zj r d = (x : EReal)) :
    ∃ R : Fin 8192 → Fin 256 → ℝ, reps zi zj = fun r d => ((R r d : ℝ) : EReal) := by
  choose a ha using hi
  choose b hb using hj
  have hzi : ∀ r, zi r = fun d => ((a r d : ℝ) : EReal) := fun r => funext (ha r)
  have hzj : ∀ r, zj r = fun d => ((b r d : ℝ) : EReal) := fun r => funext (hb r)
  have h : ∀ r d, ∃ x : ℝ, reps zi zj r d = ((x : ℝ) : EReal) := by
    intro r d
    unfold reps
    split_ifs with hr
    · rw [hzi]
      exact unit_coe _ d
    · rw [hzj]
      exact unit_coe _ d
  choose R hR using h
  exact ⟨R, funext fun r => funext fun d => hR r d⟩

/-! ## The logits are real, and the same on both sides -/

/-- The inner product of two rows of reals. -/
theorem dot_coe (u v : Fin 256 → ℝ) :
    dot (fun k => ((u k : ℝ) : EReal)) (fun k => ((v k : ℝ) : EReal)) = ((∑ k, u k * v k : ℝ) : EReal) :=
  coe_sum_mul Finset.univ u v

/-- The doubled logits of rows of reals. -/
theorem simK_coe (R : Fin 8192 → Fin 256 → ℝ) (r : Fin 8192) :
    simK (fun r d => ((R r d : ℝ) : EReal)) r = fun c => (((∑ k, R r k * R c k) * 2 : ℝ) : EReal) := by
  funext c
  show dot (fun d => ((R r d : ℝ) : EReal)) (fun d => ((R c d : ℝ) : EReal)) * two = _
  rw [dot_coe, two_eq, EReal.coe_mul]

/-- The logits divided by one half, of rows of reals: the same reals. -/
theorem simR_coe (R : Fin 8192 → Fin 256 → ℝ) (r : Fin 8192) :
    simR (fun r d => ((R r d : ℝ) : EReal)) r = fun c => (((∑ k, R r k * R c k) * 2 : ℝ) : EReal) := by
  funext c
  show Ideal.div (dot (fun d => ((R r d : ℝ) : EReal)) (fun d => ((R c d : ℝ) : EReal))) half = _
  rw [dot_coe, half_eq, div_coe_coe _ (by norm_num : (1 / 2 : ℝ) ≠ 0)]
  exact congrArg _ (by ring)

/-! ## The two losses -/

theorem lossK_eq_lossR (zi zj : Fin 4096 → Fin 256 → EReal)
    (hi : ∀ r d, ∃ x : ℝ, zi r d = (x : EReal)) (hj : ∀ r d, ∃ x : ℝ, zj r d = (x : EReal)) :
    lossK zi zj = lossR zi zj := by
  obtain ⟨R, hR⟩ := reps_coe zi zj hi hj
  have hK : ∑ r : Fin 8192, termK (simK (reps zi zj) r) (label r)
      = ((∑ r : Fin 8192, (rmax (fun c => (∑ k, R r k * R c k) * 2)
          + Real.log (∑ c, Real.exp ((∑ k, R r k * R c k) * 2 - rmax fun c => (∑ k, R r k * R c k) * 2))
          - (∑ k, R r k * R (label r) k) * 2) : ℝ) : EReal) := by
    rw [← coe_sum]
    refine Finset.sum_congr rfl fun r _ => ?_
    rw [hR, simK_coe]
    exact termK_coe (fun c => (∑ k, R r k * R c k) * 2) (label r)
  have hRr : ∑ r : Fin 8192, termR (simR (reps zi zj) r) (label r)
      = ((∑ r : Fin 8192, ((∑ k, R r k * R (label r) k) * 2 - rmax (fun c => (∑ k, R r k * R c k) * 2)
          - Real.log (∑ c, Real.exp ((∑ k, R r k * R c k) * 2 - rmax fun c => (∑ k, R r k * R c k) * 2))) : ℝ)
          : EReal) := by
    rw [← coe_sum]
    refine Finset.sum_congr rfl fun r _ => ?_
    rw [hR, simR_coe]
    exact termR_coe (fun c => (∑ k, R r k * R c k) * 2) (label r)
  rw [lossK, lossR, hK, hRr, n8192_eq, zero_add, zero_add,
    div_coe_coe _ (by norm_num : (8192 : ℝ) ≠ 0), div_coe_coe _ (by norm_num : (8192 : ℝ) ≠ 0), ← EReal.coe_neg]
  refine congrArg _ ?_
  rw [← neg_div, ← Finset.sum_neg_distrib]
  refine congrArg (· / _) (Finset.sum_congr rfl fun r _ => ?_)
  ring

end Cert.NtXent

end
-- ==== Proof.lean ====
/-
  The certificate's five claims.

  Both programs compute the contrastive loss of two 4096 x 256 arrays: every row divided by max(sqrt(sum of its
  squares), eps); the 8192 normalised rows' pairwise inner products, scaled by 2 (times 2 on one side, divided by 1/2
  on the other); per row, log(sum over columns of exp(logit)) minus the logit at the row's label column; the mean over
  the 8192 rows. The kernel takes each row's log-sum-exp in eight blocks of 1024 columns with a running maximum and a
  rescaled running sum; the reference takes the row's maximum over all columns first. Over the extended reals, for
  finite inputs, the two are one number: the exponential shift law exp(a - b) · exp(s - a) = exp(s - b) carries the
  running sum from one maximum to the next, the maximum of the block maxima is the row maximum, exactly one column is
  the label, and every intermediate is a real, so the sums and the negation may be rearranged.

  The frames: each kernel program is its three calls and two stretches of host operations run in order, every unscoped
  buffer followed from the launch to the end; no segment writes an argument array. The reference has no kernel: its
  frame is its run with the result dropped.
-/
import proofs.«119733_j80255758893848_2_alg».proof.Defs
import proofs.«119733_j80255758893848_2_alg».proof.Proof.Gen.Kernel
import proofs.«119733_j80255758893848_2_alg».proof.Proof.Gen.KernelIdeal
import proofs.«119733_j80255758893848_2_alg».proof.Proof.Gen.ReferenceIdeal
import proofs.«119733_j80255758893848_2_alg».proof.Proof.Gen.Pre_finite_inputs
import proofs.«119733_j80255758893848_2_alg».proof.Proof.K.Program
import proofs.«119733_j80255758893848_2_alg».proof.Proof.KI.Program
import proofs.«119733_j80255758893848_2_alg».proof.Proof.KI.Value
import proofs.«119733_j80255758893848_2_alg».proof.Proof.KI.Finite
import proofs.«119733_j80255758893848_2_alg».proof.Proof.RefLoss
import proofs.«119733_j80255758893848_2_alg».proof.Proof.LossEq
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernel_ideal : Cert.frame_KernelIdeal := fun m ρ _ => Cert.KernelIdeal.Hand.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.RefValue.run_lossR m ρ)

/-- The idealization rewrote no operation. -/
theorem preserves : Cert.preserves_Kernel_KernelIdeal := trivial

/-- At the ideal instance the kernel ends at the streaming loss of its argument arrays' rows and the reference at the
    direct loss of its own, which are the kernel's; for finite entries the two losses are one number. -/
theorem algebraic : Cert.algebraic_KernelIdeal_ReferenceIdeal := by
  intro m ρ m' ρ' hpre hagree
  refine ⟨fun c => fun _ => Cert.NtXent.lossK (Cert.KernelIdeal.Hand.rowsI m c) (Cert.KernelIdeal.Hand.rowsJ m c), ?_, ?_⟩
  · exact (θ_run Cert.KernelIdeal.defs _ _).mono
      (fun r h c => ⟨(h c).1.trans (Cert.KernelIdeal.Hand.kernel_value m c), (h c).2⟩) (Cert.KernelIdeal.Hand.run_result m ρ)
  · refine (θ_run Cert.ReferenceIdeal.defs _ _).mono (fun r h c => ⟨(h c).1.trans ?_, (h c).2⟩)
      (Cert.ReferenceIdeal.RefValue.run_lossR m' ρ')
    rw [(hagree c).1, (hagree c).2]
    funext _
    obtain ⟨hi, hj⟩ := Cert.KernelIdeal.Hand.inputs_real m hpre c
    exact (Cert.NtXent.lossK_eq_lossR _ _ hi hj).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
